-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v75_0)) (v1 : (c : Dev Cert.KernelIdeal.nD) → Buf (Elt Ideal) ((c.tc : Thread Cert.KernelIdeal.nD Cert.KernelIdeal.τ).loc Cert.KernelIdeal.main_v75_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75_0) = v0 c
          ∧ r.2.mem ((c.tc : Thread Cert.KernelIdeal.nD Cert.KernelIdeal.τ).loc Cert.KernelIdeal.main_v75_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S2x64 : Shape := ⟨2, ![2, 64]⟩
abbrev S128x128 : Shape := ⟨2, ![128, 128]⟩
abbrev S128 : Shape := ⟨1, ![128]⟩
abbrev S50000x1 : Shape := ⟨2, ![50000, 1]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S2x64 : S_.BroadcastsInDim S2x64 (![] : Fin 0 → Fin S2x64.rank)
  reducesTo_S2x64_S_d0_1 : S2x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S50000x1 : S_.BroadcastsInDim S50000x1 (![] : Fin 0 → Fin S50000x1.rank)
  reducesTo_S50000x1_S_d0_1 : S50000x1.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_arg23 : FVec F S50000x1 .f32) (main_arg24 : FVec F S128x64 .f32) (main_arg25 : FVec F S64 .f32) (main_v98 : IVec S_ 1) (main_v101 : IVec S50000x1 1) (main_c_39 : IVec S_ 1) : IVec S_ 1 :=
  let main_v102 : IVec S_ 1 := (fun x v => Host.reduce IntOp.andi x v reducesTo_S50000x1_S_d0_1 h_S_) main_v101 main_c_39
  let main_v103 : IVec S_ 1 := andi main_v98 main_v102
  let main_v104 : FVec F S50000x1 .f32 := Host.absf main_arg23
  let main_cst_40 : FVec F S_ .f32 := constant S_ .f32 0x7F800000#32
  let main_v105 : FVec F S50000x1 .f32 := broadcastInDim S50000x1 ![] bcast_S_S50000x1 main_cst_40
  let main_v106 : IVec S50000x1 1 := cmpf .olt main_v104 main_v105
  let main_c_41 : IVec S_ 1 := constantI S_ 1 1#1
  let main_v107 : IVec S_ 1 := (fun x v => Host.reduce IntOp.andi x v reducesTo_S50000x1_S_d0_1 h_S_) main_v106 main_c_41
  let main_v108 : IVec S_ 1 := andi main_v103 main_v107
  let main_v109 : FVec F S128x64 .f32 := Host.absf main_arg24
  let main_cst_42 : FVec F S_ .f32 := constant S_ .f32 0x7F800000#32
  let main_v110 : FVec F S128x64 .f32 := broadcastInDim S128x64 ![] bcast_S_S128x64 main_cst_42
  let main_v111 : IVec S128x64 1 := cmpf .olt main_v109 main_v110
  let main_c_43 : IVec S_ 1 := constantI S_ 1 1#1
  let main_v112 : IVec S_ 1 := (fun x v => Host.reduce IntOp.andi x v reducesTo_S128x64_S_d0_1 h_S_) main_v111 main_c_43
  let main_v113 : IVec S_ 1 := andi main_v108 main_v112
  let main_v114 : FVec F S64 .f32 := Host.absf main_arg25
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  main_v118

def fn_part5 {F : FTy → Type} [FloatOps F] (main_arg20 : FVec F S128 .f32) (main_arg21 : FVec F S128 .f32) (main_arg22 : FVec F S50000x1 .f32) (main_arg23 : FVec F S50000x1 .f32) (main_arg24 : FVec F S128x64 .f32) (main_arg25 : FVec F S64 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S50000x1 .f32 := Host.absf main_arg22
  let main_cst_38 : FVec F S_ .f32 := constant S_ .f32 0x7F800000#32
  let main_v100 : FVec F S50000x1 .f32 := broadcastInDim S50000x1 ![] bcast_S_S50000x1 main_cst_38
  let main_v101 : IVec S50000x1 1 := cmpf .olt main_v99 main_v100
  let main_c_39 : IVec S_ 1 := constantI S_ 1 1#1
  fn_part6 (F := F) main_arg23 main_arg24 main_arg25 main_v98 main_v101 main_c_39

def fn_part4 {F : FTy → Type} [FloatOps F] (main_arg16 : FVec F S128x128 .f32) (main_arg17 : FVec F S128x128 .f32) (main_arg18 : FVec F S128 .f32) (main_arg19 : FVec F S128 .f32) (main_arg20 : FVec F S128 .f32) (main_arg21 : FVec F S128 .f32) (main_arg22 : FVec F S50000x1 .f32) (main_arg23 : FVec F S50000x1 .f32) (main_arg24 : FVec F S128x64 .f32) (main_arg25 : FVec F S64 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_v83 main_v84 main_cst_32

def fn_part3 {F : FTy → Type} [FloatOps F] (main_arg13 : FVec F S50000x1 .f32) (main_arg14 : FVec F S50000x1 .f32) (main_arg15 : FVec F S128x128 .f32) (main_arg16 : FVec F S128x128 .f32) (main_arg17 : FVec F S128x128 .f32) (main_arg18 : FVec F S128 .f32) (main_arg19 : FVec F S128 .f32) (main_arg20 : FVec F S128 .f32) (main_arg21 : FVec F S128 .f32) (main_arg22 : FVec F S50000x1 .f32) (main_arg23 : FVec F S50000x1 .f32) (main_arg24 : FVec F S128x64 .f32) (main_arg25 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S50000x1 .f32 := Host.absf main_arg13
  let main_cst_20 : FVec F S_ .f32 := constant S_ .f32 0x7F800000#32
  let main_v55 : FVec F S50000x1 .f32 := broadcastInDim S50000x1 ![] bcast_S_S50000x1 main_cst_20
  let main_v56 : IVec S50000x1 1 := cmpf .olt main_v54 main_v55
  let main_c_21 : IVec S_ 1 := constantI S_ 1 1#1
  let main_v57 : IVec S_ 1 := (fun x v => Host.reduce IntOp.andi x v reducesTo_S50000x1_S_d0_1 h_S_) main_v56 main_c_21
  let main_v58 : IVec S_ 1 := andi main_v53 main_v57
  let main_v59 : FVec F S50000x1 .f32 := Host.absf main_arg14
  let main_cst_22 : FVec F S_ .f32 := constant S_ .f32 0x7F800000#32
  let main_v60 : FVec F S50000x1 .f32 := broadcastInDim S50000x1 ![] bcast_S_S50000x1 main_cst_22
  let main_v61 : IVec S50000x1 1 := cmpf .olt main_v59 main_v60
  let main_c_23 : IVec S_ 1 := constantI S_ 1 1#1
  let main_v62 : IVec S_ 1 := (fun x v => Host.reduce IntOp.andi x v reducesTo_S50000x1_S_d0_1 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_arg22 main_arg23 main_arg24 main_arg25 main_v63 main_v67

def fn_part2 {F : FTy → Type} [FloatOps F] (main_arg9 : FVec F S128 .f32) (main_arg10 : FVec F S128 .f32) (main_arg11 : FVec F S128 .f32) (main_arg12 : FVec F S128 .f32) (main_arg13 : FVec F S50000x1 .f32) (main_arg14 : FVec F S50000x1 .f32) (main_arg15 : FVec F S128x128 .f32) (main_arg16 : FVec F S128x128 .f32) (main_arg17 : FVec F S128x128 .f32) (main_arg18 : FVec F S128 .f32) (main_arg19 : FVec F S128 .f32) (main_arg20 : FVec F S128 .f32) (main_arg21 : FVec F S128 .f32) (main_arg22 : FVec F S50000x1 .f32) (main_arg23 : FVec F S50000x1 .f32) (main_arg24 : FVec F S128x64 .f32) (main_arg25 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_v48 main_v49 main_v50

def fn_part1 {F : FTy → Type} [FloatOps F] (main_arg6 : FVec F S128x128 .f32) (main_arg7 : FVec F S128x128 .f32) (main_arg8 : FVec F S128x128 .f32) (main_arg9 : FVec F S128 .f32) (main_arg10 : FVec F S128 .f32) (main_arg11 : FVec F S128 .f32) (main_arg12 : FVec F S128 .f32) (main_arg13 : FVec F S50000x1 .f32) (main_arg14 : FVec F S50000x1 .f32) (main_arg15 : FVec F S128x128 .f32) (main_arg16 : FVec F S128x128 .f32) (main_arg17 : FVec F S128x128 .f32) (main_arg18 : FVec F S128 .f32) (main_arg19 : FVec F S128 .f32) (main_arg20 : FVec F S128 .f32) (main_arg21 : FVec F S128 .f32) (main_arg22 : FVec F S50000x1 .f32) (main_arg23 : FVec F S50000x1 .f32) (main_arg24 : FVec F S128x64 .f32) (main_arg25 : FVec F S64 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S50000x128 .f32) (main_arg1 : IVec S2x800000 32) (main_arg2 : FVec F S800000 .f32) (main_arg3 : IVec S2x800000 32) (main_arg4 : FVec F S800000 .f32) (main_arg5 : FVec F S2x64 .f32) (main_arg6 : FVec F S128x128 .f32) (main_arg7 : FVec F S128x128 .f32) (main_arg8 : FVec F S128x128 .f32) (main_arg9 : FVec F S128 .f32) (main_arg10 : FVec F S128 .f32) (main_arg11 : FVec F S128 .f32) (main_arg12 : FVec F S128 .f32) (main_arg13 : FVec F S50000x1 .f32) (main_arg14 : FVec F S50000x1 .f32) (main_arg15 : FVec F S128x128 .f32) (main_arg16 : FVec F S128x128 .f32) (main_arg17 : FVec F S128x128 .f32) (main_arg18 : FVec F S128 .f32) (main_arg19 : FVec F S128 .f32) (main_arg20 : FVec F S128 .f32) (main_arg21 : FVec F S128 .f32) (main_arg22 : FVec F S50000x1 .f32) (main_arg23 : FVec F S50000x1 .f32) (main_arg24 : FVec F S128x64 .f32) (main_arg25 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000 .f32 := Host.absf main_arg4
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S2x64 .f32 := Host.absf main_arg5
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S2x64 : Shape := ⟨2, ![2, 64]⟩
abbrev S128x128 : Shape := ⟨2, ![128, 128]⟩
abbrev S128 : Shape := ⟨1, ![128]⟩
abbrev S50000x1 : Shape := ⟨2, ![50000, 1]⟩
abbrev S128x64 : Shape := ⟨2, ![128, 64]⟩
abbrev S64 : Shape := ⟨1, ![64]⟩
abbrev S1x128 : Shape := ⟨2, ![1, 128]⟩
abbrev S1x800000 : Shape := ⟨2, ![1, 800000]⟩
abbrev S800000x1 : Shape := ⟨2, ![800000, 1]⟩
abbrev S_ : Shape := ⟨0, ![]⟩
abbrev S800000x128 : Shape := ⟨2, ![800000, 128]⟩
abbrev S2000x128 : Shape := ⟨2, ![2000, 128]⟩
abbrev S2000x1 : Shape := ⟨2, ![2000, 1]⟩
abbrev S1x64 : Shape := ⟨2, ![1, 64]⟩
abbrev S50000x64 : Shape := ⟨2, ![50000, 64]⟩
abbrev S2000x64 : Shape := ⟨2, ![2000, 64]⟩
abbrev S2000 : Shape := ⟨1, ![2000]⟩

abbrev nBuf : Space → Nat
  | .hbm => 115
  | .vmem => 46
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S2x800000, .i32⟩
  | .hbm, ⟨4, _⟩ => ⟨S800000, .f32⟩
  | .hbm, ⟨5, _⟩ => ⟨S2x64, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S50000x1, .f32⟩
  | .hbm, ⟨14, _⟩ => ⟨S50000x1, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S50000x1, .f32⟩
  | .hbm, ⟨23, _⟩ => ⟨S50000x1, .f32⟩
  | .hbm, ⟨24, _⟩ => ⟨S128x64, .f32⟩
  | .hbm, ⟨25, _⟩ => ⟨S64, .f32⟩
  | .hbm, ⟨26, _⟩ => ⟨S128, .f32⟩
  | .hbm, ⟨27, _⟩ => ⟨S1x128, .f32⟩
  | .hbm, ⟨28, _⟩ => ⟨S50000x128, .f32⟩
  | .hbm, ⟨29, _⟩ => ⟨S50000x128, .f32⟩
  | .hbm, ⟨30, _⟩ => ⟨S1x800000, .i32⟩
  | .hbm, ⟨31, _⟩ => ⟨S800000, .i32⟩
  | .hbm, ⟨32, _⟩ => ⟨S1x800000, .i32⟩
  | .hbm, ⟨33, _⟩ => ⟨S800000, .i32⟩
  | .hbm, ⟨34, _⟩ => ⟨S1x800000, .i32⟩
  | .hbm, ⟨35, _⟩ => ⟨S800000, .i32⟩
  | .hbm, ⟨36, _⟩ => ⟨S1x800000, .i32⟩
  | .hbm, ⟨37, _⟩ => ⟨S800000, .i32⟩
  | .hbm, ⟨38, _⟩ => ⟨S800000x1, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S800000x128, .f32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S800000x1, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S800000x128, .f32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S50000x128, .f32⟩
  | .hbm, ⟨75, _⟩ => ⟨S800000x1, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x128, .f32⟩
  | .hbm, ⟨85, _⟩ => ⟨S800000x128, .f32⟩
  | .hbm, ⟨86, _⟩ => ⟨S800000x128, .f32⟩
  | .hbm, ⟨87, _⟩ => ⟨S_, .f32⟩
  | .hbm, ⟨88, _⟩ => ⟨S50000x128, .f32⟩
  | .hbm, ⟨89, _⟩ => ⟨S800000x1, .i32⟩
  | .hbm, ⟨90, _⟩ => ⟨S50000x128, .f32⟩
  | .hbm, ⟨91, _⟩ => ⟨S800000x1, .f32⟩
  | .hbm, ⟨92, _⟩ => ⟨S_, .i32⟩
  | .hbm, ⟨93, _⟩ => ⟨S800000, .i32⟩
  | .hbm, ⟨94, _⟩ => ⟨S800000, .i1⟩
  | .hbm, ⟨95, _⟩ => ⟨S_, .i32⟩
  | .hbm, ⟨96, _⟩ => ⟨S800000, .i32⟩
  | .hbm, ⟨97, _⟩ => ⟨S800000, .i32⟩
  | .hbm, ⟨98, _⟩ => ⟨S800000, .i32⟩
  | .hbm, ⟨99, _⟩ => ⟨S800000x1, .i32⟩
  | .hbm, ⟨100, _⟩ => ⟨S800000x128, .f32⟩
  | .hbm, ⟨101, _⟩ => ⟨S800000x128, .f32⟩
  | .hbm, ⟨102, _⟩ => ⟨S800000x128, .f32⟩
  | .hbm, ⟨103, _⟩ => ⟨S_, .f32⟩
  | .hbm, ⟨104, _⟩ => ⟨S50000x128, .f32⟩
  | .hbm, ⟨105, _⟩ => ⟨S800000x1, .i32⟩
  | .hbm, ⟨106, _⟩ => ⟨S50000x128, .f32⟩
  | .hbm, ⟨107, _⟩ => ⟨S1x128, .f32⟩
  | .hbm, ⟨108, _⟩ => ⟨S1x128, .f32⟩
  | .hbm, ⟨109, _⟩ => ⟨S1x128, .f32⟩
  | .hbm, ⟨110, _⟩ => ⟨S1x128, .f32⟩
  | .hbm, ⟨111, _⟩ => ⟨S50000x128, .f32⟩
  | .hbm, ⟨112, _⟩ => ⟨S1x64, .f32⟩
  | .hbm, ⟨113, _⟩ => ⟨S50000x64, .f32⟩
  | .hbm, ⟨114, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S2000x1, .f32⟩
  | .local _ .vmem, ⟨14, _⟩ => ⟨S2000x1, .f32⟩
  | .local _ .vmem, ⟨15, _⟩ => ⟨S2000x1, .f32⟩
  | .local _ .vmem, ⟨16, _⟩ => ⟨S2000x1, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S2000x1, .f32⟩
  | .local _ .vmem, ⟨33, _⟩ => ⟨S2000x1, .f32⟩
  | .local _ .vmem, ⟨34, _⟩ => ⟨S2000x1, .f32⟩
  | .local _ .vmem, ⟨35, _⟩ => ⟨S2000x1, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S128x64, .f32⟩
  | .local _ .vmem, ⟨41, _⟩ => ⟨S1x64, .f32⟩
  | .local _ .vmem, ⟨42, _⟩ => ⟨S2000x64, .f32⟩
  | .local _ .vmem, ⟨43, _⟩ => ⟨S2000x64, .f32⟩
  | .local _ .vmem, ⟨44, _⟩ => ⟨S2000x128, .f32⟩
  | .local _ .vmem, ⟨45, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c : Ref sig .tc := ⟨.hbm, 39, rfl⟩
abbrev main_v13 : Ref sig .tc := ⟨.hbm, 40, rfl⟩
abbrev main_v14 : Ref sig .tc := ⟨.hbm, 41, rfl⟩
abbrev main_c_0 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_1 : Ref sig .tc := ⟨.hbm, 55, rfl⟩
abbrev main_v26 : Ref sig .tc := ⟨.hbm, 56, rfl⟩
abbrev main_v27 : Ref sig .tc := ⟨.hbm, 57, rfl⟩
abbrev main_c_2 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_3 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_4 : Ref sig .tc := ⟨.hbm, 76, rfl⟩
abbrev main_v44 : Ref sig .tc := ⟨.hbm, 77, rfl⟩
abbrev main_v45 : Ref sig .tc := ⟨.hbm, 78, rfl⟩
abbrev main_c_5 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_6 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_7 : Ref sig .tc := ⟨.hbm, 92, rfl⟩
abbrev main_v57 : Ref sig .tc := ⟨.hbm, 93, rfl⟩
abbrev main_v58 : Ref sig .tc := ⟨.hbm, 94, rfl⟩
abbrev main_c_8 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_9 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75_0 : Ref sig .tc := ⟨.hbm, 113, rfl⟩
abbrev main_v75_1 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg10_1 : Ref sig .tc := ⟨.vmem, 33, rfl⟩
abbrev cc1_stg11_0 : Ref sig .tc := ⟨.vmem, 34, rfl⟩
abbrev cc1_stg11_1 : Ref sig .tc := ⟨.vmem, 35, rfl⟩
abbrev cc1_stg12_0 : Ref sig .tc := ⟨.vmem, 36, rfl⟩
abbrev cc1_stg12_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg2_0 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem10_1 : DmaSem sig := 33
abbrev cc1_sem11_0 : DmaSem sig := 34
abbrev cc1_sem11_1 : DmaSem sig := 35
abbrev cc1_sem12_0 : DmaSem sig := 36
abbrev cc1_sem12_1 : DmaSem sig := 37
abbrev cc2_sem0_0 : DmaSem sig := 38
abbrev cc2_sem0_1 : DmaSem sig := 39
abbrev cc2_sem1_0 : DmaSem sig := 40
abbrev cc2_sem2_0 : DmaSem sig := 41
abbrev cc2_sem3_0 : DmaSem sig := 42
abbrev cc2_sem3_1 : DmaSem sig := 43
abbrev cc2_sem4_0 : DmaSem sig := 44
abbrev cc2_sem4_1 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2000x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S2000x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S2x64_S128 : S2x64.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  broadcasts_S2000x1_S2000x128 : S2000x1.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  reduces_S2000x128_S2000 : S2000x128.Reduces [1] S2000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x1.size a ≤ S50000x1.size a
  hwx0_10 : ∀ i : grid0.Coords, EltTy.bits .f32 = 32 ∨ (Rect.block (s := S50000x1) S2000x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x1.size a ≤ S50000x1.size a
  hwx0_11 : ∀ i : grid0.Coords, EltTy.bits .f32 = 32 ∨ (Rect.block (s := S50000x1) S2000x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S50000x128.size a
  hwx0_12 : ∀ i : grid0.Coords, EltTy.bits .f32 = 32 ∨ (Rect.block (s := S50000x128) S2000x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x1.size a ≤ S50000x1.size a
  hwx1_10 : ∀ i : grid1.Coords, EltTy.bits .f32 = 32 ∨ (Rect.block (s := S50000x1) S2000x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x1.size a ≤ S50000x1.size a
  hwx1_11 : ∀ i : grid1.Coords, EltTy.bits .f32 = 32 ∨ (Rect.block (s := S50000x1) S2000x1.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x128.size a ≤ S50000x128.size a
  hwx1_12 : ∀ i : grid1.Coords, EltTy.bits .f32 = 32 ∨ (Rect.block (s := S50000x128) S2000x128.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v3) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v41) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S2000x1.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S2000x1.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v42) S2000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v68) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg15) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg16) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg17) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v69) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v70) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v71) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v72) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg22) S2000x1.size cc1_transform_10 reads1_10 false false 2 stage1_10 sem1_10
    hrank1 hreads1_10 hinb1_10 nbuf1_10 (Memref.isWhole_whole _) hwx1_10 hstage1_10

abbrev win1_11 : Pipeline.Window sig grid1 :=
  Pipeline.Window.ofSpec (Memref.whole main_arg23) S2000x1.size cc1_transform_11 reads1_11 false false 2 stage1_11 sem1_11
    hrank1 hreads1_11 hinb1_11 nbuf1_11 (Memref.isWhole_whole _) hwx1_11 hstage1_11

abbrev win1_12 : Pipeline.Window sig grid1 :=
  Pipeline.Window.ofSpec (Memref.whole main_v73) S2000x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v73) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg24) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v74) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75_0) S2000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v75_1) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S2x64 : Shape := ⟨2, ![2, 64]⟩
abbrev S128x128 : Shape := ⟨2, ![128, 128]⟩
abbrev S128 : Shape := ⟨1, ![128]⟩
abbrev S50000x1 : Shape := ⟨2, ![50000, 1]⟩
abbrev S128x64 : Shape := ⟨2, ![128, 64]⟩
abbrev S64 : Shape := ⟨1, ![64]⟩
abbrev S50000x2x64 : Shape := ⟨3, ![50000, 2, 64]⟩
abbrev S1x2x64 : Shape := ⟨3, ![1, 2, 64]⟩
abbrev S800000x1 : Shape := ⟨2, ![800000, 1]⟩
abbrev S1x800000 : Shape := ⟨2, ![1, 800000]⟩
abbrev S_ : Shape := ⟨0, ![]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩
abbrev S50000 : Shape := ⟨1, ![50000]⟩

abbrev nBuf : Space → Nat
  | .hbm => 186
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S2x800000, .i32⟩
  | 4 => ⟨S800000, .f32⟩
  | 5 => ⟨S2x64, .f32⟩
  | 6 => ⟨S128x128, .f32⟩
  | 7 => ⟨S128x128, .f32⟩
  | 8 => ⟨S128x128, .f32⟩
  | 9 => ⟨S128, .f32⟩
  | 10 => ⟨S128, .f32⟩
  | 11 => ⟨S128, .f32⟩
  | 12 => ⟨S128, .f32⟩
  | 13 => ⟨S50000x1, .f32⟩
  | 14 => ⟨S50000x1, .f32⟩
  | 15 => ⟨S128x128, .f32⟩
  | 16 => ⟨S128x128, .f32⟩
  | 17 => ⟨S128x128, .f32⟩
  | 18 => ⟨S128, .f32⟩
  | 19 => ⟨S128, .f32⟩
  | 20 => ⟨S128, .f32⟩
  | 21 => ⟨S128, .f32⟩
  | 22 => ⟨S50000x1, .f32⟩
  | 23 => ⟨S50000x1, .f32⟩
  | 24 => ⟨S128x64, .f32⟩
  | 25 => ⟨S64, .f32⟩
  | 26 => ⟨S50000x2x64, .f32⟩
  | 27 => ⟨S1x2x64, .f32⟩
  | 28 => ⟨S50000x2x64, .f32⟩
  | 29 => ⟨S50000x2x64, .f32⟩
  | 30 => ⟨S50000x128, .f32⟩
  | 31 => ⟨S50000x128, .f32⟩
  | 32 => ⟨S50000x128, .f32⟩
  | 33 => ⟨S800000x1, .f32⟩
  | 34 => ⟨S1x800000, .i32⟩
  | 35 => ⟨S800000, .i32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S800000x128, .f32⟩
  | 46 => ⟨S800000x128, .f32⟩
  | 47 => ⟨S1x800000, .i32⟩
  | 48 => ⟨S800000, .i32⟩
  | 49 => ⟨S_, .f32⟩
  | 50 => ⟨S50000x128, .f32⟩
  | 51 => ⟨S800000x1, .i32⟩
  | 52 => ⟨S50000x128, .f32⟩
  | 53 => ⟨S1x128, .f32⟩
  | 54 => ⟨S50000x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S50000x128, .f32⟩
  | 61 => ⟨S800000x1, .f32⟩
  | 62 => ⟨S1x800000, .i32⟩
  | 63 => ⟨S800000, .i32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S800000x128, .f32⟩
  | 74 => ⟨S800000x128, .f32⟩
  | 75 => ⟨S1x800000, .i32⟩
  | 76 => ⟨S800000, .i32⟩
  | 77 => ⟨S_, .f32⟩
  | 78 => ⟨S50000x128, .f32⟩
  | 79 => ⟨S800000x1, .i32⟩
  | 80 => ⟨S50000x128, .f32⟩
  | 81 => ⟨S1x128, .f32⟩
  | 82 => ⟨S50000x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S50000x128, .f32⟩
  | 89 => ⟨S50000x128, .f32⟩
  | 90 => ⟨S50000x128, .f32⟩
  | 91 => ⟨S50000x128, .f32⟩
  | 92 => ⟨S50000x128, .f32⟩
  | 93 => ⟨S50000x128, .f32⟩
  | 94 => ⟨S50000x128, .f32⟩
  | 95 => ⟨S50000x128, .f32⟩
  | 96 => ⟨S800000x1, .f32⟩
  | 97 => ⟨S1x800000, .i32⟩
  | 98 => ⟨S800000, .i32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .f32⟩
  | 108 => ⟨S800000x128, .f32⟩
  | 109 => ⟨S800000x128, .f32⟩
  | 110 => ⟨S1x800000, .i32⟩
  | 111 => ⟨S800000, .i32⟩
  | 112 => ⟨S_, .f32⟩
  | 113 => ⟨S50000x128, .f32⟩
  | 114 => ⟨S800000x1, .i32⟩
  | 115 => ⟨S50000x128, .f32⟩
  | 116 => ⟨S1x128, .f32⟩
  | 117 => ⟨S50000x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S50000x128, .f32⟩
  | 124 => ⟨S800000x1, .f32⟩
  | 125 => ⟨S1x800000, .i32⟩
  | 126 => ⟨S800000, .i32⟩
  | 127 => ⟨S_, .i32⟩
  | _ => ⟨S50000x128, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x128, .f32⟩
  | 8 => ⟨S800000x128, .f32⟩
  | 9 => ⟨S800000x128, .f32⟩
  | 10 => ⟨S1x800000, .i32⟩
  | 11 => ⟨S800000, .i32⟩
  | 12 => ⟨S_, .f32⟩
  | 13 => ⟨S50000x128, .f32⟩
  | 14 => ⟨S800000x1, .i32⟩
  | 15 => ⟨S50000x128, .f32⟩
  | 16 => ⟨S1x128, .f32⟩
  | 17 => ⟨S50000x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S50000x128, .f32⟩
  | 24 => ⟨S50000x128, .f32⟩
  | 25 => ⟨S50000x128, .f32⟩
  | 26 => ⟨S50000x128, .f32⟩
  | 27 => ⟨S50000x128, .f32⟩
  | 28 => ⟨S50000x128, .f32⟩
  | 29 => ⟨S50000x64, .f32⟩
  | 30 => ⟨S1x64, .f32⟩
  | 31 => ⟨S50000x64, .f32⟩
  | 32 => ⟨S50000x64, .f32⟩
  | 33 => ⟨S_, .f32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x64, .f32⟩
  | 40 => ⟨S50000x64, .f32⟩
  | 41 => ⟨S50000x64, .f32⟩
  | 42 => ⟨S_, .f32⟩
  | 43 => ⟨S50000, .f32⟩
  | 44 => ⟨S50000x1, .f32⟩
  | 45 => ⟨S50000x1, .f32⟩
  | 46 => ⟨S50000x64, .f32⟩
  | 47 => ⟨S50000x64, .f32⟩
  | 48 => ⟨S50000x128, .f32⟩
  | 49 => ⟨S_, .f32⟩
  | 50 => ⟨S50000, .f32⟩
  | 51 => ⟨S50000x1, .f32⟩
  | 52 => ⟨S50000x1, .f32⟩
  | 53 => ⟨S_, .f32⟩
  | 54 => ⟨S50000x1, .f32⟩
  | 55 => ⟨S50000x1, .f32⟩
  | 56 => ⟨S50000x128, .f32⟩
  | 57 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c : Ref sig .tc := ⟨.hbm, 36, rfl⟩
abbrev main_v10 : Ref sig .tc := ⟨.hbm, 37, rfl⟩
abbrev main_v11 : Ref sig .tc := ⟨.hbm, 38, rfl⟩
abbrev main_c_0 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_1 : Ref sig .tc := ⟨.hbm, 64, rfl⟩
abbrev main_v35 : Ref sig .tc := ⟨.hbm, 65, rfl⟩
abbrev main_v36 : Ref sig .tc := ⟨.hbm, 66, rfl⟩
abbrev main_c_2 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_3 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_4 : Ref sig .tc := ⟨.hbm, 99, rfl⟩
abbrev main_v67 : Ref sig .tc := ⟨.hbm, 100, rfl⟩
abbrev main_v68 : Ref sig .tc := ⟨.hbm, 101, rfl⟩
abbrev main_c_5 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_6 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_c_7 : Ref sig .tc := ⟨.hbm, 127, rfl⟩
abbrev main_v92 : Ref sig .tc := ⟨.hbm, 128, rfl⟩
abbrev main_v93 : Ref sig .tc := ⟨.hbm, 129, rfl⟩
abbrev main_c_8 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_9 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_call0_cst : Ref sig .tc := ⟨.hbm, 161, rfl⟩
abbrev main_call0_v0 : Ref sig .tc := ⟨.hbm, 162, rfl⟩
abbrev main_call0_cst_0 : Ref sig .tc := ⟨.hbm, 163, rfl⟩
abbrev main_call0_v1 : Ref sig .tc := ⟨.hbm, 164, rfl⟩
abbrev main_call0_v2 : Ref sig .tc := ⟨.hbm, 165, rfl⟩
abbrev main_call0_v3 : Ref sig .tc := ⟨.hbm, 166, rfl⟩
abbrev main_call0_v4 : Ref sig .tc := ⟨.hbm, 167, rfl⟩
abbrev main_call0_v5 : Ref sig .tc := ⟨.hbm, 168, rfl⟩
abbrev main_call0_v6 : Ref sig .tc := ⟨.hbm, 169, rfl⟩
abbrev main_call0_cst_1 : Ref sig .tc := ⟨.hbm, 170, rfl⟩
abbrev main_call0_v7 : Ref sig .tc := ⟨.hbm, 171, rfl⟩
abbrev main_call0_v8 : Ref sig .tc := ⟨.hbm, 172, rfl⟩
abbrev main_call0_v9 : Ref sig .tc := ⟨.hbm, 173, rfl⟩
abbrev main_call0_v10 : Ref sig .tc := ⟨.hbm, 174, rfl⟩
abbrev main_v123 : Ref sig .tc := ⟨.hbm, 175, rfl⟩
abbrev main_call1_v0 : Ref sig .tc := ⟨.hbm, 176, rfl⟩
abbrev main_call1_cst : Ref sig .tc := ⟨.hbm, 177, rfl⟩
abbrev main_call1_v1 : Ref sig .tc := ⟨.hbm, 178, rfl⟩
abbrev main_call1_v2 : Ref sig .tc := ⟨.hbm, 179, rfl⟩
abbrev main_v124 : Ref sig .tc := ⟨.hbm, 180, rfl⟩
abbrev main_cst_10 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩

abbrev nD : Nat := 1
abbrev τ : Topo := Topo.v7x

variable {F : FTy → Type} [FloatOps F]

class Facts₀ : Prop where
  shapeCasts_S50000x128_S50000x2x64 : S50000x128.ShapeCasts S50000x2x64
  bcast_S2x64_S1x2x64_1_2 : S2x64.BroadcastsInDim S1x2x64 (![1, 2] : Fin 2 → Fin S1x2x64.rank)
  bcast_S1x2x64_S50000x2x64_0_1_2 : S1x2x64.BroadcastsInDim S50000x2x64 (![0, 1, 2] : Fin 3 → Fin S50000x2x64.rank)
  shapeCasts_S50000x2x64_S50000x128 : S50000x2x64.ShapeCasts S50000x128
  bcast_S800000_S800000x1_0 : S800000.BroadcastsInDim S800000x1 (![0] : Fin 1 → Fin S800000x1.rank)
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000x1_S800000x128_0_1 : S800000x1.BroadcastsInDim S800000x128 (![0, 1] : Fin 2 → Fin S800000x128.rank)
  slices_S2x800000_S1x800000_1_0 : S2x800000.Slices ![1, 0] S1x800000
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  reducesTo_S50000x128_S50000_d1 : S50000x128.ReducesTo [1] S50000
  bcast_S_S50000x1 : S_.BroadcastsInDim S50000x1 (![] : Fin 0 → Fin S50000x1.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel's run with every buffer named: @main is three kernel launches among stretches of host
  operations, and when it returns every buffer that outlives a launch holds what the last boundary's contents say —
  the results of the third launch, and everything else as the second host stretch left it.
-/
import proofs.«133618_j24343874634033_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in the final state every buffer that is
    not scoped to a launch holds the contents of the last boundary of the run. -/
theorem run_boundary : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W6 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c b hb => h c _ (mem_uc b hb))

end Cert.KernelIdeal.RunValue

end
-- ==== Proof.LibHostKeeps.lean ====
/-
  A host stretch leaves alone every buffer none of its operations writes: the fold of the stretch over the memory, read
  at such a buffer, is the memory there. The tactic below closes that goal for a literal stretch and a literal buffer,
  one inequality of references per operation.
-/
import Idealize.ShloMosaic.Lib.StableHlo.Run

open Idealize.ShloMosaic

/-- Closes `StableHlo.after ops W b = W b` when no operation of the literal list `ops` writes the literal buffer `b`. -/
macro "host_keeps" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
-- ==== Proof.KHost.lean ====
/-
  The host stretches of the idealized kernel, read as whole-array functions.  Before the first launch the host adds the
  positional term to the features and, for each edge list, gathers the source rows, scales them by the edge weights and
  scatter-adds them at the destinations into zeros; between the first and the second launch it does the same with the
  first layer's output, reusing the index rows it cut out of the edge lists before the first launch; before the third
  it only re-lays the last bias.  No stretch and no launch writes an argument array, and a launch writes only its own
  output array, so every operand of every launch is read back to the launch memory or to an earlier launch's output.
-/
import proofs.«133618_j24343874634033_1_alg».proof.Proof.Gen.KernelIdeal.Frame
import proofs.«133618_j24343874634033_1_alg».proof.Proof.LibHostKeeps
import Idealize.ShloMosaic.PureOps.Ideal
import Idealize.ShloMosaic.PureOps.Ideal.Laws

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo

/-! ## The stretches' terms -/

/-- The features with the positional term added: x + pe, the [2, 64] term flattened to a row of 128 and spread over the rows. -/
def h0Arr (x : FVec Ideal S50000x128 .f32) (pe : FVec Ideal S2x64 .f32) : FVec Ideal S50000x128 .f32 :=
  addf x (broadcastInDim S50000x128 ![0, 1] bcast_S1x128_S50000x128_0_1
    (broadcastInDim S1x128 ![1] bcast_S128_S1x128_1 (shapeCast S128 pe shapeCasts_S2x64_S128)))

/-- Row 0 of an edge list (the sources), as a flat vector of 800000 indices. -/
def edgeRow0 (ei : IVec S2x800000 32) : IVec S800000 32 :=
  shapeCast S800000 (extractStridedSlice S1x800000 ![0, 0] ei slices_S2x800000_S1x800000_0_0) shapeCasts_S1x800000_S800000
/-- Row 1 of an edge list (the destinations). -/
def edgeRow1 (ei : IVec S2x800000 32) : IVec S800000 32 :=
  shapeCast S800000 (extractStridedSlice S1x800000 ![1, 0] ei slices_S2x800000_S1x800000_1_0) shapeCasts_S1x800000_S800000

/-- The gather's start indices from the source row: a negative index is moved up by 50000, then the row is laid out as a column. -/
def srcIdxFrom (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- The scatter's indices from the destination row, laid out as a column. -/
def dstIdxFrom (r : IVec S800000 32) : IVec S800000x1 32 :=
  broadcastInDim S800000x1 ![0] bcast_S800000_S800000x1_0 r

/-- The edge weights spread over the 128 columns. -/
def wcolOf (ew : FVec Ideal S800000 .f32) : FVec Ideal S800000x128 .f32 :=
  broadcastInDim S800000x128 ![0, 1] bcast_S800000x1_S800000x128_0_1
    (broadcastInDim S800000x1 ![0] bcast_S800000_S800000x1_0 ew)

/-- The zero array the scatter accumulates into. -/
def zerosArr : FVec Ideal S50000x128 .f32 :=
  broadcastInDim S50000x128 ![] bcast_S_S50000x128 (constant S_ .f32 0x00000000#32)

/-- One aggregation: gather the rows of X at the sources, scale by the weights, scatter-add at the destinations. -/
def aggFrom (r0 r1 : IVec S800000 32) (ew : FVec Ideal S800000 .f32) (X : FVec Ideal S50000x128 .f32) :
    FVec Ideal S50000x128 .f32 :=
  Host.scatterAdd scatter_S50000x128_S800000x1_S800000x128_1_0_0_1 zerosArr (dstIdxFrom r1)
    (mulf (wcolOf ew) (Host.gather gather_S50000x128_S800000x1_S800000x128_1_0_n_n_0_1_1128 X (srcIdxFrom r0)))

/-- A bias vector laid out as a row [1, 128]. -/
def biasRow (b : FVec Ideal S128 .f32) : FVec Ideal S1x128 .f32 := shapeCast S1x128 b shapeCasts_S128_S1x128

variable (m : (ℓ : Loc nD τ sig) → Buf (Elt Ideal) ℓ) (ρ : Dev nD → PrngReg) (c : Dev nD)

/-! ## Before the first launch -/

theorem W1_v3 : W1 m ρ c (Proc.devRef .tc main_v3) = h0Arr (m ((c : Thread nD τ).loc main_arg0)) (m ((c : Thread nD τ).loc main_arg5)) := by
  show StableHlo.after hostOps0 (W0 m ρ c) (Proc.devRef .tc main_v3) = _
  after_results_simp
  rfl

theorem W1_v5 : W1 m ρ c (Proc.devRef .tc main_v5) = edgeRow0 (m ((c : Thread nD τ).loc main_arg1)) := by
  show StableHlo.after hostOps0 (W0 m ρ c) (Proc.devRef .tc main_v5) = _
  after_results_simp
  rfl
theorem W1_v7 : W1 m ρ c (Proc.devRef .tc main_v7) = edgeRow1 (m ((c : Thread nD τ).loc main_arg1)) := by
  show StableHlo.after hostOps0 (W0 m ρ c) (Proc.devRef .tc main_v7) = _
  after_results_simp
  rfl
theorem W1_v9 : W1 m ρ c (Proc.devRef .tc main_v9) = edgeRow0 (m ((c : Thread nD τ).loc main_arg3)) := by
  show StableHlo.after hostOps0 (W0 m ρ c) (Proc.devRef .tc main_v9) = _
  after_results_simp
  rfl
theorem W1_v11 : W1 m ρ c (Proc.devRef .tc main_v11) = edgeRow1 (m ((c : Thread nD τ).loc main_arg3)) := by
  show StableHlo.after hostOps0 (W0 m ρ c) (Proc.devRef .tc main_v11) = _
  after_results_simp
  rfl

theorem W1_v24 : W1 m ρ c (Proc.devRef .tc main_v24)
    = aggFrom (edgeRow0 (m ((c : Thread nD τ).loc main_arg1))) (edgeRow1 (m ((c : Thread nD τ).loc main_arg1))) (m ((c : Thread nD τ).loc main_arg2)) (h0Arr (m ((c : Thread nD τ).loc main_arg0)) (m ((c : Thread nD τ).loc main_arg5))) := by
  show StableHlo.after hostOps0 (W0 m ρ c) (Proc.devRef .tc main_v24) = _
  after_results_simp
  rfl

theorem W1_v37 : W1 m ρ c (Proc.devRef .tc main_v37)
    = aggFrom (edgeRow0 (m ((c : Thread nD τ).loc main_arg3))) (edgeRow1 (m ((c : Thread nD τ).loc main_arg3))) (m ((c : Thread nD τ).loc main_arg4)) (h0Arr (m ((c : Thread nD τ).loc main_arg0)) (m ((c : Thread nD τ).loc main_arg5))) := by
  show StableHlo.after hostOps0 (W0 m ρ c) (Proc.devRef .tc main_v37) = _
  after_results_simp
  rfl

theorem W1_v38 : W1 m ρ c (Proc.devRef .tc main_v38) = biasRow (m ((c : Thread nD τ).loc main_arg9)) := by
  show StableHlo.after hostOps0 (W0 m ρ c) (Proc.devRef .tc main_v38) = _
  after_results_simp
  rfl
theorem W1_v39 : W1 m ρ c (Proc.devRef .tc main_v39) = biasRow (m ((c : Thread nD τ).loc main_arg10)) := by
  show StableHlo.after hostOps0 (W0 m ρ c) (Proc.devRef .tc main_v39) = _
  after_results_simp
  rfl
theorem W1_v40 : W1 m ρ c (Proc.devRef .tc main_v40) = biasRow (m ((c : Thread nD τ).loc main_arg11)) := by
  show StableHlo.after hostOps0 (W0 m ρ c) (Proc.devRef .tc main_v40) = _
  after_results_simp
  rfl
theorem W1_v41 : W1 m ρ c (Proc.devRef .tc main_v41) = biasRow (m ((c : Thread nD τ).loc main_arg12)) := by
  show StableHlo.after hostOps0 (W0 m ρ c) (Proc.devRef .tc main_v41) = _
  after_results_simp
  rfl

theorem W1_arg2 : W1 m ρ c (Proc.devRef .tc main_arg2) = m ((c : Thread nD τ).loc main_arg2) := by
  show StableHlo.after hostOps0 (W0 m ρ c) (Proc.devRef .tc main_arg2) = W0 m ρ c (Proc.devRef .tc main_arg2)
  host_keeps hostOps0
theorem W1_arg4 : W1 m ρ c (Proc.devRef .tc main_arg4) = m ((c : Thread nD τ).loc main_arg4) := by
  show StableHlo.after hostOps0 (W0 m ρ c) (Proc.devRef .tc main_arg4) = W0 m ρ c (Proc.devRef .tc main_arg4)
  host_keeps hostOps0
theorem W1_arg6 : W1 m ρ c (Proc.devRef .tc main_arg6) = m ((c : Thread nD τ).loc main_arg6) := by
  show StableHlo.after hostOps0 (W0 m ρ c) (Proc.devRef .tc main_arg6) = W0 m ρ c (Proc.devRef .tc main_arg6)
  host_keeps hostOps0
theorem W1_arg7 : W1 m ρ c (Proc.devRef .tc main_arg7) = m ((c : Thread nD τ).loc main_arg7) := by
  show StableHlo.after hostOps0 (W0 m ρ c) (Proc.devRef .tc main_arg7) = W0 m ρ c (Proc.devRef .tc main_arg7)
  host_keeps hostOps0
theorem W1_arg8 : W1 m ρ c (Proc.devRef .tc main_arg8) = m ((c : Thread nD τ).loc main_arg8) := by
  show StableHlo.after hostOps0 (W0 m ρ c) (Proc.devRef .tc main_arg8) = W0 m ρ c (Proc.devRef .tc main_arg8)
  host_keeps hostOps0
theorem W1_arg13 : W1 m ρ c (Proc.devRef .tc main_arg13) = m ((c : Thread nD τ).loc main_arg13) := by
  show StableHlo.after hostOps0 (W0 m ρ c) (Proc.devRef .tc main_arg13) = W0 m ρ c (Proc.devRef .tc main_arg13)
  host_keeps hostOps0
theorem W1_arg14 : W1 m ρ c (Proc.devRef .tc main_arg14) = m ((c : Thread nD τ).loc main_arg14) := by
  show StableHlo.after hostOps0 (W0 m ρ c) (Proc.devRef .tc main_arg14) = W0 m ρ c (Proc.devRef .tc main_arg14)
  host_keeps hostOps0
theorem W1_arg15 : W1 m ρ c (Proc.devRef .tc main_arg15) = m ((c : Thread nD τ).loc main_arg15) := by
  show StableHlo.after hostOps0 (W0 m ρ c) (Proc.devRef .tc main_arg15) = W0 m ρ c (Proc.devRef .tc main_arg15)
  host_keeps hostOps0
theorem W1_arg16 : W1 m ρ c (Proc.devRef .tc main_arg16) = m ((c : Thread nD τ).loc main_arg16) := by
  show StableHlo.after hostOps0 (W0 m ρ c) (Proc.devRef .tc main_arg16) = W0 m ρ c (Proc.devRef .tc main_arg16)
  host_keeps hostOps0
theorem W1_arg17 : W1 m ρ c (Proc.devRef .tc main_arg17) = m ((c : Thread nD τ).loc main_arg17) := by
  show StableHlo.after hostOps0 (W0 m ρ c) (Proc.devRef .tc main_arg17) = W0 m ρ c (Proc.devRef .tc main_arg17)
  host_keeps hostOps0
theorem W1_arg18 : W1 m ρ c (Proc.devRef .tc main_arg18) = m ((c : Thread nD τ).loc main_arg18) := by
  show StableHlo.after hostOps0 (W0 m ρ c) (Proc.devRef .tc main_arg18) = W0 m ρ c (Proc.devRef .tc main_arg18)
  host_keeps hostOps0
theorem W1_arg19 : W1 m ρ c (Proc.devRef .tc main_arg19) = m ((c : Thread nD τ).loc main_arg19) := by
  show StableHlo.after hostOps0 (W0 m ρ c) (Proc.devRef .tc main_arg19) = W0 m ρ c (Proc.devRef .tc main_arg19)
  host_keeps hostOps0
theorem W1_arg20 : W1 m ρ c (Proc.devRef .tc main_arg20) = m ((c : Thread nD τ).loc main_arg20) := by
  show StableHlo.after hostOps0 (W0 m ρ c) (Proc.devRef .tc main_arg20) = W0 m ρ c (Proc.devRef .tc main_arg20)
  host_keeps hostOps0
theorem W1_arg21 : W1 m ρ c (Proc.devRef .tc main_arg21) = m ((c : Thread nD τ).loc main_arg21) := by
  show StableHlo.after hostOps0 (W0 m ρ c) (Proc.devRef .tc main_arg21) = W0 m ρ c (Proc.devRef .tc main_arg21)
  host_keeps hostOps0
theorem W1_arg22 : W1 m ρ c (Proc.devRef .tc main_arg22) = m ((c : Thread nD τ).loc main_arg22) := by
  show StableHlo.after hostOps0 (W0 m ρ c) (Proc.devRef .tc main_arg22) = W0 m ρ c (Proc.devRef .tc main_arg22)
  host_keeps hostOps0
theorem W1_arg23 : W1 m ρ c (Proc.devRef .tc main_arg23) = m ((c : Thread nD τ).loc main_arg23) := by
  show StableHlo.after hostOps0 (W0 m ρ c) (Proc.devRef .tc main_arg23) = W0 m ρ c (Proc.devRef .tc main_arg23)
  host_keeps hostOps0
theorem W1_arg24 : W1 m ρ c (Proc.devRef .tc main_arg24) = m ((c : Thread nD τ).loc main_arg24) := by
  show StableHlo.after hostOps0 (W0 m ρ c) (Proc.devRef .tc main_arg24) = W0 m ρ c (Proc.devRef .tc main_arg24)
  host_keeps hostOps0
theorem W1_arg25 : W1 m ρ c (Proc.devRef .tc main_arg25) = m ((c : Thread nD τ).loc main_arg25) := by
  show StableHlo.after hostOps0 (W0 m ρ c) (Proc.devRef .tc main_arg25) = W0 m ρ c (Proc.devRef .tc main_arg25)
  host_keeps hostOps0

/-! ## After the first launch: only its output array has changed -/

theorem W2_arg2 : W2 m ρ c (Proc.devRef .tc main_arg2) = m ((c : Thread nD τ).loc main_arg2) :=
  (W2_of_ne m ρ c main_arg2 (by decide)).trans (W1_arg2 m ρ c)
theorem W2_arg4 : W2 m ρ c (Proc.devRef .tc main_arg4) = m ((c : Thread nD τ).loc main_arg4) :=
  (W2_of_ne m ρ c main_arg4 (by decide)).trans (W1_arg4 m ρ c)
theorem W2_arg15 : W2 m ρ c (Proc.devRef .tc main_arg15) = m ((c : Thread nD τ).loc main_arg15) :=
  (W2_of_ne m ρ c main_arg15 (by decide)).trans (W1_arg15 m ρ c)
theorem W2_arg16 : W2 m ρ c (Proc.devRef .tc main_arg16) = m ((c : Thread nD τ).loc main_arg16) :=
  (W2_of_ne m ρ c main_arg16 (by decide)).trans (W1_arg16 m ρ c)
theorem W2_arg17 : W2 m ρ c (Proc.devRef .tc main_arg17) = m ((c : Thread nD τ).loc main_arg17) :=
  (W2_of_ne m ρ c main_arg17 (by decide)).trans (W1_arg17 m ρ c)
theorem W2_arg18 : W2 m ρ c (Proc.devRef .tc main_arg18) = m ((c : Thread nD τ).loc main_arg18) :=
  (W2_of_ne m ρ c main_arg18 (by decide)).trans (W1_arg18 m ρ c)
theorem W2_arg19 : W2 m ρ c (Proc.devRef .tc main_arg19) = m ((c : Thread nD τ).loc main_arg19) :=
  (W2_of_ne m ρ c main_arg19 (by decide)).trans (W1_arg19 m ρ c)
theorem W2_arg20 : W2 m ρ c (Proc.devRef .tc main_arg20) = m ((c : Thread nD τ).loc main_arg20) :=
  (W2_of_ne m ρ c main_arg20 (by decide)).trans (W1_arg20 m ρ c)
theorem W2_arg21 : W2 m ρ c (Proc.devRef .tc main_arg21) = m ((c : Thread nD τ).loc main_arg21) :=
  (W2_of_ne m ρ c main_arg21 (by decide)).trans (W1_arg21 m ρ c)
theorem W2_arg22 : W2 m ρ c (Proc.devRef .tc main_arg22) = m ((c : Thread nD τ).loc main_arg22) :=
  (W2_of_ne m ρ c main_arg22 (by decide)).trans (W1_arg22 m ρ c)
theorem W2_arg23 : W2 m ρ c (Proc.devRef .tc main_arg23) = m ((c : Thread nD τ).loc main_arg23) :=
  (W2_of_ne m ρ c main_arg23 (by decide)).trans (W1_arg23 m ρ c)
theorem W2_arg24 : W2 m ρ c (Proc.devRef .tc main_arg24) = m ((c : Thread nD τ).loc main_arg24) :=
  (W2_of_ne m ρ c main_arg24 (by decide)).trans (W1_arg24 m ρ c)
theorem W2_arg25 : W2 m ρ c (Proc.devRef .tc main_arg25) = m ((c : Thread nD τ).loc main_arg25) :=
  (W2_of_ne m ρ c main_arg25 (by decide)).trans (W1_arg25 m ρ c)
theorem W2_v5 : W2 m ρ c (Proc.devRef .tc main_v5) = edgeRow0 (m ((c : Thread nD τ).loc main_arg1)) :=
  (W2_of_ne m ρ c main_v5 (by decide)).trans (W1_v5 m ρ c)
theorem W2_v7 : W2 m ρ c (Proc.devRef .tc main_v7) = edgeRow1 (m ((c : Thread nD τ).loc main_arg1)) :=
  (W2_of_ne m ρ c main_v7 (by decide)).trans (W1_v7 m ρ c)
theorem W2_v9 : W2 m ρ c (Proc.devRef .tc main_v9) = edgeRow0 (m ((c : Thread nD τ).loc main_arg3)) :=
  (W2_of_ne m ρ c main_v9 (by decide)).trans (W1_v9 m ρ c)
theorem W2_v11 : W2 m ρ c (Proc.devRef .tc main_v11) = edgeRow1 (m ((c : Thread nD τ).loc main_arg3)) :=
  (W2_of_ne m ρ c main_v11 (by decide)).trans (W1_v11 m ρ c)

/-- The first launch's output array after the launch. -/
theorem W2_v42 : W2 m ρ c (Proc.devRef .tc main_v42) = (dat0 (V1 m ρ) c).arrAt 12 cfg0.N := W2_arr m ρ c 12

/-! ## Before the second launch -/

theorem W3_v42 : W3 m ρ c (Proc.devRef .tc main_v42) = W2 m ρ c (Proc.devRef .tc main_v42) := by
  show StableHlo.after hostOps1 (W2 m ρ c) (Proc.devRef .tc main_v42) = W2 m ρ c (Proc.devRef .tc main_v42)
  host_keeps hostOps1

theorem W3_v55 : W3 m ρ c (Proc.devRef .tc main_v55)
    = aggFrom (edgeRow0 (m ((c : Thread nD τ).loc main_arg1))) (edgeRow1 (m ((c : Thread nD τ).loc main_arg1))) (m ((c : Thread nD τ).loc main_arg2)) (W2 m ρ c (Proc.devRef .tc main_v42)) := by
  rw [← W2_v5 m ρ c, ← W2_v7 m ρ c, ← W2_arg2 m ρ c]
  show StableHlo.after hostOps1 (W2 m ρ c) (Proc.devRef .tc main_v55) = _
  after_results_simp
  rfl

theorem W3_v68 : W3 m ρ c (Proc.devRef .tc main_v68)
    = aggFrom (edgeRow0 (m ((c : Thread nD τ).loc main_arg3))) (edgeRow1 (m ((c : Thread nD τ).loc main_arg3))) (m ((c : Thread nD τ).loc main_arg4)) (W2 m ρ c (Proc.devRef .tc main_v42)) := by
  rw [← W2_v9 m ρ c, ← W2_v11 m ρ c, ← W2_arg4 m ρ c]
  show StableHlo.after hostOps1 (W2 m ρ c) (Proc.devRef .tc main_v68) = _
  after_results_simp
  rfl

theorem W3_v69 : W3 m ρ c (Proc.devRef .tc main_v69) = biasRow (m ((c : Thread nD τ).loc main_arg18)) := by
  rw [← W2_arg18 m ρ c]
  show StableHlo.after hostOps1 (W2 m ρ c) (Proc.devRef .tc main_v69) = _
  after_results_simp
  rfl
theorem W3_v70 : W3 m ρ c (Proc.devRef .tc main_v70) = biasRow (m ((c : Thread nD τ).loc main_arg19)) := by
  rw [← W2_arg19 m ρ c]
  show StableHlo.after hostOps1 (W2 m ρ c) (Proc.devRef .tc main_v70) = _
  after_results_simp
  rfl
theorem W3_v71 : W3 m ρ c (Proc.devRef .tc main_v71) = biasRow (m ((c : Thread nD τ).loc main_arg20)) := by
  rw [← W2_arg20 m ρ c]
  show StableHlo.after hostOps1 (W2 m ρ c) (Proc.devRef .tc main_v71) = _
  after_results_simp
  rfl
theorem W3_v72 : W3 m ρ c (Proc.devRef .tc main_v72) = biasRow (m ((c : Thread nD τ).loc main_arg21)) := by
  rw [← W2_arg21 m ρ c]
  show StableHlo.after hostOps1 (W2 m ρ c) (Proc.devRef .tc main_v72) = _
  after_results_simp
  rfl

theorem W3_arg15 : W3 m ρ c (Proc.devRef .tc main_arg15) = m ((c : Thread nD τ).loc main_arg15) := by
  refine Eq.trans ?_ (W2_arg15 m ρ c)
  show StableHlo.after hostOps1 (W2 m ρ c) (Proc.devRef .tc main_arg15) = W2 m ρ c (Proc.devRef .tc main_arg15)
  host_keeps hostOps1
theorem W3_arg16 : W3 m ρ c (Proc.devRef .tc main_arg16) = m ((c : Thread nD τ).loc main_arg16) := by
  refine Eq.trans ?_ (W2_arg16 m ρ c)
  show StableHlo.after hostOps1 (W2 m ρ c) (Proc.devRef .tc main_arg16) = W2 m ρ c (Proc.devRef .tc main_arg16)
  host_keeps hostOps1
theorem W3_arg17 : W3 m ρ c (Proc.devRef .tc main_arg17) = m ((c : Thread nD τ).loc main_arg17) := by
  refine Eq.trans ?_ (W2_arg17 m ρ c)
  show StableHlo.after hostOps1 (W2 m ρ c) (Proc.devRef .tc main_arg17) = W2 m ρ c (Proc.devRef .tc main_arg17)
  host_keeps hostOps1
theorem W3_arg22 : W3 m ρ c (Proc.devRef .tc main_arg22) = m ((c : Thread nD τ).loc main_arg22) := by
  refine Eq.trans ?_ (W2_arg22 m ρ c)
  show StableHlo.after hostOps1 (W2 m ρ c) (Proc.devRef .tc main_arg22) = W2 m ρ c (Proc.devRef .tc main_arg22)
  host_keeps hostOps1
theorem W3_arg23 : W3 m ρ c (Proc.devRef .tc main_arg23) = m ((c : Thread nD τ).loc main_arg23) := by
  refine Eq.trans ?_ (W2_arg23 m ρ c)
  show StableHlo.after hostOps1 (W2 m ρ c) (Proc.devRef .tc main_arg23) = W2 m ρ c (Proc.devRef .tc main_arg23)
  host_keeps hostOps1
theorem W3_arg24 : W3 m ρ c (Proc.devRef .tc main_arg24) = m ((c : Thread nD τ).loc main_arg24) := by
  refine Eq.trans ?_ (W2_arg24 m ρ c)
  show StableHlo.after hostOps1 (W2 m ρ c) (Proc.devRef .tc main_arg24) = W2 m ρ c (Proc.devRef .tc main_arg24)
  host_keeps hostOps1
theorem W3_arg25 : W3 m ρ c (Proc.devRef .tc main_arg25) = m ((c : Thread nD τ).loc main_arg25) := by
  refine Eq.trans ?_ (W2_arg25 m ρ c)
  show StableHlo.after hostOps1 (W2 m ρ c) (Proc.devRef .tc main_arg25) = W2 m ρ c (Proc.devRef .tc main_arg25)
  host_keeps hostOps1

/-! ## After the second launch, and before the third -/

/-- The second launch's output array after the launch. -/
theorem W4_v73 : W4 m ρ c (Proc.devRef .tc main_v73) = (dat1 (V3 m ρ) c).arrAt 12 cfg1.N := W4_arr m ρ c 12

theorem W5_v73 : W5 m ρ c (Proc.devRef .tc main_v73) = W4 m ρ c (Proc.devRef .tc main_v73) := by
  show StableHlo.after hostOps2 (W4 m ρ c) (Proc.devRef .tc main_v73) = W4 m ρ c (Proc.devRef .tc main_v73)
  host_keeps hostOps2

theorem W4_arg24 : W4 m ρ c (Proc.devRef .tc main_arg24) = m ((c : Thread nD τ).loc main_arg24) :=
  (W4_of_ne m ρ c main_arg24 (by decide)).trans (W3_arg24 m ρ c)
theorem W4_arg25 : W4 m ρ c (Proc.devRef .tc main_arg25) = m ((c : Thread nD τ).loc main_arg25) :=
  (W4_of_ne m ρ c main_arg25 (by decide)).trans (W3_arg25 m ρ c)

theorem W5_arg24 : W5 m ρ c (Proc.devRef .tc main_arg24) = m ((c : Thread nD τ).loc main_arg24) := by
  refine Eq.trans ?_ (W4_arg24 m ρ c)
  show StableHlo.after hostOps2 (W4 m ρ c) (Proc.devRef .tc main_arg24) = W4 m ρ c (Proc.devRef .tc main_arg24)
  host_keeps hostOps2

/-- The last bias laid out as a row [1, 64]. -/
theorem W5_v74 : W5 m ρ c (Proc.devRef .tc main_v74) = shapeCast S1x64 (m ((c : Thread nD τ).loc main_arg25)) shapeCasts_S64_S1x64 := by
  rw [← W4_arg25 m ρ c]
  show StableHlo.after hostOps2 (W4 m ρ c) (Proc.devRef .tc main_v74) = _
  after_results_simp
  rfl

/-- The third launch's two output arrays after the launch. -/
theorem W6_v75_0 : W6 m ρ c (Proc.devRef .tc main_v75_0) = (dat2 (V5 m ρ) c).arrAt 3 cfg2.N := W6_arr m ρ c 3
theorem W6_v75_1 : W6 m ρ c (Proc.devRef .tc main_v75_1) = (dat2 (V5 m ρ) c).arrAt 4 cfg2.N := W6_arr m ρ c 4

end Cert.KernelIdeal.HostValue

end
-- ==== Proof.Spec.lean ====
/-
  What the two programs compute, entry by entry, on the extended reals.

  A graph layer takes node features H : [N, D] and, for each of two edge lists, forms at node n the weighted sum of the
  features of the sources of the edges that end at n.  One program multiplies the features by a weight matrix first and
  aggregates the products; the other aggregates the raw features and multiplies the aggregate by the matrix.  Both then
  add two bias rows and the shared product H · Ws, gate the two directions by per-node factors, and apply tanh.  The
  head takes the last features to logits H · Wd + b, subtracts each row's maximum and the logarithm of the row's sum of
  exponentials, and also divides each row of H by its Euclidean norm, bounded below by a small constant.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A matrix of extended reals with r rows and c columns. -/
abbrev Mat (r c : Nat) := (⟨2, ![r, c]⟩ : Shape).Idx → EReal
/-- A vector of extended reals of length n. -/
abbrev Vect (n : Nat) := (⟨1, ![n]⟩ : Shape).Idx → EReal

/-- Entry (n, j) of the matrix product A · B. -/
def mm {N K M : Nat} (A : Mat N K) (B : Mat K M) (n : Fin N) (j : Fin M) : EReal :=
  ∑ k : Fin K, A (ix2 n k) * B (ix2 k j)

/-- The matrix product as a matrix. -/
def mmMat {N K M : Nat} (A : Mat N K) (B : Mat K M) : Mat N M := fun i => mm A B (i 0) (i 1)

/-- The weighted aggregate at node n, column g: zero plus the sum, over the edges e in the set S n of edges ending at n,
    of the edge's weight times entry g of the row of X the edge starts from. -/
def aggr {N E C : Nat} (S : Fin N → Finset (Fin E)) (w : Fin E → EReal) (row : Fin E → Fin N) (X : Mat N C)
    (n : Fin N) (g : Fin C) : EReal :=
  0 + ∑ e ∈ S n, w e * X (ix2 (row e) g)

/-- The aggregate as a matrix. -/
def aggrMat {N E C : Nat} (S : Fin N → Finset (Fin E)) (w : Fin E → EReal) (row : Fin E → Fin N) (X : Mat N C) :
    Mat N C := fun i => aggr S w row X (i 0) (i 1)

/-- The edges that end at node n: those whose destination index, a 32-bit word read as a signed integer, is n. -/
def dstSet {N E : Nat} (dstI : IVec ⟨2, ![E, 1]⟩ 32) (n : Fin N) : Finset (Fin E) :=
  Finset.univ.filter fun e : Fin E => (dstI (ix2 e (0 : Fin 1))).toInt = (n.val : Int)

/-- The node an edge starts from: its source index read as a signed integer and clamped into [0, N − 1]. -/
def srcRow {N E : Nat} (hN : 0 < N) (srcI : IVec ⟨2, ![E, 1]⟩ 32) (e : Fin E) : Fin N :=
  ⟨min (srcI (ix2 e (0 : Fin 1))).toInt.toNat (N - 1), by omega⟩

/-- One layer's output at (n, j) from the two projected aggregates PI, PO and the shared product Sh:
    tanh (cin n · (((PI + bmi) + Sh) + bsi) + cout n · (((PO + bmo) + Sh) + bso)). -/
def layerAt {N D : Nat} (cin cout : Fin N → EReal) (bmi bmo bsi bso : Fin D → EReal) (PI PO Sh : Fin N → Fin D → EReal)
    (n : Fin N) (j : Fin D) : EReal :=
  Ideal.tanh (cin n * (((PI n j + bmi j) + Sh n j) + bsi j) + cout n * (((PO n j + bmo j) + Sh n j) + bso j))

/-- A layer's output at (n, j) reads its nine ingredients only at n, at j, or at (n, j). -/
theorem layerAt_eq_of {N N' D : Nat} {cin cout : Fin N → EReal} {cin' cout' : Fin N' → EReal}
    {bmi bmo bsi bso bmi' bmo' bsi' bso' : Fin D → EReal} {PI PO Sh : Fin N → Fin D → EReal}
    {PI' PO' Sh' : Fin N' → Fin D → EReal} {n : Fin N} {n' : Fin N'} {j j' : Fin D}
    (h1 : cin n = cin' n') (h2 : cout n = cout' n') (h3 : bmi j = bmi' j') (h4 : bmo j = bmo' j') (h5 : bsi j = bsi' j')
    (h6 : bso j = bso' j') (h7 : PI n j = PI' n' j') (h8 : PO n j = PO' n' j') (h9 : Sh n j = Sh' n' j') :
    layerAt cin cout bmi bmo bsi bso PI PO Sh n j = layerAt cin' cout' bmi' bmo' bsi' bso' PI' PO' Sh' n' j' := by
  unfold layerAt
  rw [h1, h2, h3, h4, h5, h6, h7, h8, h9]

/-- The logits H · Wd + b at (n, j). -/
def logit {N K M : Nat} (H : Mat N K) (Wd : Mat K M) (bd : Fin M → EReal) (n : Fin N) (j : Fin M) : EReal :=
  mm H Wd n j + bd j

/-- The float pattern of −∞, the value a running maximum starts from. -/
def negInf : EReal := Ideal.ofBits .f32 0xFF800000#32

/-- The maximum of row n of L, started from −∞. -/
def rowMax {N M : Nat} (L : Fin N → Fin M → EReal) (n : Fin N) : EReal :=
  (Finset.univ : Finset (Fin M)).fold max negInf (L n)

/-- The log-softmax of row n of L at column j: the entry less the row's maximum, less the logarithm of the sum over the
    row of the exponentials of the entries less the maximum. -/
def logSoftmaxAt {N M : Nat} (L : Fin N → Fin M → EReal) (n : Fin N) (j : Fin M) : EReal :=
  (L n j - rowMax L n) - Ideal.log (∑ k : Fin M, Ideal.exp (L n k - rowMax L n))

/-- Row n of H divided by the larger of its Euclidean norm and eps, at column j. -/
def rowNormAt {N K : Nat} (H : Mat N K) (eps : EReal) (n : Fin N) (j : Fin K) : EReal :=
  Ideal.div (H (ix2 n j)) (max (Ideal.sqrt (∑ k : Fin K, H (ix2 n k) * H (ix2 n k))) eps)

end Cert.Spec

end
-- ==== Proof.KLayerPay.lean ====
/-
  What one grid point of a layer launch stores, entry by entry.  The body loads a block of 2000 rows of the features h and
  of the two aggregates, the three 128 × 128 matrices whole, the four bias rows and the two gate columns, and stores
  tanh (cin · (((agg_in · W_main_in + b_main_in) + h · W_shared) + b_shared_in)
        + cout · (((agg_out · W_main_out + b_main_out) + h · W_shared) + b_shared_out)):
  on the extended reals the narrowing of the matrix operands is the identity and each matrix product into a zero
  accumulator is the plain sum over the contracted index.  Both layer launches have this one body.
-/
import proofs.«133618_j24343874634033_1_alg».proof.Proof.Gen.KernelIdeal.Frame
import proofs.«133618_j24343874634033_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.LayerValue

open Cert.KernelIdeal Cert.KernelIdeal.Gen Cert.Spec Idealize.ShloMosaic Idealize.ShloMosaic.ValueIdx

/-- The left operand's row coordinate at output index i is i's row, whatever the contracted index. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The right operand's column coordinate at output index i is i's column, whatever the contracted index. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The block matrix product into a zero accumulator, at (p, q): the sum over k of a[p, k] · b[k, q]. -/
theorem matmul_at (a : FVec Ideal S2000x128 .bf16) (b : FVec Ideal S128x128 .bf16) (p : Fin 2000) (q : Fin 128) :
    matmul (F := Ideal) dot_S2000x128_S128x128_S2000x128_1_0_0_1_n_n none a b (constant S2000x128 .f32 0x00000000#32) (ix2 p q)
      = ∑ k : Fin 128, a (ix2 p k) * b (ix2 k q) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_row _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (dot_S2000x128_S128x128_S2000x128_1_0_0_1_n_n.rhsIdx_val_of_single rfl _ _).trans hk
      | ⟨1, _⟩ => exact rhs_col _ _)
  rw [el, er]

/-- A bias row [1, 128] spread over the block's 2000 rows, at (p, q): the row's entry q. -/
theorem biasRow_at (x : Vec Ideal S1x128 .f32) (p : Fin 2000) (q : Fin 128) :
    broadcastTo S2000x128 (shapeCast S1x128 x shapeCasts_S1x128_S1x128) broadcasts_S1x128_S2000x128 (ix2 p q)
      = x (ix2 (0 : Fin 1) q) := by
  rw [shapeCast_self]
  exact broadcastTo_apply x broadcasts_S1x128_S2000x128 (ix2 p q) (ix2 (0 : Fin 1) q) (fun a => by
    match a with
    | ⟨0, _⟩ => rfl
    | ⟨1, _⟩ => rfl)

/-- A gate column [2000, 1] spread over the 128 columns, at (p, q): the column's entry p. -/
theorem gateCol_at (x : Vec Ideal S2000x1 .f32) (p : Fin 2000) (q : Fin 128) :
    broadcastTo S2000x128 x broadcasts_S2000x1_S2000x128 (ix2 p q) = x (ix2 p (0 : Fin 1)) :=
  broadcastTo_apply x broadcasts_S2000x1_S2000x128 (ix2 p q) (ix2 p (0 : Fin 1)) (fun a => by
    match a with
    | ⟨0, _⟩ => rfl
    | ⟨1, _⟩ => rfl)

/-- The shared product h · W_shared of the block, at (p, q). -/
theorem shared_at (x0 : Vec Ideal S2000x128 .f32) (x5 : Vec Ideal S128x128 .f32) (p : Fin 2000) (q : Fin 128) :
    k0_pay2 (F := Ideal) x0 x5 (ix2 p q) = mm x0 x5 p q := by
  unfold k0_pay2
  show matmul (F := Ideal) dot_S2000x128_S128x128_S2000x128_1_0_0_1_n_n none
    (truncf .bf16 (shapeCast S2000x128 x0 shapeCasts_S2000x128_S2000x128) bitsLt_bf16_f32)
    (truncf .bf16 x5 bitsLt_bf16_f32) (constant S2000x128 .f32 0x00000000#32) (ix2 p q) = _
  rw [shapeCast_self]
  exact matmul_at _ _ p q

/-- One direction's pre-activation ((agg · W_main + b_main) + h · W_shared) + b_shared of the block, at (p, q). -/
theorem side_at (x0 xa : Vec Ideal S2000x128 .f32) (xw x5 : Vec Ideal S128x128 .f32) (xb xs : Vec Ideal S1x128 .f32)
    (p : Fin 2000) (q : Fin 128) :
    k0_pay3 (F := Ideal) x0 xa xw x5 xb xs (ix2 p q)
      = ((mm xa xw p q + xb (ix2 (0 : Fin 1) q)) + mm x0 x5 p q) + xs (ix2 (0 : Fin 1) q) := by
  unfold k0_pay3
  show ((matmul (F := Ideal) dot_S2000x128_S128x128_S2000x128_1_0_0_1_n_n none
      (truncf .bf16 (shapeCast S2000x128 xa shapeCasts_S2000x128_S2000x128) bitsLt_bf16_f32)
      (truncf .bf16 xw bitsLt_bf16_f32) (constant S2000x128 .f32 0x00000000#32) (ix2 p q)
    + broadcastTo S2000x128 (shapeCast S1x128 xb shapeCasts_S1x128_S1x128) broadcasts_S1x128_S2000x128 (ix2 p q))
    + k0_pay2 (F := Ideal) x0 x5 (ix2 p q))
    + broadcastTo S2000x128 (shapeCast S1x128 xs shapeCasts_S1x128_S1x128) broadcasts_S1x128_S2000x128 (ix2 p q) = _
  rw [shapeCast_self xa, biasRow_at, biasRow_at, shared_at]
  exact congrArg (fun z => ((z + xb (ix2 (0 : Fin 1) q)) + mm x0 x5 p q) + xs (ix2 (0 : Fin 1) q)) (matmul_at _ _ p q)

/-- The other direction's payload is the same term. -/
theorem side_out_eq (x0 xa : Vec Ideal S2000x128 .f32) (xw x5 : Vec Ideal S128x128 .f32) (xb xs : Vec Ideal S1x128 .f32) :
    k0_pay4 (F := Ideal) x0 xa xw x5 xb xs = k0_pay3 (F := Ideal) x0 xa xw x5 xb xs := rfl

/-- What the layer body stores, at (p, q) of the block. -/
theorem layer_pay (x0 x1 x2 : Vec Ideal S2000x128 .f32) (x3 x4 x5 : Vec Ideal S128x128 .f32)
    (x6 x7 x8 x9 : Vec Ideal S1x128 .f32) (x10 x11 : Vec Ideal S2000x1 .f32) (p : Fin 2000) (q : Fin 128) :
    k0_pay1 (F := Ideal) (k0_pay3 x0 x1 x3 x5 x6 x8) (k0_pay4 x0 x2 x4 x5 x7 x9) x10 x11 (ix2 p q)
      = layerAt (fun p => x10 (ix2 p (0 : Fin 1))) (fun p => x11 (ix2 p (0 : Fin 1)))
          (fun q => x6 (ix2 (0 : Fin 1) q)) (fun q => x7 (ix2 (0 : Fin 1) q))
          (fun q => x8 (ix2 (0 : Fin 1) q)) (fun q => x9 (ix2 (0 : Fin 1) q))
          (mm x1 x3) (mm x2 x4) (mm x0 x5) p q := by
  unfold k0_pay1 layerAt
  show Ideal.tanh (broadcastTo S2000x128 x10 broadcasts_S2000x1_S2000x128 (ix2 p q) * k0_pay3 (F := Ideal) x0 x1 x3 x5 x6 x8 (ix2 p q)
    + broadcastTo S2000x128 x11 broadcasts_S2000x1_S2000x128 (ix2 p q) * k0_pay4 (F := Ideal) x0 x2 x4 x5 x7 x9 (ix2 p q)) = _
  rw [side_out_eq, gateCol_at, gateCol_at, side_at, side_at]

/-- The second layer launch's body is the first's. -/
theorem out1_eq_out0 : @out1_12 Ideal _ = @out0_12 Ideal _ := rfl

end Cert.KernelIdeal.LayerValue

end
-- ==== Proof.KLayerArr.lean ====
/-
  From blocks to arrays for the two layer launches.  Each launch runs over 25 grid points; point t loads rows
  2000·t … 2000·t + 1999 of the features, of the two aggregates and of the two gate columns, the matrices and bias rows
  whole, and writes back rows 2000·t … 2000·t + 1999 of the output.  A row of the output depends only on the same row of
  the row-block operands, so block t of the output is block t of ONE whole-array function of the operand arrays, and
  the 25 blocks tile the 50000 rows: after the launch the output array is that function of the arrays the launch found.
-/
import proofs.«133618_j24343874634033_1_alg».proof.Proof.KLayerPay

set_option maxRecDepth 16384

noncomputable section

open scoped BigOperators

namespace Cert.KernelIdeal.LayerValue

open Cert.KernelIdeal Cert.KernelIdeal.Gen Cert.Spec Idealize.ShloMosaic Idealize.ShloMosaic.ValueIdx
open Idealize.ShloMosaic.TcCoe Idealize.SL.Sem
open Idealize.ShloMosaic.Pipeline (Dat)

/-- The layer as one function of twelve whole arrays: the features, the two aggregates, the three matrices, the four bias
    rows (as [1, 128]) and the two gate columns (as [50000, 1]). -/
def layerArr (H AI AO : Mat 50000 128) (Wi Wo Ws : Mat 128 128) (bi bo si so : Mat 1 128) (ci co : Mat 50000 1) :
    Mat 50000 128 := fun i =>
  layerAt (fun n => ci (ix2 n (0 : Fin 1))) (fun n => co (ix2 n (0 : Fin 1)))
    (fun q => bi (ix2 (0 : Fin 1) q)) (fun q => bo (ix2 (0 : Fin 1) q))
    (fun q => si (ix2 (0 : Fin 1) q)) (fun q => so (ix2 (0 : Fin 1) q))
    (mm AI Wi) (mm AO Wo) (mm H Ws) (i 0) (i 1)

theorem hz : (![0, 0] : Fin 2 → Nat) = fun _ => 0 := funext fun a => by fin_cases a <;> rfl

/-- What the layer body stores, at any index y of the block. -/
theorem layer_pay' (x0 x1 x2 : Vec Ideal S2000x128 .f32) (x3 x4 x5 : Vec Ideal S128x128 .f32)
    (x6 x7 x8 x9 : Vec Ideal S1x128 .f32) (x10 x11 : Vec Ideal S2000x1 .f32) (y : S2000x128.Idx) :
    k0_pay1 (F := Ideal) (k0_pay3 x0 x1 x3 x5 x6 x8) (k0_pay4 x0 x2 x4 x5 x7 x9) x10 x11 y
      = layerAt (fun p => x10 (ix2 p (0 : Fin 1))) (fun p => x11 (ix2 p (0 : Fin 1)))
          (fun q => x6 (ix2 (0 : Fin 1) q)) (fun q => x7 (ix2 (0 : Fin 1) q))
          (fun q => x8 (ix2 (0 : Fin 1) q)) (fun q => x9 (ix2 (0 : Fin 1) q))
          (mm x1 x3) (mm x2 x4) (mm x0 x5) (y 0) (y 1) := by
  obtain ⟨p, q, rfl⟩ : ∃ (p : Fin 2000) (q : Fin 128), y = ix2 p q := ⟨y 0, y 1, eq_ix2 y⟩
  exact layer_pay x0 x1 x2 x3 x4 x5 x6 x7 x8 x9 x10 x11 p q

/-- The layer body's stored value on a block whose rows are rows of the arrays: the whole-array function's entry. -/
theorem layer_block (H AI AO : Mat 50000 128) (Wi Wo Ws : Mat 128 128) (bi bo si so : Mat 1 128) (ci co : Mat 50000 1)
    (x0 x1 x2 : Vec Ideal S2000x128 .f32) (x3 x4 x5 : Vec Ideal S128x128 .f32)
    (x6 x7 x8 x9 : Vec Ideal S1x128 .f32) (x10 x11 : Vec Ideal S2000x1 .f32) (p : Fin 2000) (q : Fin 128) (n : Fin 50000)
    (h0 : ∀ k : Fin 128, x0 (ix2 p k) = H (ix2 n k)) (h1 : ∀ k : Fin 128, x1 (ix2 p k) = AI (ix2 n k))
    (h2 : ∀ k : Fin 128, x2 (ix2 p k) = AO (ix2 n k)) (h3 : ∀ k : Fin 128, x3 (ix2 k q) = Wi (ix2 k q))
    (h4 : ∀ k : Fin 128, x4 (ix2 k q) = Wo (ix2 k q)) (h5 : ∀ k : Fin 128, x5 (ix2 k q) = Ws (ix2 k q))
    (h6 : x6 (ix2 (0 : Fin 1) q) = bi (ix2 (0 : Fin 1) q)) (h7 : x7 (ix2 (0 : Fin 1) q) = bo (ix2 (0 : Fin 1) q))
    (h8 : x8 (ix2 (0 : Fin 1) q) = si (ix2 (0 : Fin 1) q)) (h9 : x9 (ix2 (0 : Fin 1) q) = so (ix2 (0 : Fin 1) q))
    (h10 : x10 (ix2 p (0 : Fin 1)) = ci (ix2 n (0 : Fin 1))) (h11 : x11 (ix2 p (0 : Fin 1)) = co (ix2 n (0 : Fin 1))) :
    k0_pay1 (F := Ideal) (k0_pay3 x0 x1 x3 x5 x6 x8) (k0_pay4 x0 x2 x4 x5 x7 x9) x10 x11 (ix2 p q)
      = layerArr H AI AO Wi Wo Ws bi bo si so ci co (ix2 n q) := by
  rw [layer_pay]
  show _ = layerAt (fun n => ci (ix2 n (0 : Fin 1))) (fun n => co (ix2 n (0 : Fin 1)))
    (fun q => bi (ix2 (0 : Fin 1) q)) (fun q => bo (ix2 (0 : Fin 1) q))
    (fun q => si (ix2 (0 : Fin 1) q)) (fun q => so (ix2 (0 : Fin 1) q)) (mm AI Wi) (mm AO Wo) (mm H Ws) n q
  refine layerAt_eq_of h10 h11 h6 h7 h8 h9 ?_ ?_ ?_
  · unfold mm; exact Finset.sum_congr rfl fun k _ => by rw [h1 k, h3 k]
  · unfold mm; exact Finset.sum_congr rfl fun k _ => by rw [h2 k, h4 k]
  · unfold mm; exact Finset.sum_congr rfl fun k _ => by rw [h0 k, h5 k]

variable (V : (c : Dev nD) → (b : Ref sig .tc) → Buf (Elt Ideal) ((c : Thread nD τ).loc b))

/-! ## Launch 0 -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = t.val ∧ win0_10.index t (1 : Fin 2) = 0 :=
  (by decide +kernel : ∀ t : Fin grid0.N, _)
theorem idx0_11 : ∀ t : Fin cfg0.N, win0_11.index t (0 : Fin 2) = t.val ∧ win0_11.index t (1 : Fin 2) = 0 :=
  (by decide +kernel : ∀ t : Fin grid0.N, _)
theorem idx0_12 : ∀ t : Fin cfg0.N, win0_12.index t (0 : Fin 2) = t.val ∧ win0_12.index t (1 : Fin 2) = 0 :=
  (by decide +kernel : ∀ t : Fin grid0.N, _)

theorem point_lt0 (t : Fin cfg0.N) : t.val < 25 := by
  have h := t.isLt
  have e : cfg0.N = 25 := N_0
  omega

/-- Block t of window 0 is rows 2000 t … 2000 t + 1999 of its array. -/
theorem iblk0_0_apply (c : Dev nD) (t : Fin cfg0.N) (p : Fin 2000) (k : Fin 128) (n : Fin 50000)
    (hn : n.val = t.val * 2000 + p.val) :
    (iblk0 V c 0 t : Vec Ideal S2000x128 .f32) (ix2 p k) = (V c main_v3 : Mat 50000 128) (ix2 n k) := by
  obtain ⟨e0, e1⟩ := idx0_0 t
  unfold iblk0
  rw [View.read_apply]
  show V c main_v3 _ = V c main_v3 _
  refine congrArg (V c main_v3) ?_
  funext a; apply Fin.ext
  match a with
  | ⟨0, _⟩ => show win0_0.index t (0 : Fin 2) * 2000 + 1 * p.val = n.val; rw [e0, hn]; omega
  | ⟨1, _⟩ => show win0_0.index t (1 : Fin 2) * 128 + 1 * k.val = k.val; rw [e1]; omega

/-- Block t of window 1 is rows 2000 t … 2000 t + 1999 of its array. -/
theorem iblk0_1_apply (c : Dev nD) (t : Fin cfg0.N) (p : Fin 2000) (k : Fin 128) (n : Fin 50000)
    (hn : n.val = t.val * 2000 + p.val) :
    (iblk0 V c 1 t : Vec Ideal S2000x128 .f32) (ix2 p k) = (V c main_v24 : Mat 50000 128) (ix2 n k) := by
  obtain ⟨e0, e1⟩ := idx0_1 t
  unfold iblk0
  rw [View.read_apply]
  show V c main_v24 _ = V c main_v24 _
  refine congrArg (V c main_v24) ?_
  funext a; apply Fin.ext
  match a with
  | ⟨0, _⟩ => show win0_1.index t (0 : Fin 2) * 2000 + 1 * p.val = n.val; rw [e0, hn]; omega
  | ⟨1, _⟩ => show win0_1.index t (1 : Fin 2) * 128 + 1 * k.val = k.val; rw [e1]; omega

/-- Block t of window 2 is rows 2000 t … 2000 t + 1999 of its array. -/
theorem iblk0_2_apply (c : Dev nD) (t : Fin cfg0.N) (p : Fin 2000) (k : Fin 128) (n : Fin 50000)
    (hn : n.val = t.val * 2000 + p.val) :
    (iblk0 V c 2 t : Vec Ideal S2000x128 .f32) (ix2 p k) = (V c main_v37 : Mat 50000 128) (ix2 n k) := by
  obtain ⟨e0, e1⟩ := idx0_2 t
  unfold iblk0
  rw [View.read_apply]
  show V c main_v37 _ = V c main_v37 _
  refine congrArg (V c main_v37) ?_
  funext a; apply Fin.ext
  match a with
  | ⟨0, _⟩ => show win0_2.index t (0 : Fin 2) * 2000 + 1 * p.val = n.val; rw [e0, hn]; omega
  | ⟨1, _⟩ => show win0_2.index t (1 : Fin 2) * 128 + 1 * k.val = k.val; rw [e1]; omega

/-- Window 3 is its whole matrix at every point. -/
theorem iblk0_3_apply (c : Dev nD) (t : Fin cfg0.N) (k : Fin 128) (q : Fin 128) :
    (iblk0 V c 3 t : Vec Ideal S128x128 .f32) (ix2 k q) = (V c main_arg6 : Mat 128 128) (ix2 k q) := by
  obtain ⟨e0, e1⟩ := idx0_3 t
  unfold iblk0
  rw [View.read_apply]
  show V c main_arg6 _ = V c main_arg6 _
  refine congrArg (V c main_arg6) ?_
  funext a; apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- Window 4 is its whole matrix at every point. -/
theorem iblk0_4_apply (c : Dev nD) (t : Fin cfg0.N) (k : Fin 128) (q : Fin 128) :
    (iblk0 V c 4 t : Vec Ideal S128x128 .f32) (ix2 k q) = (V c main_arg7 : Mat 128 128) (ix2 k q) := by
  obtain ⟨e0, e1⟩ := idx0_4 t
  unfold iblk0
  rw [View.read_apply]
  show V c main_arg7 _ = V c main_arg7 _
  refine congrArg (V c main_arg7) ?_
  funext a; apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- Window 5 is its whole matrix at every point. -/
theorem iblk0_5_apply (c : Dev nD) (t : Fin cfg0.N) (k : Fin 128) (q : Fin 128) :
    (iblk0 V c 5 t : Vec Ideal S128x128 .f32) (ix2 k q) = (V c main_arg8 : Mat 128 128) (ix2 k q) := by
  obtain ⟨e0, e1⟩ := idx0_5 t
  unfold iblk0
  rw [View.read_apply]
  show V c main_arg8 _ = V c main_arg8 _
  refine congrArg (V c main_arg8) ?_
  funext a; apply Fin.ext
  match a with
  | ⟨0, _⟩ => show win0_5.index t (0 : Fin 2) * 128 + 1 * k.val = k.val; rw [e0]; omega
  | ⟨1, _⟩ => show win0_5.index t (1 : Fin 2) * 128 + 1 * q.val = q.val; rw [e1]; omega

/-- Window 6 is its whole bias row at every point. -/
theorem iblk0_6_apply (c : Dev nD) (t : Fin cfg0.N) (q : Fin 128) :
    (iblk0 V c 6 t : Vec Ideal S1x128 .f32) (ix2 (0 : Fin 1) q) = (V c main_v38 : Mat 1 128) (ix2 (0 : Fin 1) q) := by
  obtain ⟨e0, e1⟩ := idx0_6 t
  unfold iblk0
  rw [View.read_apply]
  show V c main_v38 _ = V c main_v38 _
  refine congrArg (V c main_v38) ?_
  funext a; apply Fin.ext
  match a with
  | ⟨0, _⟩ => show win0_6.index t (0 : Fin 2) * 1 + 1 * 0 = 0; rw [e0]
  | ⟨1, _⟩ => show win0_6.index t (1 : Fin 2) * 128 + 1 * q.val = q.val; rw [e1]; omega

/-- Window 7 is its whole bias row at every point. -/
theorem iblk0_7_apply (c : Dev nD) (t : Fin cfg0.N) (q : Fin 128) :
    (iblk0 V c 7 t : Vec Ideal S1x128 .f32) (ix2 (0 : Fin 1) q) = (V c main_v39 : Mat 1 128) (ix2 (0 : Fin 1) q) := by
  obtain ⟨e0, e1⟩ := idx0_7 t
  unfold iblk0
  rw [View.read_apply]
  show V c main_v39 _ = V c main_v39 _
  refine congrArg (V c main_v39) ?_
  funext a; apply Fin.ext
  match a with
  | ⟨0, _⟩ => show win0_7.index t (0 : Fin 2) * 1 + 1 * 0 = 0; rw [e0]
  | ⟨1, _⟩ => show win0_7.index t (1 : Fin 2) * 128 + 1 * q.val = q.val; rw [e1]; omega

/-- Window 8 is its whole bias row at every point. -/
theorem iblk0_8_apply (c : Dev nD) (t : Fin cfg0.N) (q : Fin 128) :
    (iblk0 V c 8 t : Vec Ideal S1x128 .f32) (ix2 (0 : Fin 1) q) = (V c main_v40 : Mat 1 128) (ix2 (0 : Fin 1) q) := by
  obtain ⟨e0, e1⟩ := idx0_8 t
  unfold iblk0
  rw [View.read_apply]
  show V c main_v40 _ = V c main_v40 _
  refine congrArg (V c main_v40) ?_
  funext a; apply Fin.ext
  match a with
  | ⟨0, _⟩ => show win0_8.index t (0 : Fin 2) * 1 + 1 * 0 = 0; rw [e0]
  | ⟨1, _⟩ => show win0_8.index t (1 : Fin 2) * 128 + 1 * q.val = q.val; rw [e1]; omega

/-- Window 9 is its whole bias row at every point. -/
theorem iblk0_9_apply (c : Dev nD) (t : Fin cfg0.N) (q : Fin 128) :
    (iblk0 V c 9 t : Vec Ideal S1x128 .f32) (ix2 (0 : Fin 1) q) = (V c main_v41 : Mat 1 128) (ix2 (0 : Fin 1) q) := by
  obtain ⟨e0, e1⟩ := idx0_9 t
  unfold iblk0
  rw [View.read_apply]
  show V c main_v41 _ = V c main_v41 _
  refine congrArg (V c main_v41) ?_
  funext a; apply Fin.ext
  match a with
  | ⟨0, _⟩ => show win0_9.index t (0 : Fin 2) * 1 + 1 * 0 = 0; rw [e0]
  | ⟨1, _⟩ => show win0_9.index t (1 : Fin 2) * 128 + 1 * q.val = q.val; rw [e1]; omega

/-- Block t of window 10 is rows 2000 t … 2000 t + 1999 of its gate column. -/
theorem iblk0_10_apply (c : Dev nD) (t : Fin cfg0.N) (p : Fin 2000) (n : Fin 50000)
    (hn : n.val = t.val * 2000 + p.val) :
    (iblk0 V c 10 t : Vec Ideal S2000x1 .f32) (ix2 p (0 : Fin 1)) = (V c main_arg13 : Mat 50000 1) (ix2 n (0 : Fin 1)) := by
  obtain ⟨e0, e1⟩ := idx0_10 t
  unfold iblk0
  rw [View.read_apply]
  show V c main_arg13 _ = V c main_arg13 _
  refine congrArg (V c main_arg13) ?_
  funext a; apply Fin.ext
  match a with
  | ⟨0, _⟩ => show win0_10.index t (0 : Fin 2) * 2000 + 1 * p.val = n.val; rw [e0, hn]; omega
  | ⟨1, _⟩ => show win0_10.index t (1 : Fin 2) * 1 + 1 * 0 = 0; rw [e1]

/-- Block t of window 11 is rows 2000 t … 2000 t + 1999 of its gate column. -/
theorem iblk0_11_apply (c : Dev nD) (t : Fin cfg0.N) (p : Fin 2000) (n : Fin 50000)
    (hn : n.val = t.val * 2000 + p.val) :
    (iblk0 V c 11 t : Vec Ideal S2000x1 .f32) (ix2 p (0 : Fin 1)) = (V c main_arg14 : Mat 50000 1) (ix2 n (0 : Fin 1)) := by
  obtain ⟨e0, e1⟩ := idx0_11 t
  unfold iblk0
  rw [View.read_apply]
  show V c main_arg14 _ = V c main_arg14 _
  refine congrArg (V c main_arg14) ?_
  funext a; apply Fin.ext
  match a with
  | ⟨0, _⟩ => show win0_11.index t (0 : Fin 2) * 2000 + 1 * p.val = n.val; rw [e0, hn]; omega
  | ⟨1, _⟩ => show win0_11.index t (1 : Fin 2) * 1 + 1 * 0 = 0; rw [e1]

/-- What point t writes back is block t of the layer's whole-array function of the arrays the launch finds. -/
theorem flushed0 (c : Dev nD) (t : Fin cfg0.N) :
    (dat0 (F := Ideal) V c).flushed 12 t = ((cfg0.win 12).blk t).view.read (Elt Ideal)
      (layerArr (V c main_v3) (V c main_v24) (V c main_v37) (V c main_arg6) (V c main_arg7) (V c main_arg8)
        (V c main_v38) (V c main_v39) (V c main_v40) (V c main_v41) (V c main_arg13) (V c main_arg14)) := by
  show (cfg0.win 12).cut (grid0.coords t) ((dat0 (F := Ideal) V c).after 12 t) = _
  rw [after0_12]
  unfold out0_12
  rw [View.canon_unit_zero hz]
  simp only [View.ld_unit_zero (S := S2000x128) hz, View.ld_unit_zero (S := S128x128) hz,
    View.ld_unit_zero (S := S1x128) hz, View.ld_unit_zero (S := S2000x1) hz]
  obtain ⟨e0, e1⟩ := idx0_12 t
  have ht := point_lt0 t
  funext y
  obtain ⟨p, q, rfl⟩ : ∃ (p : Fin 2000) (q : Fin 128), y = ix2 p q := ⟨y 0, y 1, eq_ix2 y⟩
  have hp := p.isLt
  have hn : t.val * 2000 + p.val < 50000 := by omega
  have hemb : ((cfg0.win 12).blk t).view.emb (ix2 p q) = ix2 (⟨t.val * 2000 + p.val, hn⟩ : Fin 50000) q := by
    funext a; apply Fin.ext
    match a with
    | ⟨0, _⟩ => show win0_12.index t (0 : Fin 2) * 2000 + 1 * p.val = t.val * 2000 + p.val; rw [e0]; omega
    | ⟨1, _⟩ => show win0_12.index t (1 : Fin 2) * 128 + 1 * q.val = q.val; rw [e1]; omega
  refine (layer_block (V c main_v3) (V c main_v24) (V c main_v37) (V c main_arg6) (V c main_arg7) (V c main_arg8)
    (V c main_v38) (V c main_v39) (V c main_v40) (V c main_v41) (V c main_arg13) (V c main_arg14)
    (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) (iblk0 V c 11 t)
    p q ⟨t.val * 2000 + p.val, hn⟩
    (fun k => iblk0_0_apply V c t p k _ rfl) (fun k => iblk0_1_apply V c t p k _ rfl) (fun k => iblk0_2_apply V c t p k _ rfl)
    (fun k => iblk0_3_apply V c t k q) (fun k => iblk0_4_apply V c t k q) (fun k => iblk0_5_apply V c t k q)
    (iblk0_6_apply V c t q) (iblk0_7_apply V c t q) (iblk0_8_apply V c t q) (iblk0_9_apply V c t q)
    (iblk0_10_apply V c t p _ rfl) (iblk0_11_apply V c t p _ rfl)).trans ?_
  exact (congrArg (layerArr (V c main_v3) (V c main_v24) (V c main_v37) (V c main_arg6) (V c main_arg7) (V c main_arg8)
        (V c main_v38) (V c main_v39) (V c main_v40) (V c main_v41) (V c main_arg13) (V c main_arg14)) hemb).symm

/-- An index of the output array is in point t's block iff each coordinate is in the block's range on its axis. -/
theorem mem_blk0 (t : Fin cfg0.N) (i : S50000x128.Idx) :
    i ∈ ((cfg0.win 12).blk t).view.set ↔ ∀ a : Fin 2, win0_12.index t a * S2000x128.size a ≤ (i a).val
      ∧ (i a).val < win0_12.index t a * S2000x128.size a + S2000x128.size a := by
  show i ∈ ((View.whole main_v42).slice (win0_12.rect t)).set ↔ _
  rw [View.set_slice_whole, Rect.mem_set_unit]
  exact Iff.rfl

/-- The 25 blocks of 2000 rows cover the output array: row r lies in the block of point r / 2000. -/
theorem cover0 (i : S50000x128.Idx) :
    ∃ t : Fin cfg0.N, (cfg0.win 12).flush t = true ∧ i ∈ ((cfg0.win 12).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by omega⟩, rfl⟩
  obtain ⟨e0, e1⟩ := idx0_12 t
  refine ⟨t, flush0_12 t, ?_⟩
  rw [mem_blk0]
  intro a
  match a with
  | ⟨0, _⟩ =>
    show win0_12.index t (0 : Fin 2) * 2000 ≤ (i 0).val ∧ (i 0).val < win0_12.index t (0 : Fin 2) * 2000 + 2000
    rw [e0, ht]; omega
  | ⟨1, _⟩ =>
    show win0_12.index t (1 : Fin 2) * 128 ≤ (i 1).val ∧ (i 1).val < win0_12.index t (1 : Fin 2) * 128 + 128
    rw [e1]; omega

/-- After launch 0 its output array holds the layer's whole-array function of the arrays the launch found. -/
theorem final0 (c : Dev nD) :
    (dat0 (F := Ideal) V c).arrAt 12 cfg0.N
      = (layerArr (V c main_v3) (V c main_v24) (V c main_v37) (V c main_arg6) (V c main_arg7) (V c main_arg8)
        (V c main_v38) (V c main_v39) (V c main_v40) (V c main_v41) (V c main_arg13) (V c main_arg14)) :=
  (dat0 (F := Ideal) V c).arrAt_eq_of_cover 12 _ (fun t _ => flushed0 V c t) (cover0)

/-! ## Launch 1 -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = t.val ∧ win1_10.index t (1 : Fin 2) = 0 :=
  (by decide +kernel : ∀ t : Fin grid1.N, _)
theorem idx1_11 : ∀ t : Fin cfg1.N, win1_11.index t (0 : Fin 2) = t.val ∧ win1_11.index t (1 : Fin 2) = 0 :=
  (by decide +kernel : ∀ t : Fin grid1.N, _)
theorem idx1_12 : ∀ t : Fin cfg1.N, win1_12.index t (0 : Fin 2) = t.val ∧ win1_12.index t (1 : Fin 2) = 0 :=
  (by decide +kernel : ∀ t : Fin grid1.N, _)

theorem point_lt1 (t : Fin cfg1.N) : t.val < 25 := by
  have h := t.isLt
  have e : cfg1.N = 25 := N_1
  omega

/-- Block t of window 0 is rows 2000 t … 2000 t + 1999 of its array. -/
theorem iblk1_0_apply (c : Dev nD) (t : Fin cfg1.N) (p : Fin 2000) (k : Fin 128) (n : Fin 50000)
    (hn : n.val = t.val * 2000 + p.val) :
    (iblk1 V c 0 t : Vec Ideal S2000x128 .f32) (ix2 p k) = (V c main_v42 : Mat 50000 128) (ix2 n k) := by
  obtain ⟨e0, e1⟩ := idx1_0 t
  unfold iblk1
  rw [View.read_apply]
  show V c main_v42 _ = V c main_v42 _
  refine congrArg (V c main_v42) ?_
  funext a; apply Fin.ext
  match a with
  | ⟨0, _⟩ => show win1_0.index t (0 : Fin 2) * 2000 + 1 * p.val = n.val; rw [e0, hn]; omega
  | ⟨1, _⟩ => show win1_0.index t (1 : Fin 2) * 128 + 1 * k.val = k.val; rw [e1]; omega

/-- Block t of window 1 is rows 2000 t … 2000 t + 1999 of its array. -/
theorem iblk1_1_apply (c : Dev nD) (t : Fin cfg1.N) (p : Fin 2000) (k : Fin 128) (n : Fin 50000)
    (hn : n.val = t.val * 2000 + p.val) :
    (iblk1 V c 1 t : Vec Ideal S2000x128 .f32) (ix2 p k) = (V c main_v55 : Mat 50000 128) (ix2 n k) := by
  obtain ⟨e0, e1⟩ := idx1_1 t
  unfold iblk1
  rw [View.read_apply]
  show V c main_v55 _ = V c main_v55 _
  refine congrArg (V c main_v55) ?_
  funext a; apply Fin.ext
  match a with
  | ⟨0, _⟩ => show win1_1.index t (0 : Fin 2) * 2000 + 1 * p.val = n.val; rw [e0, hn]; omega
  | ⟨1, _⟩ => show win1_1.index t (1 : Fin 2) * 128 + 1 * k.val = k.val; rw [e1]; omega

/-- Block t of window 2 is rows 2000 t … 2000 t + 1999 of its array. -/
theorem iblk1_2_apply (c : Dev nD) (t : Fin cfg1.N) (p : Fin 2000) (k : Fin 128) (n : Fin 50000)
    (hn : n.val = t.val * 2000 + p.val) :
    (iblk1 V c 2 t : Vec Ideal S2000x128 .f32) (ix2 p k) = (V c main_v68 : Mat 50000 128) (ix2 n k) := by
  obtain ⟨e0, e1⟩ := idx1_2 t
  unfold iblk1
  rw [View.read_apply]
  show V c main_v68 _ = V c main_v68 _
  refine congrArg (V c main_v68) ?_
  funext a; apply Fin.ext
  match a with
  | ⟨0, _⟩ => show win1_2.index t (0 : Fin 2) * 2000 + 1 * p.val = n.val; rw [e0, hn]; omega
  | ⟨1, _⟩ => show win1_2.index t (1 : Fin 2) * 128 + 1 * k.val = k.val; rw [e1]; omega

/-- Window 3 is its whole matrix at every point. -/
theorem iblk1_3_apply (c : Dev nD) (t : Fin cfg1.N) (k : Fin 128) (q : Fin 128) :
    (iblk1 V c 3 t : Vec Ideal S128x128 .f32) (ix2 k q) = (V c main_arg15 : Mat 128 128) (ix2 k q) := by
  obtain ⟨e0, e1⟩ := idx1_3 t
  unfold iblk1
  rw [View.read_apply]
  show V c main_arg15 _ = V c main_arg15 _
  refine congrArg (V c main_arg15) ?_
  funext a; apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- Window 4 is its whole matrix at every point. -/
theorem iblk1_4_apply (c : Dev nD) (t : Fin cfg1.N) (k : Fin 128) (q : Fin 128) :
    (iblk1 V c 4 t : Vec Ideal S128x128 .f32) (ix2 k q) = (V c main_arg16 : Mat 128 128) (ix2 k q) := by
  obtain ⟨e0, e1⟩ := idx1_4 t
  unfold iblk1
  rw [View.read_apply]
  show V c main_arg16 _ = V c main_arg16 _
  refine congrArg (V c main_arg16) ?_
  funext a; apply Fin.ext
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- Window 5 is its whole matrix at every point. -/
theorem iblk1_5_apply (c : Dev nD) (t : Fin cfg1.N) (k : Fin 128) (q : Fin 128) :
    (iblk1 V c 5 t : Vec Ideal S128x128 .f32) (ix2 k q) = (V c main_arg17 : Mat 128 128) (ix2 k q) := by
  obtain ⟨e0, e1⟩ := idx1_5 t
  unfold iblk1
  rw [View.read_apply]
  show V c main_arg17 _ = V c main_arg17 _
  refine congrArg (V c main_arg17) ?_
  funext a; apply Fin.ext
  match a with
  | ⟨0, _⟩ => show win1_5.index t (0 : Fin 2) * 128 + 1 * k.val = k.val; rw [e0]; omega
  | ⟨1, _⟩ => show win1_5.index t (1 : Fin 2) * 128 + 1 * q.val = q.val; rw [e1]; omega

/-- Window 6 is its whole bias row at every point. -/
theorem iblk1_6_apply (c : Dev nD) (t : Fin cfg1.N) (q : Fin 128) :
    (iblk1 V c 6 t : Vec Ideal S1x128 .f32) (ix2 (0 : Fin 1) q) = (V c main_v69 : Mat 1 128) (ix2 (0 : Fin 1) q) := by
  obtain ⟨e0, e1⟩ := idx1_6 t
  unfold iblk1
  rw [View.read_apply]
  show V c main_v69 _ = V c main_v69 _
  refine congrArg (V c main_v69) ?_
  funext a; apply Fin.ext
  match a with
  | ⟨0, _⟩ => show win1_6.index t (0 : Fin 2) * 1 + 1 * 0 = 0; rw [e0]
  | ⟨1, _⟩ => show win1_6.index t (1 : Fin 2) * 128 + 1 * q.val = q.val; rw [e1]; omega

/-- Window 7 is its whole bias row at every point. -/
theorem iblk1_7_apply (c : Dev nD) (t : Fin cfg1.N) (q : Fin 128) :
    (iblk1 V c 7 t : Vec Ideal S1x128 .f32) (ix2 (0 : Fin 1) q) = (V c main_v70 : Mat 1 128) (ix2 (0 : Fin 1) q) := by
  obtain ⟨e0, e1⟩ := idx1_7 t
  unfold iblk1
  rw [View.read_apply]
  show V c main_v70 _ = V c main_v70 _
  refine congrArg (V c main_v70) ?_
  funext a; apply Fin.ext
  match a with
  | ⟨0, _⟩ => show win1_7.index t (0 : Fin 2) * 1 + 1 * 0 = 0; rw [e0]
  | ⟨1, _⟩ => show win1_7.index t (1 : Fin 2) * 128 + 1 * q.val = q.val; rw [e1]; omega

/-- Window 8 is its whole bias row at every point. -/
theorem iblk1_8_apply (c : Dev nD) (t : Fin cfg1.N) (q : Fin 128) :
    (iblk1 V c 8 t : Vec Ideal S1x128 .f32) (ix2 (0 : Fin 1) q) = (V c main_v71 : Mat 1 128) (ix2 (0 : Fin 1) q) := by
  obtain ⟨e0, e1⟩ := idx1_8 t
  unfold iblk1
  rw [View.read_apply]
  show V c main_v71 _ = V c main_v71 _
  refine congrArg (V c main_v71) ?_
  funext a; apply Fin.ext
  match a with
  | ⟨0, _⟩ => show win1_8.index t (0 : Fin 2) * 1 + 1 * 0 = 0; rw [e0]
  | ⟨1, _⟩ => show win1_8.index t (1 : Fin 2) * 128 + 1 * q.val = q.val; rw [e1]; omega

/-- Window 9 is its whole bias row at every point. -/
theorem iblk1_9_apply (c : Dev nD) (t : Fin cfg1.N) (q : Fin 128) :
    (iblk1 V c 9 t : Vec Ideal S1x128 .f32) (ix2 (0 : Fin 1) q) = (V c main_v72 : Mat 1 128) (ix2 (0 : Fin 1) q) := by
  obtain ⟨e0, e1⟩ := idx1_9 t
  unfold iblk1
  rw [View.read_apply]
  show V c main_v72 _ = V c main_v72 _
  refine congrArg (V c main_v72) ?_
  funext a; apply Fin.ext
  match a with
  | ⟨0, _⟩ => show win1_9.index t (0 : Fin 2) * 1 + 1 * 0 = 0; rw [e0]
  | ⟨1, _⟩ => show win1_9.index t (1 : Fin 2) * 128 + 1 * q.val = q.val; rw [e1]; omega

/-- Block t of window 10 is rows 2000 t … 2000 t + 1999 of its gate column. -/
theorem iblk1_10_apply (c : Dev nD) (t : Fin cfg1.N) (p : Fin 2000) (n : Fin 50000)
    (hn : n.val = t.val * 2000 + p.val) :
    (iblk1 V c 10 t : Vec Ideal S2000x1 .f32) (ix2 p (0 : Fin 1)) = (V c main_arg22 : Mat 50000 1) (ix2 n (0 : Fin 1)) := by
  obtain ⟨e0, e1⟩ := idx1_10 t
  unfold iblk1
  rw [View.read_apply]
  show V c main_arg22 _ = V c main_arg22 _
  refine congrArg (V c main_arg22) ?_
  funext a; apply Fin.ext
  match a with
  | ⟨0, _⟩ => show win1_10.index t (0 : Fin 2) * 2000 + 1 * p.val = n.val; rw [e0, hn]; omega
  | ⟨1, _⟩ => show win1_10.index t (1 : Fin 2) * 1 + 1 * 0 = 0; rw [e1]

/-- Block t of window 11 is rows 2000 t … 2000 t + 1999 of its gate column. -/
theorem iblk1_11_apply (c : Dev nD) (t : Fin cfg1.N) (p : Fin 2000) (n : Fin 50000)
    (hn : n.val = t.val * 2000 + p.val) :
    (iblk1 V c 11 t : Vec Ideal S2000x1 .f32) (ix2 p (0 : Fin 1)) = (V c main_arg23 : Mat 50000 1) (ix2 n (0 : Fin 1)) := by
  obtain ⟨e0, e1⟩ := idx1_11 t
  unfold iblk1
  rw [View.read_apply]
  show V c main_arg23 _ = V c main_arg23 _
  refine congrArg (V c main_arg23) ?_
  funext a; apply Fin.ext
  match a with
  | ⟨0, _⟩ => show win1_11.index t (0 : Fin 2) * 2000 + 1 * p.val = n.val; rw [e0, hn]; omega
  | ⟨1, _⟩ => show win1_11.index t (1 : Fin 2) * 1 + 1 * 0 = 0; rw [e1]

/-- What point t writes back is block t of the layer's whole-array function of the arrays the launch finds. -/
theorem flushed1 (c : Dev nD) (t : Fin cfg1.N) :
    (dat1 (F := Ideal) V c).flushed 12 t = ((cfg1.win 12).blk t).view.read (Elt Ideal)
      (layerArr (V c main_v42) (V c main_v55) (V c main_v68) (V c main_arg15) (V c main_arg16) (V c main_arg17)
        (V c main_v69) (V c main_v70) (V c main_v71) (V c main_v72) (V c main_arg22) (V c main_arg23)) := by
  show (cfg1.win 12).cut (grid1.coords t) ((dat1 (F := Ideal) V c).after 12 t) = _
  rw [after1_12, out1_eq_out0]
  unfold out0_12
  rw [View.canon_unit_zero hz]
  simp only [View.ld_unit_zero (S := S2000x128) hz, View.ld_unit_zero (S := S128x128) hz,
    View.ld_unit_zero (S := S1x128) hz, View.ld_unit_zero (S := S2000x1) hz]
  obtain ⟨e0, e1⟩ := idx1_12 t
  have ht := point_lt1 t
  funext y
  obtain ⟨p, q, rfl⟩ : ∃ (p : Fin 2000) (q : Fin 128), y = ix2 p q := ⟨y 0, y 1, eq_ix2 y⟩
  have hp := p.isLt
  have hn : t.val * 2000 + p.val < 50000 := by omega
  have hemb : ((cfg1.win 12).blk t).view.emb (ix2 p q) = ix2 (⟨t.val * 2000 + p.val, hn⟩ : Fin 50000) q := by
    funext a; apply Fin.ext
    match a with
    | ⟨0, _⟩ => show win1_12.index t (0 : Fin 2) * 2000 + 1 * p.val = t.val * 2000 + p.val; rw [e0]; omega
    | ⟨1, _⟩ => show win1_12.index t (1 : Fin 2) * 128 + 1 * q.val = q.val; rw [e1]; omega
  refine (layer_block (V c main_v42) (V c main_v55) (V c main_v68) (V c main_arg15) (V c main_arg16) (V c main_arg17)
    (V c main_v69) (V c main_v70) (V c main_v71) (V c main_v72) (V c main_arg22) (V c main_arg23)
    (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t)
    p q ⟨t.val * 2000 + p.val, hn⟩
    (fun k => iblk1_0_apply V c t p k _ rfl) (fun k => iblk1_1_apply V c t p k _ rfl) (fun k => iblk1_2_apply V c t p k _ rfl)
    (fun k => iblk1_3_apply V c t k q) (fun k => iblk1_4_apply V c t k q) (fun k => iblk1_5_apply V c t k q)
    (iblk1_6_apply V c t q) (iblk1_7_apply V c t q) (iblk1_8_apply V c t q) (iblk1_9_apply V c t q)
    (iblk1_10_apply V c t p _ rfl) (iblk1_11_apply V c t p _ rfl)).trans ?_
  exact (congrArg (layerArr (V c main_v42) (V c main_v55) (V c main_v68) (V c main_arg15) (V c main_arg16) (V c main_arg17)
        (V c main_v69) (V c main_v70) (V c main_v71) (V c main_v72) (V c main_arg22) (V c main_arg23)) hemb).symm

/-- An index of the output array is in point t's block iff each coordinate is in the block's range on its axis. -/
theorem mem_blk1 (t : Fin cfg1.N) (i : S50000x128.Idx) :
    i ∈ ((cfg1.win 12).blk t).view.set ↔ ∀ a : Fin 2, win1_12.index t a * S2000x128.size a ≤ (i a).val
      ∧ (i a).val < win1_12.index t a * S2000x128.size a + S2000x128.size a := by
  show i ∈ ((View.whole main_v73).slice (win1_12.rect t)).set ↔ _
  rw [View.set_slice_whole, Rect.mem_set_unit]
  exact Iff.rfl

/-- The 25 blocks of 2000 rows cover the output array: row r lies in the block of point r / 2000. -/
theorem cover1 (i : S50000x128.Idx) :
    ∃ t : Fin cfg1.N, (cfg1.win 12).flush t = true ∧ i ∈ ((cfg1.win 12).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by omega⟩, rfl⟩
  obtain ⟨e0, e1⟩ := idx1_12 t
  refine ⟨t, flush1_12 t, ?_⟩
  rw [mem_blk1]
  intro a
  match a with
  | ⟨0, _⟩ =>
    show win1_12.index t (0 : Fin 2) * 2000 ≤ (i 0).val ∧ (i 0).val < win1_12.index t (0 : Fin 2) * 2000 + 2000
    rw [e0, ht]; omega
  | ⟨1, _⟩ =>
    show win1_12.index t (1 : Fin 2) * 128 ≤ (i 1).val ∧ (i 1).val < win1_12.index t (1 : Fin 2) * 128 + 128
    rw [e1]; omega

/-- After launch 1 its output array holds the layer's whole-array function of the arrays the launch found. -/
theorem final1 (c : Dev nD) :
    (dat1 (F := Ideal) V c).arrAt 12 cfg1.N
      = (layerArr (V c main_v42) (V c main_v55) (V c main_v68) (V c main_arg15) (V c main_arg16) (V c main_arg17)
        (V c main_v69) (V c main_v70) (V c main_v71) (V c main_v72) (V c main_arg22) (V c main_arg23)) :=
  (dat1 (F := Ideal) V c).arrAt_eq_of_cover 12 _ (fun t _ => flushed1 V c t) (cover1)

end Cert.KernelIdeal.LayerValue

end
-- ==== Proof.KDecode.lean ====
/-
  The decode head of the kernel, read off its third launch.

  The launch walks the 50000 node rows in 25 blocks of 2000.  On each block it forms the logits H · Wd + b, subtracts
  each row's maximum and the logarithm of the row's sum of exponentials, and separately divides each row of H by the
  larger of its Euclidean norm and a small constant.  Here each stored value is read at one entry (a row p of the
  block and a column q), the entry is identified with the specification's entry of the block's rows, and the blocks are
  assembled into the two whole result arrays: entry (n, j) of the first is the log-softmax of the logits of row n at
  column j, entry (n, j) of the second is row n of H divided by the bounded norm, at column j.
-/
import proofs.«133618_j24343874634033_1_alg».proof.Proof.Gen.KernelIdeal.Frame
import proofs.«133618_j24343874634033_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.DecodeValue

open Cert.KernelIdeal Cert.KernelIdeal.Gen Cert.Spec
open Idealize.ShloMosaic Idealize.ShloMosaic.ValueIdx Idealize.ShloMosaic.TcCoe Idealize.SL.Sem
open Idealize.ShloMosaic.Pipeline (Dat)

/-! ## Two layout operations read at an entry: a column kept as a unit axis -/

section Layout
variable {α : Type}

/-- A vector of length a viewed as an a × 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column spread over b columns reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The row normalisation at an entry -/

/-- Row p of a 2000 × 128 block with column k put back is the entry (p, k). -/
theorem lift128 (p : Fin 2000) (k : Fin 128) : reduces_S2000x128_S2000.lift (ix1 p) k = ix2 p k :=
  funext fun c => Fin.ext (by match c with | ⟨0, _⟩ => rfl | ⟨1, _⟩ => rfl)

/-- The sum along a row of a 2000 × 128 block, at row p, is the sum over the row's 128 entries. -/
theorem rowSum128 (v : FVec Ideal S2000x128 .f32) (p : Fin 2000) :
    multiReduction (F := Ideal) .add [1] S2000 v 0x00000000#32 reduces_S2000x128_S2000 (.inl rfl) rfl (ix1 p)
      = ∑ k : Fin 128, v (ix2 p k) := by
  refine (Ideal.multiReduction_add_single v 0x00000000#32 reduces_S2000x128_S2000 (.inl rfl) rfl (ix1 p)).trans ?_
  exact Finset.sum_congr rfl fun k _ => congrArg v (lift128 p k)

/-- The second stored value at entry (p, q): entry (p, q) of the block divided by the larger of the Euclidean norm of
    row p and the small constant. -/
theorem pay3_apply (x0 : Vec Ideal S2000x128 .f32) (p : Fin 2000) (q : Fin 128) :
    k2_pay3 x0 (ix2 p q) = rowNormAt x0 (Ideal.ofBits .f32 0x2B8CBCCC#32) p q := by
  unfold k2_pay3 k2_pay1 rowNormAt
  dsimp only
  rw [shapeCast_self]
  refine congrArg (Ideal.div (x0 (ix2 p q))) ?_
  refine (broadcastTo_a1_ab_apply _ _ p q).trans ?_
  show max (Ideal.sqrt (shapeCast S2000x1 _ shapeCasts_S2000_S2000x1 (ix2 p (0 : Fin 1)))) (Ideal.ofBits .f32 0x2B8CBCCC#32) = _
  refine congrArg (fun z => max (Ideal.sqrt z) (Ideal.ofBits .f32 0x2B8CBCCC#32)) ?_
  refine (shapeCast_a_a1_apply _ _ p 0).trans ?_
  exact rowSum128 (mulf x0 x0) p

/-! ## The log-softmax of the logits at an entry -/

/-- Row p of a 2000 × 64 block with column k put back is the entry (p, k). -/
theorem lift64 (p : Fin 2000) (k : Fin 64) : reduces_S2000x64_S2000.lift (ix1 p) k = ix2 p k :=
  funext fun c => Fin.ext (by match c with | ⟨0, _⟩ => rfl | ⟨1, _⟩ => rfl)

/-- The sum along a row of a 2000 × 64 block, at row p, is the sum over the row's 64 entries. -/
theorem rowSum64 (v : FVec Ideal S2000x64 .f32) (p : Fin 2000) :
    multiReduction (F := Ideal) .add [1] S2000 v 0x00000000#32 reduces_S2000x64_S2000 (.inl rfl) rfl (ix1 p)
      = ∑ k : Fin 64, v (ix2 p k) := by
  refine (Ideal.multiReduction_add_single v 0x00000000#32 reduces_S2000x64_S2000 (.inl rfl) rfl (ix1 p)).trans ?_
  exact Finset.sum_congr rfl fun k _ => congrArg v (lift64 p k)

/-- The maximum along a row of a 2000 × 64 block, at row p, is the maximum from −∞ over the row's 64 entries. -/
theorem rowMax64 (v : FVec Ideal S2000x64 .f32) (p : Fin 2000) :
    multiReduction (F := Ideal) .maximumf [1] S2000 v 0xFF800000#32 reduces_S2000x64_S2000 (.inl rfl) rfl (ix1 p)
      = (Finset.univ : Finset (Fin 64)).fold max negInf (fun k => v (ix2 p k)) := by
  refine (Ideal.multiReduction_maximumf_single v 0xFF800000#32 reduces_S2000x64_S2000 (.inl rfl) rfl (ix1 p)).trans ?_
  have e : (v ∘ reduces_S2000x64_S2000.lift (ix1 p)) = fun k : Fin 64 => v (ix2 p k) :=
    funext fun k => congrArg v (lift64 p k)
  rw [e]
  rfl

/-- The logits of a block: the block times the decoding matrix, plus the bias row on every row. -/
def logitsBlk (x0 : Vec Ideal S2000x128 .f32) (x1 : Vec Ideal S128x64 .f32) (x2 : Vec Ideal S1x64 .f32) :
    FVec Ideal S2000x64 .f32 :=
  addf (matmul dot_S2000x128_S128x64_S2000x64_1_0_0_1_n_n none (truncf .bf16 (k2_pay1 x0) bitsLt_bf16_f32)
      (truncf .bf16 x1 bitsLt_bf16_f32) (constant S2000x64 .f32 0x00000000#32))
    (broadcastTo S2000x64 (shapeCast S1x64 x2 shapeCasts_S1x64_S1x64) broadcasts_S1x64_S2000x64)

/-- A block less its rows' maxima. -/
def shifted (L : FVec Ideal S2000x64 .f32) : FVec Ideal S2000x64 .f32 :=
  subf L (broadcastTo S2000x64 (shapeCast S2000x1
    (multiReduction .maximumf [1] S2000 L 0xFF800000#32 reduces_S2000x64_S2000 (.inl rfl) rfl) shapeCasts_S2000_S2000x1)
    broadcasts_S2000x1_S2000x64)

/-- The shifted block less the logarithms of its rows' sums of exponentials. -/
def lsmBlk (L : FVec Ideal S2000x64 .f32) : FVec Ideal S2000x64 .f32 :=
  subf (shifted L) (broadcastTo S2000x64 (log (shapeCast S2000x1
    (multiReduction .add [1] S2000 (exp (shifted L)) 0x00000000#32 reduces_S2000x64_S2000 (.inl rfl) rfl)
    shapeCasts_S2000_S2000x1)) broadcasts_S2000x1_S2000x64)

/-- The first stored value is the log-softmax block of the logits block. -/
theorem pay2_eq (x0 : Vec Ideal S2000x128 .f32) (x1 : Vec Ideal S128x64 .f32) (x2 : Vec Ideal S1x64 .f32) :
    k2_pay2 x0 x1 x2 = lsmBlk (logitsBlk x0 x1 x2) := rfl

/-- The shifted block at (p, q): the entry less the maximum of row p. -/
theorem shifted_apply (L : FVec Ideal S2000x64 .f32) (p : Fin 2000) (q : Fin 64) :
    shifted L (ix2 p q) = L (ix2 p q) - rowMax (fun (n : Fin 2000) (j : Fin 64) => L (ix2 n j)) p := by
  unfold shifted
  show L (ix2 p q) - broadcastTo S2000x64 _ broadcasts_S2000x1_S2000x64 (ix2 p q) = _
  refine congrArg (fun z => L (ix2 p q) - z) ?_
  refine (broadcastTo_a1_ab_apply _ _ p q).trans ?_
  refine (shapeCast_a_a1_apply _ _ p 0).trans ?_
  exact rowMax64 L p

/-- The log-softmax block at (p, q) is the specification's log-softmax of the block's rows. -/
theorem lsmBlk_apply (L : FVec Ideal S2000x64 .f32) (p : Fin 2000) (q : Fin 64) :
    lsmBlk L (ix2 p q) = logSoftmaxAt (fun (n : Fin 2000) (j : Fin 64) => L (ix2 n j)) p q := by
  unfold lsmBlk logSoftmaxAt
  show shifted L (ix2 p q) - broadcastTo S2000x64 _ broadcasts_S2000x1_S2000x64 (ix2 p q) = _
  refine congrArg₂ (fun a b => a - b) (shifted_apply L p q) ?_
  refine (broadcastTo_a1_ab_apply _ _ p q).trans ?_
  show Ideal.log (shapeCast S2000x1 _ shapeCasts_S2000_S2000x1 (ix2 p (0 : Fin 1))) = _
  refine congrArg Ideal.log ?_
  refine (shapeCast_a_a1_apply _ _ p 0).trans ?_
  refine (rowSum64 (exp (shifted L)) p).trans ?_
  exact Finset.sum_congr rfl fun k _ => congrArg Ideal.exp (shifted_apply L p k)

/-- The four coordinates of the contraction's operand entries: the left operand is read at (row, k), the right at
    (k, column). -/
theorem dot_lhs0 (i : S2000x64.Idx) (r : dot_S2000x128_S128x64_S2000x64_1_0_0_1_n_n.contr.Idx) :
    (dot_S2000x128_S128x64_S2000x64_1_0_0_1_n_n.lhsIdx i r 0).val = (i 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl
theorem dot_lhs1 (i : S2000x64.Idx) (r : dot_S2000x128_S128x64_S2000x64_1_0_0_1_n_n.contr.Idx) :
    (dot_S2000x128_S128x64_S2000x64_1_0_0_1_n_n.lhsIdx i r 1).val = (r ⟨0, by decide⟩).val :=
  dot_S2000x128_S128x64_S2000x64_1_0_0_1_n_n.lhsIdx_val_of_single rfl i r
theorem dot_rhs0 (i : S2000x64.Idx) (r : dot_S2000x128_S128x64_S2000x64_1_0_0_1_n_n.contr.Idx) :
    (dot_S2000x128_S128x64_S2000x64_1_0_0_1_n_n.rhsIdx i r 0).val = (r ⟨0, by decide⟩).val :=
  dot_S2000x128_S128x64_S2000x64_1_0_0_1_n_n.rhsIdx_val_of_single rfl i r
theorem dot_rhs1 (i : S2000x64.Idx) (r : dot_S2000x128_S128x64_S2000x64_1_0_0_1_n_n.contr.Idx) :
    (dot_S2000x128_S128x64_S2000x64_1_0_0_1_n_n.rhsIdx i r 1).val = (i 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- The contraction of the block with the decoding matrix at (p, q): the sum over the 128 columns. -/
theorem dot_apply (A : FVec Ideal S2000x128 .bf16) (B : FVec Ideal S128x64 .bf16) (p : Fin 2000) (q : Fin 64) :
    matmul dot_S2000x128_S128x64_S2000x64_1_0_0_1_n_n none A B (constant S2000x64 .f32 0x00000000#32) (ix2 p q)
      = ∑ k : Fin 128, A (ix2 p k) * B (ix2 k q) := by
  simp only [matmul]
  rw [Ideal.matmul_constant_zero_apply,
    ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q)
      ((contrEquiv1 dot_S2000x128_S128x64_S2000x64_1_0_0_1_n_n 128 rfl rfl).symm k) = ix2 p k :=
    funext fun a => Fin.ext (by
      match a with
      | ⟨0, _⟩ => exact dot_lhs0 _ _
      | ⟨1, _⟩ => exact (dot_lhs1 _ _).trans hk)
  have er : dot_S2000x128_S128x64_S2000x64_1_0_0_1_n_n.rhsIdx (ix2 p q)
      ((contrEquiv1 dot_S2000x128_S128x64_S2000x64_1_0_0_1_n_n 128 rfl rfl).symm k) = ix2 k q :=
    funext fun a => Fin.ext (by
      match a with
      | ⟨0, _⟩ => exact (dot_rhs0 _ _).trans hk
      | ⟨1, _⟩ => exact dot_rhs1 _ _)
  rw [el, er]

/-- The logits block at (p, q) is the specification's logit of the block's row p at column q. -/
theorem logitsBlk_apply (x0 : Vec Ideal S2000x128 .f32) (x1 : Vec Ideal S128x64 .f32) (x2 : Vec Ideal S1x64 .f32)
    (p : Fin 2000) (q : Fin 64) :
    logitsBlk x0 x1 x2 (ix2 p q) = logit x0 x1 (fun j => x2 (ix2 0 j)) p q := by
  unfold logitsBlk logit mm k2_pay1
  dsimp only
  rw [shapeCast_self, shapeCast_self]
  exact congrArg₂ (fun a b : EReal => a + b) (dot_apply _ _ p q) (broadcastTo_1b_ab_apply x2 _ p q)

/-- The first stored value at entry (p, q): the log-softmax, at column q, of the logits of row p of the block. -/
theorem pay2_apply (x0 : Vec Ideal S2000x128 .f32) (x1 : Vec Ideal S128x64 .f32) (x2 : Vec Ideal S1x64 .f32)
    (p : Fin 2000) (q : Fin 64) :
    k2_pay2 x0 x1 x2 (ix2 p q) = logSoftmaxAt (logit x0 x1 (fun j => x2 (ix2 0 j))) p q := by
  rw [pay2_eq, lsmBlk_apply]
  have e : (fun (n : Fin 2000) (j : Fin 64) => logitsBlk x0 x1 x2 (ix2 n j)) = logit x0 x1 (fun j => x2 (ix2 0 j)) :=
    funext fun n => funext fun j => logitsBlk_apply x0 x1 x2 n j
  rw [e]

/-! ## From the blocks to the arrays -/

section Blocks

variable (V : (c : Dev nD) → (b : Ref sig .tc) → Buf (Elt Ideal) ((c : Thread nD τ).loc b))

theorem hz : (![0, 0] : Fin 2 → Nat) = fun _ => 0 := funext fun a => by fin_cases a <;> rfl

example : Pipeline.arrRef spec2 0 = main_v73 := rfl
example : Pipeline.arrRef spec2 1 = main_arg24 := rfl
example : Pipeline.arrRef spec2 2 = main_v74 := rfl
example : Pipeline.arrRef spec2 3 = main_v75_0 := rfl
example : Pipeline.arrRef spec2 4 = main_v75_1 := rfl

/-- The block index maps over the 25 grid points: the three row-blocked windows sit at block (t, 0), the two whole
    windows at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

theorem point_lt (t : Fin cfg2.N) : t.val < 25 := by
  have h := t.isLt
  have e : cfg2.N = 25 := N_2
  omega

/-- Block t of the node features is rows 2000 t … 2000 t + 1999 of the array. -/
theorem iblk0_apply (c : Dev nD) (t : Fin cfg2.N) (p : Fin 2000) (k : Fin 128) (n : Fin 50000)
    (hn : n.val = t.val * 2000 + p.val) :
    (iblk2 V c 0 t : Vec Ideal S2000x128 .f32) (ix2 p k) = (V c main_v73 : Mat 50000 128) (ix2 n k) := by
  obtain ⟨e0, e1, -⟩ := idx_facts t
  unfold iblk2
  rw [View.read_apply]
  show V c main_v73 _ = V c main_v73 _
  refine congrArg (V c main_v73) ?_
  funext a; apply Fin.ext
  match a with
  | ⟨0, _⟩ => show win2_0.index t (0 : Fin 2) * 2000 + 1 * p.val = n.val; rw [e0, hn]; omega
  | ⟨1, _⟩ => show win2_0.index t (1 : Fin 2) * 128 + 1 * k.val = k.val; rw [e1]; omega

/-- The second stored value on a block whose rows are rows of H: the specification's entry of that row. -/
theorem norm_block (H : Mat 50000 128) (x0 : Vec Ideal S2000x128 .f32) (p : Fin 2000) (q : Fin 128) (n : Fin 50000)
    (hx : ∀ k : Fin 128, x0 (ix2 p k) = H (ix2 n k)) :
    k2_pay3 x0 (ix2 p q) = rowNormAt H (Ideal.ofBits .f32 0x2B8CBCCC#32) n q := by
  rw [pay3_apply]
  unfold rowNormAt
  rw [hx q]
  simp only [hx]

end Blocks

section Norm

variable (V : (c : Dev nD) → (b : Ref sig .tc) → Buf (Elt Ideal) ((c : Thread nD τ).loc b))

/-- What grid point t writes back to the normalised rows is block t of the specification's array. -/
theorem flushed_norm (c : Dev nD) (t : Fin cfg2.N) :
    (dat2 (F := Ideal) V c).flushed 4 t
      = ((cfg2.win 4).blk t).view.read (Elt Ideal)
          (fun i => rowNormAt (V c main_v73 : Mat 50000 128) (Ideal.ofBits .f32 0x2B8CBCCC#32) (i 0) (i 1)) := by
  show (cfg2.win 4).cut (grid2.coords t) ((dat2 V c).after 4 t) = _
  rw [after2_4]
  unfold out2_4
  rw [View.canon_unit_zero hz]
  simp only [View.ld_unit_zero (S := S2000x128) hz]
  obtain ⟨-, -, -, -, -, -, -, -, e8, e9⟩ := idx_facts t
  have ht := point_lt t
  funext y
  obtain ⟨p, q, rfl⟩ : ∃ (p : Fin 2000) (q : Fin 128), y = ix2 p q := ⟨y 0, y 1, eq_ix2 y⟩
  have hp := p.isLt
  have hn : t.val * 2000 + p.val < 50000 := by omega
  have h0 : ((cfg2.win 4).blk t).view.emb (ix2 p q) 0 = (⟨t.val * 2000 + p.val, hn⟩ : Fin 50000) := Fin.ext (by
    show win2_4.index t (0 : Fin 2) * 2000 + 1 * p.val = t.val * 2000 + p.val; rw [e8]; omega)
  have h1 : ((cfg2.win 4).blk t).view.emb (ix2 p q) 1 = q := Fin.ext (by
    show win2_4.index t (1 : Fin 2) * 128 + 1 * q.val = q.val; rw [e9]; omega)
  refine (norm_block (V c main_v73) (iblk2 V c 0 t) p q ⟨t.val * 2000 + p.val, hn⟩
    (fun k => iblk0_apply V c t p k _ rfl)).trans ?_
  exact congrArg₂ (rowNormAt (V c main_v73 : Mat 50000 128) (Ideal.ofBits .f32 0x2B8CBCCC#32)) h0.symm h1.symm

end Norm

section NormArray

variable (V : (c : Dev nD) → (b : Ref sig .tc) → Buf (Elt Ideal) ((c : Thread nD τ).loc b))

/-- An entry of the normalised rows lies in point t's block exactly when each coordinate is in the block's range. -/
theorem mem_blk_norm (t : Fin cfg2.N) (i : S50000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole main_v75_1).slice (win2_4.rect t)).set ↔ _
  rw [View.set_slice_whole, Rect.mem_set_unit]
  exact Iff.rfl

/-- Every entry (n, j) lies in the block of the grid point n / 2000. -/
theorem cover_norm (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by omega⟩, rfl⟩
  obtain ⟨-, -, -, -, -, -, -, -, e8, e9⟩ := idx_facts t
  refine ⟨t, flush2_4 t, ?_⟩
  rw [mem_blk_norm]
  intro a
  match a with
  | ⟨0, _⟩ =>
    show win2_4.index t (0 : Fin 2) * 2000 ≤ (i 0).val ∧ (i 0).val < win2_4.index t (0 : Fin 2) * 2000 + 2000
    rw [e8, ht]; omega
  | ⟨1, _⟩ =>
    show win2_4.index t (1 : Fin 2) * 128 ≤ (i 1).val ∧ (i 1).val < win2_4.index t (1 : Fin 2) * 128 + 128
    rw [e9]; omega

/-- THE NORMALISED ROWS after the launch: entry (n, j) is row n of the node features divided by the larger of its
    Euclidean norm and the small constant, at column j. -/
theorem decode_norm (c : Dev nD) :
    (dat2 (F := Ideal) V c).arrAt 4 cfg2.N
      = fun i => rowNormAt (V c main_v73 : Mat 50000 128) (Ideal.ofBits .f32 0x2B8CBCCC#32) (i 0) (i 1) :=
  (dat2 V c).arrAt_eq_of_cover 4 _ (fun t _ => flushed_norm V c t) cover_norm

end NormArray

section Logp

variable (V : (c : Dev nD) → (b : Ref sig .tc) → Buf (Elt Ideal) ((c : Thread nD τ).loc b))

/-- The decoding matrix is fetched whole: its one block is the array. -/
theorem iblk1_apply (c : Dev nD) (t : Fin cfg2.N) (k : Fin 128) (j : Fin 64) :
    (iblk2 V c 1 t : Vec Ideal S128x64 .f32) (ix2 k j) = (V c main_arg24 : Mat 128 64) (ix2 k j) := by
  obtain ⟨-, -, e2, e3, -⟩ := idx_facts t
  unfold iblk2
  rw [View.read_apply]
  show V c main_arg24 _ = V c main_arg24 _
  refine congrArg (V c main_arg24) ?_
  funext a; apply Fin.ext
  match a with
  | ⟨0, _⟩ => show win2_1.index t (0 : Fin 2) * 128 + 1 * k.val = k.val; rw [e2]; omega
  | ⟨1, _⟩ => show win2_1.index t (1 : Fin 2) * 64 + 1 * j.val = j.val; rw [e3]; omega

/-- The bias row is fetched whole: its one block is the array. -/
theorem iblk2_apply (c : Dev nD) (t : Fin cfg2.N) (j : Fin 64) :
    (iblk2 V c 2 t : Vec Ideal S1x64 .f32) (ix2 0 j) = (V c main_v74 : Mat 1 64) (ix2 0 j) := by
  obtain ⟨-, -, -, -, e4, e5, -⟩ := idx_facts t
  unfold iblk2
  rw [View.read_apply]
  show V c main_v74 _ = V c main_v74 _
  refine congrArg (V c main_v74) ?_
  funext a; apply Fin.ext
  match a with
  | ⟨0, _⟩ => show win2_2.index t (0 : Fin 2) * 1 + 1 * 0 = 0; rw [e4]
  | ⟨1, _⟩ => show win2_2.index t (1 : Fin 2) * 64 + 1 * j.val = j.val; rw [e5]; omega

/-- The first stored value on a block whose rows are rows of H, with the decoding matrix and the bias row: the
    specification's log-softmax entry of that row. -/
theorem logp_block (H : Mat 50000 128) (Wd : Mat 128 64) (b : Fin 64 → EReal) (x0 : Vec Ideal S2000x128 .f32)
    (x1 : Vec Ideal S128x64 .f32) (x2 : Vec Ideal S1x64 .f32) (p : Fin 2000) (q : Fin 64) (n : Fin 50000)
    (hx0 : ∀ k : Fin 128, x0 (ix2 p k) = H (ix2 n k)) (hx1 : ∀ (k : Fin 128) (j : Fin 64), x1 (ix2 k j) = Wd (ix2 k j))
    (hx2 : ∀ j : Fin 64, x2 (ix2 0 j) = b j) :
    k2_pay2 x0 x1 x2 (ix2 p q) = logSoftmaxAt (logit H Wd b) n q := by
  rw [pay2_apply]
  have hrow : logit x0 x1 (fun j => x2 (ix2 0 j)) p = logit H Wd b n := funext fun j => by
    unfold logit mm
    simp only [hx0, hx1, hx2]
  unfold logSoftmaxAt rowMax
  rw [hrow]

/-- What grid point t writes back to the log-probabilities is block t of the specification's array. -/
theorem flushed_logp (c : Dev nD) (t : Fin cfg2.N) :
    (dat2 (F := Ideal) V c).flushed 3 t
      = ((cfg2.win 3).blk t).view.read (Elt Ideal)
          (fun i => logSoftmaxAt (logit (V c main_v73 : Mat 50000 128) (V c main_arg24 : Mat 128 64)
            (fun j => (V c main_v74 : Mat 1 64) (ix2 0 j))) (i 0) (i 1)) := by
  show (cfg2.win 3).cut (grid2.coords t) ((dat2 V c).after 3 t) = _
  rw [after2_3]
  unfold out2_3
  rw [View.canon_unit_zero hz]
  simp only [View.ld_unit_zero (S := S2000x128) hz, View.ld_unit_zero (S := S128x64) hz, View.ld_unit_zero (S := S1x64) hz]
  obtain ⟨-, -, -, -, -, -, e6, e7, -, -⟩ := idx_facts t
  have ht := point_lt t
  funext y
  obtain ⟨p, q, rfl⟩ : ∃ (p : Fin 2000) (q : Fin 64), y = ix2 p q := ⟨y 0, y 1, eq_ix2 y⟩
  have hp := p.isLt
  have hn : t.val * 2000 + p.val < 50000 := by omega
  have h0 : ((cfg2.win 3).blk t).view.emb (ix2 p q) 0 = (⟨t.val * 2000 + p.val, hn⟩ : Fin 50000) := Fin.ext (by
    show win2_3.index t (0 : Fin 2) * 2000 + 1 * p.val = t.val * 2000 + p.val; rw [e6]; omega)
  have h1 : ((cfg2.win 3).blk t).view.emb (ix2 p q) 1 = q := Fin.ext (by
    show win2_3.index t (1 : Fin 2) * 64 + 1 * q.val = q.val; rw [e7]; omega)
  refine (logp_block (V c main_v73) (V c main_arg24) (fun j => (V c main_v74 : Mat 1 64) (ix2 0 j))
    (iblk2 V c 0 t) (iblk2 V c 1 t) (iblk2 V c 2 t) p q ⟨t.val * 2000 + p.val, hn⟩
    (fun k => iblk0_apply V c t p k _ rfl) (fun k j => iblk1_apply V c t k j) (fun j => iblk2_apply V c t j)).trans ?_
  exact congrArg₂ (logSoftmaxAt (logit (V c main_v73 : Mat 50000 128) (V c main_arg24 : Mat 128 64)
    (fun j => (V c main_v74 : Mat 1 64) (ix2 0 j)))) h0.symm h1.symm

/-- An entry of the log-probabilities lies in point t's block exactly when each coordinate is in the block's range. -/
theorem mem_blk_logp (t : Fin cfg2.N) (i : S50000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v75_0).slice (win2_3.rect t)).set ↔ _
  rw [View.set_slice_whole, Rect.mem_set_unit]
  exact Iff.rfl

/-- Every entry (n, j) lies in the block of the grid point n / 2000. -/
theorem cover_logp (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 25 := N_2
  obtain ⟨t, ht⟩ : ∃ t : Fin cfg2.N, t.val = (i 0).val / 2000 := ⟨⟨(i 0).val / 2000, by omega⟩, rfl⟩
  obtain ⟨-, -, -, -, -, -, e6, e7, -, -⟩ := idx_facts t
  refine ⟨t, flush2_3 t, ?_⟩
  rw [mem_blk_logp]
  intro a
  match a with
  | ⟨0, _⟩ =>
    show win2_3.index t (0 : Fin 2) * 2000 ≤ (i 0).val ∧ (i 0).val < win2_3.index t (0 : Fin 2) * 2000 + 2000
    rw [e6, ht]; omega
  | ⟨1, _⟩ =>
    show win2_3.index t (1 : Fin 2) * 64 ≤ (i 1).val ∧ (i 1).val < win2_3.index t (1 : Fin 2) * 64 + 64
    rw [e7]; omega

/-- THE LOG-PROBABILITIES after the launch: entry (n, j) is the log-softmax, at column j, of the logits of row n of
    the node features against the decoding matrix and the bias row. -/
theorem decode_logp (c : Dev nD) :
    (dat2 (F := Ideal) V c).arrAt 3 cfg2.N
      = fun i => logSoftmaxAt (logit (V c main_v73 : Mat 50000 128) (V c main_arg24 : Mat 128 64)
          (fun j => (V c main_v74 : Mat 1 64) (ix2 0 j))) (i 0) (i 1) :=
  (dat2 V c).arrAt_eq_of_cover 3 _ (fun t _ => flushed_logp V c t) cover_logp

end Logp

end Cert.KernelIdeal.DecodeValue

end
-- ==== Proof.KValue.lean ====
/-
  The idealized kernel's intermediate arrays as functions of the launch memory: the features with the positional
  term, the first layer's output (the first launch's output array as the host and the second launch find it) and the
  second layer's output (the second launch's output array as the third launch finds it).
-/
import proofs.«133618_j24343874634033_1_alg».proof.Proof.KHost
import proofs.«133618_j24343874634033_1_alg».proof.Proof.KLayerArr
import proofs.«133618_j24343874634033_1_alg».proof.Proof.KDecode

set_option maxRecDepth 16384

noncomputable section

namespace Cert.KernelIdeal.KValue

open Cert.KernelIdeal Cert.KernelIdeal.Gen Cert.Spec Idealize.ShloMosaic Idealize.ShloMosaic.ValueIdx
open Idealize.ShloMosaic.TcCoe Idealize.SL.Sem
open Cert.KernelIdeal.HostValue Cert.KernelIdeal.LayerValue Cert.KernelIdeal.DecodeValue

variable (m : (ℓ : Loc nD τ sig) → Buf (Elt Ideal) ℓ) (ρ : Dev nD → PrngReg) (c : Dev nD)

/-- The features with the positional term. -/
def H0 : FVec Ideal S50000x128 .f32 := h0Arr (m ((c : Thread nD τ).loc main_arg0)) (m ((c : Thread nD τ).loc main_arg5))

/-- The first layer's output. -/
def H1 : FVec Ideal S50000x128 .f32 :=
  layerArr (H0 m c) (aggFrom (edgeRow0 (m ((c : Thread nD τ).loc main_arg1))) (edgeRow1 (m ((c : Thread nD τ).loc main_arg1))) (m ((c : Thread nD τ).loc main_arg2)) (H0 m c))
    (aggFrom (edgeRow0 (m ((c : Thread nD τ).loc main_arg3))) (edgeRow1 (m ((c : Thread nD τ).loc main_arg3))) (m ((c : Thread nD τ).loc main_arg4)) (H0 m c))
    (m ((c : Thread nD τ).loc main_arg6)) (m ((c : Thread nD τ).loc main_arg7)) (m ((c : Thread nD τ).loc main_arg8)) (biasRow (m ((c : Thread nD τ).loc main_arg9))) (biasRow (m ((c : Thread nD τ).loc main_arg10))) (biasRow (m ((c : Thread nD τ).loc main_arg11))) (biasRow (m ((c : Thread nD τ).loc main_arg12)))
    (m ((c : Thread nD τ).loc main_arg13)) (m ((c : Thread nD τ).loc main_arg14))

/-- The second layer's output. -/
def H2 : FVec Ideal S50000x128 .f32 :=
  layerArr (H1 m c) (aggFrom (edgeRow0 (m ((c : Thread nD τ).loc main_arg1))) (edgeRow1 (m ((c : Thread nD τ).loc main_arg1))) (m ((c : Thread nD τ).loc main_arg2)) (H1 m c))
    (aggFrom (edgeRow0 (m ((c : Thread nD τ).loc main_arg3))) (edgeRow1 (m ((c : Thread nD τ).loc main_arg3))) (m ((c : Thread nD τ).loc main_arg4)) (H1 m c))
    (m ((c : Thread nD τ).loc main_arg15)) (m ((c : Thread nD τ).loc main_arg16)) (m ((c : Thread nD τ).loc main_arg17)) (biasRow (m ((c : Thread nD τ).loc main_arg18))) (biasRow (m ((c : Thread nD τ).loc main_arg19))) (biasRow (m ((c : Thread nD τ).loc main_arg20))) (biasRow (m ((c : Thread nD τ).loc main_arg21)))
    (m ((c : Thread nD τ).loc main_arg22)) (m ((c : Thread nD τ).loc main_arg23))

/-- After the first launch its output array is the first layer's output. -/
theorem W2_v42_eq : W2 m ρ c (Proc.devRef .tc main_v42) = H1 m c := by
  rw [W2_v42, final0 (V1 m ρ) c]
  show layerArr (W1 m ρ c (Proc.devRef .tc main_v3)) (W1 m ρ c (Proc.devRef .tc main_v24)) (W1 m ρ c (Proc.devRef .tc main_v37))
    (W1 m ρ c (Proc.devRef .tc main_arg6)) (W1 m ρ c (Proc.devRef .tc main_arg7)) (W1 m ρ c (Proc.devRef .tc main_arg8))
    (W1 m ρ c (Proc.devRef .tc main_v38)) (W1 m ρ c (Proc.devRef .tc main_v39)) (W1 m ρ c (Proc.devRef .tc main_v40))
    (W1 m ρ c (Proc.devRef .tc main_v41)) (W1 m ρ c (Proc.devRef .tc main_arg13)) (W1 m ρ c (Proc.devRef .tc main_arg14)) = _
  rw [W1_v3, W1_v24, W1_v37, W1_arg6, W1_arg7, W1_arg8, W1_v38, W1_v39, W1_v40, W1_v41, W1_arg13, W1_arg14]
  rfl

/-- After the second launch its output array is the second layer's output. -/
theorem W4_v73_eq : W4 m ρ c (Proc.devRef .tc main_v73) = H2 m c := by
  rw [W4_v73, final1 (V3 m ρ) c]
  show layerArr (W3 m ρ c (Proc.devRef .tc main_v42)) (W3 m ρ c (Proc.devRef .tc main_v55)) (W3 m ρ c (Proc.devRef .tc main_v68))
    (W3 m ρ c (Proc.devRef .tc main_arg15)) (W3 m ρ c (Proc.devRef .tc main_arg16)) (W3 m ρ c (Proc.devRef .tc main_arg17))
    (W3 m ρ c (Proc.devRef .tc main_v69)) (W3 m ρ c (Proc.devRef .tc main_v70)) (W3 m ρ c (Proc.devRef .tc main_v71))
    (W3 m ρ c (Proc.devRef .tc main_v72)) (W3 m ρ c (Proc.devRef .tc main_arg22)) (W3 m ρ c (Proc.devRef .tc main_arg23)) = _
  rw [W3_v42, W3_v55, W3_v68, W3_arg15, W3_arg16, W3_arg17, W3_v69, W3_v70, W3_v71, W3_v72, W3_arg22, W3_arg23, W2_v42_eq]
  rfl

/-- What the third launch finds: the second layer's output, the head's matrix, and its bias laid out as a row. -/
theorem W5_v73_eq : W5 m ρ c (Proc.devRef .tc main_v73) = H2 m c := (W5_v73 m ρ c).trans (W4_v73_eq m ρ c)

/-- The first result: the log-softmax of the head's logits of the second layer's output. -/
def out0 : FVec Ideal S50000x64 .f32 := fun i =>
  logSoftmaxAt (logit (H2 m c) (m ((c : Thread nD τ).loc main_arg24))
    (fun j => (shapeCast S1x64 (m ((c : Thread nD τ).loc main_arg25)) shapeCasts_S64_S1x64 : Mat 1 64) (ix2 (0 : Fin 1) j))) (i 0) (i 1)

/-- The second result: the rows of the second layer's output divided by their norms, bounded below by the small constant. -/
def out1 : FVec Ideal S50000x128 .f32 := fun i =>
  rowNormAt (H2 m c) (Ideal.ofBits .f32 0x2B8CBCCC#32) (i 0) (i 1)

/-- After the third launch its first output array is the first result. -/
theorem W6_out0 : W6 m ρ c (Proc.devRef .tc main_v75_0) = out0 m c := by
  refine (W6_v75_0 m ρ c).trans ((decode_logp (V5 m ρ) c).trans ?_)
  funext i
  show logSoftmaxAt (logit (W5 m ρ c (Proc.devRef .tc main_v73)) (W5 m ρ c (Proc.devRef .tc main_arg24))
    (fun j => (W5 m ρ c (Proc.devRef .tc main_v74) : Mat 1 64) (ix2 (0 : Fin 1) j))) (i 0) (i 1) = out0 m c i
  rw [W5_v73_eq m ρ c, W5_arg24 m ρ c, W5_v74 m ρ c]
  rfl

/-- After the third launch its second output array is the second result. -/
theorem W6_out1 : W6 m ρ c (Proc.devRef .tc main_v75_1) = out1 m c := by
  refine (W6_v75_1 m ρ c).trans ((decode_norm (V5 m ρ) c).trans ?_)
  funext i
  show rowNormAt (W5 m ρ c (Proc.devRef .tc main_v73)) (Ideal.ofBits .f32 0x2B8CBCCC#32) (i 0) (i 1) = out1 m c i
  rw [W5_v73_eq m ρ c]
  rfl

end Cert.KernelIdeal.KValue

end
-- ==== Proof.LibWrittenList.lean ====
/-
  Which buffers a stretch of host operations leaves alone, decided in ONE pass per stretch.

  Each operation of a straight-line stretch writes its own result buffer and nothing else.  If every operation's set
  of writes lies in the image of one literal LIST of references — one membership per operation — then a reference
  outside the list is written by no operation of the stretch, so the fold of the stretch over a memory, read at that
  reference, is the memory there.  "Outside the list" is a decidable statement about references, and the same list
  serves every buffer one asks about (a program's arguments, a pipeline's arrays): a stretch of n operations costs n
  memberships once, not n inequalities per buffer.
-/
import Idealize.ShloMosaic.Lib.StableHlo.Run

namespace Cert.LibWrittenList

open Idealize.ShloMosaic

variable {τ : Topo} {sig : RefSig} {Val : EltTy → Type}

/-- A one-buffer set of writes lies in the image of a list that has the buffer. -/
theorem singleton_sub {W : List (Ref sig .tc)} {y : Ref sig .tc} (h : y ∈ W) :
    ({Proc.devRef (τ := τ) .tc y} : Finset (DevRef τ sig)) ⊆ (W.map (Proc.devRef (τ := τ) .tc)).toFinset := by
  intro b hb
  rw [Finset.mem_singleton] at hb
  subst hb
  exact List.mem_toFinset.mpr (List.mem_map.mpr ⟨y, h, rfl⟩)

/-- A reference outside a list that holds every write of a stretch is written by no operation of the stretch. -/
theorem not_written_of {ops : List (HloOp τ sig Val)} {W : List (Ref sig .tc)}
    (hW : ops.Forall fun op => op.writes ⊆ (W.map (Proc.devRef (τ := τ) .tc)).toFinset) {r : Ref sig .tc} (hr : r ∉ W) :
    ∀ op ∈ ops, Proc.devRef (τ := τ) .tc r ∉ op.writes := fun op hop hb => by
  obtain ⟨y, hy, he⟩ := List.mem_map.mp (List.mem_toFinset.mp ((List.forall_iff_forall_mem.mp hW) op hop hb))
  exact hr (Proc.devRef_injective _ he ▸ hy)

/-- Closes `ops.Forall fun op => op.writes ⊆ (W.map (Proc.devRef .tc)).toFinset` for a literal stretch `ops` of the
    library's host operations and a literal list `W` holding each operation's result reference. -/
macro "writes_within_list" : tactic =>
  `(tactic| (simp only [List.Forall, StableHlo.nullary_writes, StableHlo.unary_writes, StableHlo.binary_writes,
               StableHlo.ternary_writes, StableHlo.quaternary_writes, StableHlo.reshape_writes, StableHlo.binaryIndexed_writes,
               StableHlo.nary_writes, StableHlo.unaryIndexed_writes]
             repeat' apply And.intro
             all_goals exact Cert.LibWrittenList.singleton_sub (by decide)))

end Cert.LibWrittenList
-- ==== Proof.LibRunStages.lean ====
/-
  A fact for reading a long straight-line host program that calls functions.

  An operation of a called function stores its value at the callee's buffer through the buffer's type equation and
  reads its operands back the same way.  Reading back what was stored is the identity, so along a chain of such
  operations the pairs of transports cancel; rewriting with this before two terms are compared keeps the comparison from
  walking through every transport.  (With the library's `after_append`, running two lists of operations in a row is running
  the second from the memory the first leaves, a long program can be read stretch by stretch from an arbitrary memory:
  the terms stay small, and what a stretch reads of an earlier one enters as one named value.)
-/
import Idealize.ShloMosaic.Lib.StableHlo.Run

namespace Cert.LibRunStages

open Idealize.ShloMosaic Idealize.ShloMosaic.StableHlo

variable {sig : RefSig} {Val : EltTy → Type}

/-- Reading a called function's buffer at its value's type undoes storing it there. -/
theorem ofBuf_toBuf {T : BufTy} (x : TRef sig T) (v : T.Contents Val) : x.ofBuf (x.toBuf v) = v := by
  obtain ⟨r, h, hd, hu⟩ := x
  subst h
  rfl

end Cert.LibRunStages
-- ==== Proof.RefRun.lean ====
/-
  The reference's run, read in four stretches.  Its @main is 160 host operations in a row: five form the features with
  the positional term, sixty-three the first layer, sixty-three the second, twenty-nine the head.  Each stretch is
  read from an arbitrary memory V: what it leaves in its last buffer is the stage function of what V holds in the
  previous stretch's last buffer and in the argument buffers it reads, and it writes no buffer outside its own list, so
  the arguments pass through unchanged.  Chaining the four readings from the launch memory gives the two results as
  the stage functions of the arguments.
-/
import proofs.«133618_j24343874634033_1_alg».proof.Proof.RefReadP
import proofs.«133618_j24343874634033_1_alg».proof.Proof.LibWrittenList
import proofs.«133618_j24343874634033_1_alg».proof.Proof.LibRunStages

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo
open Cert.LibWrittenList Cert.LibRunStages

variable {F : FTy → Type} [FloatOps F]

/-! ## What each stretch writes -/

abbrev writtenA : List (Ref sig .tc) := [main_v0, main_v1, main_v2, main_v3, main_v4]
abbrev writtenB : List (Ref sig .tc) := [main_v5, main_v6, main_v7, main_v8, main_v9, main_c, main_v10, main_v11, main_c_0, main_v12, main_v13, main_v14, main_v15, main_v16, main_v17, main_v18, main_v19, main_v20, main_cst, main_v21, main_v22, main_v23, main_v24, main_v25, main_v26, main_v27, main_v28, main_v29, main_v30, main_v31, main_v32, main_v33, main_v34, main_c_1, main_v35, main_v36, main_c_2, main_v37, main_v38, main_v39, main_v40, main_v41, main_v42, main_v43, main_v44, main_v45, main_cst_3, main_v46, main_v47, main_v48, main_v49, main_v50, main_v51, main_v52, main_v53, main_v54, main_v55, main_v56, main_v57, main_v58, main_v59, main_v60, main_v61]
abbrev writtenC : List (Ref sig .tc) := [main_v62, main_v63, main_v64, main_v65, main_v66, main_c_4, main_v67, main_v68, main_c_5, main_v69, main_v70, main_v71, main_v72, main_v73, main_v74, main_v75, main_v76, main_v77, main_cst_6, main_v78, main_v79, main_v80, main_v81, main_v82, main_v83, main_v84, main_v85, main_v86, main_v87, main_v88, main_v89, main_v90, main_v91, main_c_7, main_v92, main_v93, main_c_8, main_v94, main_v95, main_v96, main_v97, main_v98, main_v99, main_v100, main_v101, main_v102, main_cst_9, main_v103, main_v104, main_v105, main_v106, main_v107, main_v108, main_v109, main_v110, main_v111, main_v112, main_v113, main_v114, main_v115, main_v116, main_v117, main_v118]
abbrev writtenD : List (Ref sig .tc) := [main_v119, main_v120, main_v121, main_v122, main_call0_cst, main_call0_v0, main_call0_cst_0, main_call0_v1, main_call0_v2, main_call0_v3, main_call0_v4, main_call0_v5, main_call0_v6, main_call0_cst_1, main_call0_v7, main_call0_v8, main_call0_v9, main_call0_v10, main_v123, main_call1_v0, main_call1_cst, main_call1_v1, main_call1_v2, main_v124, main_cst_10, main_v125, main_v126, main_v127, main_v128]

theorem writesA : (opsA (F := F)).Forall fun op => op.writes ⊆ (writtenA.map (Proc.devRef (τ := τ) .tc)).toFinset := by
  writes_within_list
theorem writesB : (opsB (F := F)).Forall fun op => op.writes ⊆ (writtenB.map (Proc.devRef (τ := τ) .tc)).toFinset := by
  writes_within_list
theorem writesC : (opsC (F := F)).Forall fun op => op.writes ⊆ (writtenC.map (Proc.devRef (τ := τ) .tc)).toFinset := by
  writes_within_list
theorem writesD : (opsD (F := F)).Forall fun op => op.writes ⊆ (writtenD.map (Proc.devRef (τ := τ) .tc)).toFinset := by
  writes_within_list

variable (V : Valuation τ sig (Elt F))

/-- A buffer outside a stretch's list is as the stretch found it. -/
theorem keepA {r : Ref sig .tc} (hr : r ∉ writtenA) : after opsA V (Proc.devRef .tc r) = V (Proc.devRef .tc r) :=
  after_of_writes_sub opsA V writesA hr
theorem keepB {r : Ref sig .tc} (hr : r ∉ writtenB) : after opsB V (Proc.devRef .tc r) = V (Proc.devRef .tc r) :=
  after_of_writes_sub opsB V writesB hr
theorem keepC {r : Ref sig .tc} (hr : r ∉ writtenC) : after opsC V (Proc.devRef .tc r) = V (Proc.devRef .tc r) :=
  after_of_writes_sub opsC V writesC hr
theorem keepD {r : Ref sig .tc} (hr : r ∉ writtenD) : after opsD V (Proc.devRef .tc r) = V (Proc.devRef .tc r) :=
  after_of_writes_sub opsD V writesD hr

/-! ## What each stretch leaves -/

set_option maxHeartbeats 64000000 in
set_option maxRecDepth 65536 in
/-- The first stretch leaves the features with the positional term. -/
theorem readA (x0 : (⟨S50000x128, .f32⟩ : BufTy).Contents (Elt F)) (x5 : (⟨S2x64, .f32⟩ : BufTy).Contents (Elt F)) (h0 : V (Proc.devRef .tc main_arg0) = x0) (h5 : V (Proc.devRef .tc main_arg5) = x5) :
    after opsA V (Proc.devRef .tc main_v4) = val_main_v4 (F := F) x0 x5 := by
  after_results_simp
  rw [h0, h5]
  rfl

set_option maxHeartbeats 64000000 in
set_option maxRecDepth 65536 in
/-- The second stretch leaves the first layer's output. -/
theorem readB (x0 : (⟨S50000x128, .f32⟩ : BufTy).Contents (Elt F)) (x1 : (⟨S2x800000, .i32⟩ : BufTy).Contents (Elt F)) (x2 : (⟨S800000, .f32⟩ : BufTy).Contents (Elt F)) (x3 : (⟨S2x800000, .i32⟩ : BufTy).Contents (Elt F)) (x4 : (⟨S800000, .f32⟩ : BufTy).Contents (Elt F)) (x5 : (⟨S2x64, .f32⟩ : BufTy).Contents (Elt F)) (x6 : (⟨S128x128, .f32⟩ : BufTy).Contents (Elt F)) (x7 : (⟨S128x128, .f32⟩ : BufTy).Contents (Elt F)) (x8 : (⟨S128x128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S50000x1, .f32⟩ : BufTy).Contents (Elt F)) (x14 : (⟨S50000x1, .f32⟩ : BufTy).Contents (Elt F))
    (hv : V (Proc.devRef .tc main_v4) = val_main_v4 (F := F) x0 x5) (h1 : V (Proc.devRef .tc main_arg1) = x1) (h2 : V (Proc.devRef .tc main_arg2) = x2) (h3 : V (Proc.devRef .tc main_arg3) = x3) (h4 : V (Proc.devRef .tc main_arg4) = x4) (h6 : V (Proc.devRef .tc main_arg6) = x6) (h7 : V (Proc.devRef .tc main_arg7) = x7) (h8 : V (Proc.devRef .tc main_arg8) = x8) (h9 : V (Proc.devRef .tc main_arg9) = x9) (h10 : V (Proc.devRef .tc main_arg10) = x10) (h11 : V (Proc.devRef .tc main_arg11) = x11) (h12 : V (Proc.devRef .tc main_arg12) = x12) (h13 : V (Proc.devRef .tc main_arg13) = x13) (h14 : V (Proc.devRef .tc main_arg14) = x14) :
    after opsB V (Proc.devRef .tc main_v61) = val_main_v61 (F := F) x0 x1 x2 x3 x4 x5 x6 x7 x8 x9 x10 x11 x12 x13 x14 := by
  after_results_simp
  rw [hv, h1, h2, h3, h4, h6, h7, h8, h9, h10, h11, h12, h13, h14]
  rfl

set_option maxHeartbeats 64000000 in
set_option maxRecDepth 65536 in
/-- The third stretch leaves the second layer's output. -/
theorem readC (x0 : (⟨S50000x128, .f32⟩ : BufTy).Contents (Elt F)) (x1 : (⟨S2x800000, .i32⟩ : BufTy).Contents (Elt F)) (x2 : (⟨S800000, .f32⟩ : BufTy).Contents (Elt F)) (x3 : (⟨S2x800000, .i32⟩ : BufTy).Contents (Elt F)) (x4 : (⟨S800000, .f32⟩ : BufTy).Contents (Elt F)) (x5 : (⟨S2x64, .f32⟩ : BufTy).Contents (Elt F)) (x6 : (⟨S128x128, .f32⟩ : BufTy).Contents (Elt F)) (x7 : (⟨S128x128, .f32⟩ : BufTy).Contents (Elt F)) (x8 : (⟨S128x128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S50000x1, .f32⟩ : BufTy).Contents (Elt F)) (x14 : (⟨S50000x1, .f32⟩ : BufTy).Contents (Elt F)) (x15 : (⟨S128x128, .f32⟩ : BufTy).Contents (Elt F)) (x16 : (⟨S128x128, .f32⟩ : BufTy).Contents (Elt F)) (x17 : (⟨S128x128, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S128, .f32⟩ : BufTy).Contents (Elt F)) (x22 : (⟨S50000x1, .f32⟩ : BufTy).Contents (Elt F)) (x23 : (⟨S50000x1, .f32⟩ : BufTy).Contents (Elt F))
    (hv : V (Proc.devRef .tc main_v61) = val_main_v61 (F := F) x0 x1 x2 x3 x4 x5 x6 x7 x8 x9 x10 x11 x12 x13 x14) (h1 : V (Proc.devRef .tc main_arg1) = x1) (h2 : V (Proc.devRef .tc main_arg2) = x2) (h3 : V (Proc.devRef .tc main_arg3) = x3) (h4 : V (Proc.devRef .tc main_arg4) = x4) (h15 : V (Proc.devRef .tc main_arg15) = x15) (h16 : V (Proc.devRef .tc main_arg16) = x16) (h17 : V (Proc.devRef .tc main_arg17) = x17) (h18 : V (Proc.devRef .tc main_arg18) = x18) (h19 : V (Proc.devRef .tc main_arg19) = x19) (h20 : V (Proc.devRef .tc main_arg20) = x20) (h21 : V (Proc.devRef .tc main_arg21) = x21) (h22 : V (Proc.devRef .tc main_arg22) = x22) (h23 : V (Proc.devRef .tc main_arg23) = x23) :
    after opsC V (Proc.devRef .tc main_v118) = val_main_v118 (F := F) x0 x1 x2 x3 x4 x5 x6 x7 x8 x9 x10 x11 x12 x13 x14 x15 x16 x17 x18 x19 x20 x21 x22 x23 := by
  after_results_simp
  rw [hv, h1, h2, h3, h4, h15, h16, h17, h18, h19, h20, h21, h22, h23]
  rfl

set_option maxHeartbeats 64000000 in
set_option maxRecDepth 65536 in
/-- The fourth stretch leaves the two results. -/
theorem readD0 (x0 : (⟨S50000x128, .f32⟩ : BufTy).Contents (Elt F)) (x1 : (⟨S2x800000, .i32⟩ : BufTy).Contents (Elt F)) (x2 : (⟨S800000, .f32⟩ : BufTy).Contents (Elt F)) (x3 : (⟨S2x800000, .i32⟩ : BufTy).Contents (Elt F)) (x4 : (⟨S800000, .f32⟩ : BufTy).Contents (Elt F)) (x5 : (⟨S2x64, .f32⟩ : BufTy).Contents (Elt F)) (x6 : (⟨S128x128, .f32⟩ : BufTy).Contents (Elt F)) (x7 : (⟨S128x128, .f32⟩ : BufTy).Contents (Elt F)) (x8 : (⟨S128x128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S50000x1, .f32⟩ : BufTy).Contents (Elt F)) (x14 : (⟨S50000x1, .f32⟩ : BufTy).Contents (Elt F)) (x15 : (⟨S128x128, .f32⟩ : BufTy).Contents (Elt F)) (x16 : (⟨S128x128, .f32⟩ : BufTy).Contents (Elt F)) (x17 : (⟨S128x128, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S128, .f32⟩ : BufTy).Contents (Elt F)) (x22 : (⟨S50000x1, .f32⟩ : BufTy).Contents (Elt F)) (x23 : (⟨S50000x1, .f32⟩ : BufTy).Contents (Elt F)) (x24 : (⟨S128x64, .f32⟩ : BufTy).Contents (Elt F)) (x25 : (⟨S64, .f32⟩ : BufTy).Contents (Elt F))
    (hv : V (Proc.devRef .tc main_v118) = val_main_v118 (F := F) x0 x1 x2 x3 x4 x5 x6 x7 x8 x9 x10 x11 x12 x13 x14 x15 x16 x17 x18 x19 x20 x21 x22 x23) (h24 : V (Proc.devRef .tc main_arg24) = x24) (h25 : V (Proc.devRef .tc main_arg25) = x25) :
    after opsD V (Proc.devRef .tc main_v123) = val_main_v123 (F := F) x0 x1 x2 x3 x4 x5 x6 x7 x8 x9 x10 x11 x12 x13 x14 x15 x16 x17 x18 x19 x20 x21 x22 x23 x24 x25 := by
  after_results_simp
  simp only [ofBuf_toBuf]
  rw [hv, h24, h25]
  rfl
set_option maxHeartbeats 64000000 in
set_option maxRecDepth 65536 in
theorem readD1 (x0 : (⟨S50000x128, .f32⟩ : BufTy).Contents (Elt F)) (x1 : (⟨S2x800000, .i32⟩ : BufTy).Contents (Elt F)) (x2 : (⟨S800000, .f32⟩ : BufTy).Contents (Elt F)) (x3 : (⟨S2x800000, .i32⟩ : BufTy).Contents (Elt F)) (x4 : (⟨S800000, .f32⟩ : BufTy).Contents (Elt F)) (x5 : (⟨S2x64, .f32⟩ : BufTy).Contents (Elt F)) (x6 : (⟨S128x128, .f32⟩ : BufTy).Contents (Elt F)) (x7 : (⟨S128x128, .f32⟩ : BufTy).Contents (Elt F)) (x8 : (⟨S128x128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S50000x1, .f32⟩ : BufTy).Contents (Elt F)) (x14 : (⟨S50000x1, .f32⟩ : BufTy).Contents (Elt F)) (x15 : (⟨S128x128, .f32⟩ : BufTy).Contents (Elt F)) (x16 : (⟨S128x128, .f32⟩ : BufTy).Contents (Elt F)) (x17 : (⟨S128x128, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S128, .f32⟩ : BufTy).Contents (Elt F)) (x22 : (⟨S50000x1, .f32⟩ : BufTy).Contents (Elt F)) (x23 : (⟨S50000x1, .f32⟩ : BufTy).Contents (Elt F))
    (hv : V (Proc.devRef .tc main_v118) = val_main_v118 (F := F) x0 x1 x2 x3 x4 x5 x6 x7 x8 x9 x10 x11 x12 x13 x14 x15 x16 x17 x18 x19 x20 x21 x22 x23) :
    after opsD V (Proc.devRef .tc main_v128) = val_main_v128 (F := F) x0 x1 x2 x3 x4 x5 x6 x7 x8 x9 x10 x11 x12 x13 x14 x15 x16 x17 x18 x19 x20 x21 x22 x23 := by
  after_results_simp
  rw [hv]
  rfl

end Cert.ReferenceIdeal.RefRun

/-! ## The four readings chained from the launch memory -/

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo
open Cert.LibWrittenList Cert.LibRunStages

variable {F : FTy → Type} [FloatOps F]

variable (m : (ℓ : Loc nD τ sig) → Buf (Elt F) ℓ) (ρ : Dev nD → PrngReg) (c : Dev nD)

theorem argA0 : after opsA (launchContents m c) (Proc.devRef .tc main_arg0) = m ((c.tc : Thread nD τ).loc main_arg0) :=
  (keepA _ (by decide)).trans rfl
theorem argB0 : after opsB (after opsA (launchContents m c)) (Proc.devRef .tc main_arg0) = m ((c.tc : Thread nD τ).loc main_arg0) :=
  (keepB _ (by decide)).trans (argA0 m c)
theorem argC0 : after opsC (after opsB (after opsA (launchContents m c))) (Proc.devRef .tc main_arg0) = m ((c.tc : Thread nD τ).loc main_arg0) :=
  (keepC _ (by decide)).trans (argB0 m c)
theorem argD0 : after (ops (F := F)) (launchContents m c) (Proc.devRef .tc main_arg0) = m ((c.tc : Thread nD τ).loc main_arg0) := by
  rw [ops_eq, after_append, after_append, after_append]
  exact (keepD _ (by decide)).trans (argC0 m c)
theorem argA1 : after opsA (launchContents m c) (Proc.devRef .tc main_arg1) = m ((c.tc : Thread nD τ).loc main_arg1) :=
  (keepA _ (by decide)).trans rfl
theorem argB1 : after opsB (after opsA (launchContents m c)) (Proc.devRef .tc main_arg1) = m ((c.tc : Thread nD τ).loc main_arg1) :=
  (keepB _ (by decide)).trans (argA1 m c)
theorem argC1 : after opsC (after opsB (after opsA (launchContents m c))) (Proc.devRef .tc main_arg1) = m ((c.tc : Thread nD τ).loc main_arg1) :=
  (keepC _ (by decide)).trans (argB1 m c)
theorem argD1 : after (ops (F := F)) (launchContents m c) (Proc.devRef .tc main_arg1) = m ((c.tc : Thread nD τ).loc main_arg1) := by
  rw [ops_eq, after_append, after_append, after_append]
  exact (keepD _ (by decide)).trans (argC1 m c)
theorem argA2 : after opsA (launchContents m c) (Proc.devRef .tc main_arg2) = m ((c.tc : Thread nD τ).loc main_arg2) :=
  (keepA _ (by decide)).trans rfl
theorem argB2 : after opsB (after opsA (launchContents m c)) (Proc.devRef .tc main_arg2) = m ((c.tc : Thread nD τ).loc main_arg2) :=
  (keepB _ (by decide)).trans (argA2 m c)
theorem argC2 : after opsC (after opsB (after opsA (launchContents m c))) (Proc.devRef .tc main_arg2) = m ((c.tc : Thread nD τ).loc main_arg2) :=
  (keepC _ (by decide)).trans (argB2 m c)
theorem argD2 : after (ops (F := F)) (launchContents m c) (Proc.devRef .tc main_arg2) = m ((c.tc : Thread nD τ).loc main_arg2) := by
  rw [ops_eq, after_append, after_append, after_append]
  exact (keepD _ (by decide)).trans (argC2 m c)
theorem argA3 : after opsA (launchContents m c) (Proc.devRef .tc main_arg3) = m ((c.tc : Thread nD τ).loc main_arg3) :=
  (keepA _ (by decide)).trans rfl
theorem argB3 : after opsB (after opsA (launchContents m c)) (Proc.devRef .tc main_arg3) = m ((c.tc : Thread nD τ).loc main_arg3) :=
  (keepB _ (by decide)).trans (argA3 m c)
theorem argC3 : after opsC (after opsB (after opsA (launchContents m c))) (Proc.devRef .tc main_arg3) = m ((c.tc : Thread nD τ).loc main_arg3) :=
  (keepC _ (by decide)).trans (argB3 m c)
theorem argD3 : after (ops (F := F)) (launchContents m c) (Proc.devRef .tc main_arg3) = m ((c.tc : Thread nD τ).loc main_arg3) := by
  rw [ops_eq, after_append, after_append, after_append]
  exact (keepD _ (by decide)).trans (argC3 m c)
theorem argA4 : after opsA (launchContents m c) (Proc.devRef .tc main_arg4) = m ((c.tc : Thread nD τ).loc main_arg4) :=
  (keepA _ (by decide)).trans rfl
theorem argB4 : after opsB (after opsA (launchContents m c)) (Proc.devRef .tc main_arg4) = m ((c.tc : Thread nD τ).loc main_arg4) :=
  (keepB _ (by decide)).trans (argA4 m c)
theorem argC4 : after opsC (after opsB (after opsA (launchContents m c))) (Proc.devRef .tc main_arg4) = m ((c.tc : Thread nD τ).loc main_arg4) :=
  (keepC _ (by decide)).trans (argB4 m c)
theorem argD4 : after (ops (F := F)) (launchContents m c) (Proc.devRef .tc main_arg4) = m ((c.tc : Thread nD τ).loc main_arg4) := by
  rw [ops_eq, after_append, after_append, after_append]
  exact (keepD _ (by decide)).trans (argC4 m c)
theorem argA5 : after opsA (launchContents m c) (Proc.devRef .tc main_arg5) = m ((c.tc : Thread nD τ).loc main_arg5) :=
  (keepA _ (by decide)).trans rfl
theorem argB5 : after opsB (after opsA (launchContents m c)) (Proc.devRef .tc main_arg5) = m ((c.tc : Thread nD τ).loc main_arg5) :=
  (keepB _ (by decide)).trans (argA5 m c)
theorem argC5 : after opsC (after opsB (after opsA (launchContents m c))) (Proc.devRef .tc main_arg5) = m ((c.tc : Thread nD τ).loc main_arg5) :=
  (keepC _ (by decide)).trans (argB5 m c)
theorem argD5 : after (ops (F := F)) (launchContents m c) (Proc.devRef .tc main_arg5) = m ((c.tc : Thread nD τ).loc main_arg5) := by
  rw [ops_eq, after_append, after_append, after_append]
  exact (keepD _ (by decide)).trans (argC5 m c)
theorem argA6 : after opsA (launchContents m c) (Proc.devRef .tc main_arg6) = m ((c.tc : Thread nD τ).loc main_arg6) :=
  (keepA _ (by decide)).trans rfl
theorem argB6 : after opsB (after opsA (launchContents m c)) (Proc.devRef .tc main_arg6) = m ((c.tc : Thread nD τ).loc main_arg6) :=
  (keepB _ (by decide)).trans (argA6 m c)
theorem argC6 : after opsC (after opsB (after opsA (launchContents m c))) (Proc.devRef .tc main_arg6) = m ((c.tc : Thread nD τ).loc main_arg6) :=
  (keepC _ (by decide)).trans (argB6 m c)
theorem argD6 : after (ops (F := F)) (launchContents m c) (Proc.devRef .tc main_arg6) = m ((c.tc : Thread nD τ).loc main_arg6) := by
  rw [ops_eq, after_append, after_append, after_append]
  exact (keepD _ (by decide)).trans (argC6 m c)
theorem argA7 : after opsA (launchContents m c) (Proc.devRef .tc main_arg7) = m ((c.tc : Thread nD τ).loc main_arg7) :=
  (keepA _ (by decide)).trans rfl
theorem argB7 : after opsB (after opsA (launchContents m c)) (Proc.devRef .tc main_arg7) = m ((c.tc : Thread nD τ).loc main_arg7) :=
  (keepB _ (by decide)).trans (argA7 m c)
theorem argC7 : after opsC (after opsB (after opsA (launchContents m c))) (Proc.devRef .tc main_arg7) = m ((c.tc : Thread nD τ).loc main_arg7) :=
  (keepC _ (by decide)).trans (argB7 m c)
theorem argD7 : after (ops (F := F)) (launchContents m c) (Proc.devRef .tc main_arg7) = m ((c.tc : Thread nD τ).loc main_arg7) := by
  rw [ops_eq, after_append, after_append, after_append]
  exact (keepD _ (by decide)).trans (argC7 m c)
theorem argA8 : after opsA (launchContents m c) (Proc.devRef .tc main_arg8) = m ((c.tc : Thread nD τ).loc main_arg8) :=
  (keepA _ (by decide)).trans rfl
theorem argB8 : after opsB (after opsA (launchContents m c)) (Proc.devRef .tc main_arg8) = m ((c.tc : Thread nD τ).loc main_arg8) :=
  (keepB _ (by decide)).trans (argA8 m c)
theorem argC8 : after opsC (after opsB (after opsA (launchContents m c))) (Proc.devRef .tc main_arg8) = m ((c.tc : Thread nD τ).loc main_arg8) :=
  (keepC _ (by decide)).trans (argB8 m c)
theorem argD8 : after (ops (F := F)) (launchContents m c) (Proc.devRef .tc main_arg8) = m ((c.tc : Thread nD τ).loc main_arg8) := by
  rw [ops_eq, after_append, after_append, after_append]
  exact (keepD _ (by decide)).trans (argC8 m c)
theorem argA9 : after opsA (launchContents m c) (Proc.devRef .tc main_arg9) = m ((c.tc : Thread nD τ).loc main_arg9) :=
  (keepA _ (by decide)).trans rfl
theorem argB9 : after opsB (after opsA (launchContents m c)) (Proc.devRef .tc main_arg9) = m ((c.tc : Thread nD τ).loc main_arg9) :=
  (keepB _ (by decide)).trans (argA9 m c)
theorem argC9 : after opsC (after opsB (after opsA (launchContents m c))) (Proc.devRef .tc main_arg9) = m ((c.tc : Thread nD τ).loc main_arg9) :=
  (keepC _ (by decide)).trans (argB9 m c)
theorem argD9 : after (ops (F := F)) (launchContents m c) (Proc.devRef .tc main_arg9) = m ((c.tc : Thread nD τ).loc main_arg9) := by
  rw [ops_eq, after_append, after_append, after_append]
  exact (keepD _ (by decide)).trans (argC9 m c)
theorem argA10 : after opsA (launchContents m c) (Proc.devRef .tc main_arg10) = m ((c.tc : Thread nD τ).loc main_arg10) :=
  (keepA _ (by decide)).trans rfl
theorem argB10 : after opsB (after opsA (launchContents m c)) (Proc.devRef .tc main_arg10) = m ((c.tc : Thread nD τ).loc main_arg10) :=
  (keepB _ (by decide)).trans (argA10 m c)
theorem argC10 : after opsC (after opsB (after opsA (launchContents m c))) (Proc.devRef .tc main_arg10) = m ((c.tc : Thread nD τ).loc main_arg10) :=
  (keepC _ (by decide)).trans (argB10 m c)
theorem argD10 : after (ops (F := F)) (launchContents m c) (Proc.devRef .tc main_arg10) = m ((c.tc : Thread nD τ).loc main_arg10) := by
  rw [ops_eq, after_append, after_append, after_append]
  exact (keepD _ (by decide)).trans (argC10 m c)
theorem argA11 : after opsA (launchContents m c) (Proc.devRef .tc main_arg11) = m ((c.tc : Thread nD τ).loc main_arg11) :=
  (keepA _ (by decide)).trans rfl
theorem argB11 : after opsB (after opsA (launchContents m c)) (Proc.devRef .tc main_arg11) = m ((c.tc : Thread nD τ).loc main_arg11) :=
  (keepB _ (by decide)).trans (argA11 m c)
theorem argC11 : after opsC (after opsB (after opsA (launchContents m c))) (Proc.devRef .tc main_arg11) = m ((c.tc : Thread nD τ).loc main_arg11) :=
  (keepC _ (by decide)).trans (argB11 m c)
theorem argD11 : after (ops (F := F)) (launchContents m c) (Proc.devRef .tc main_arg11) = m ((c.tc : Thread nD τ).loc main_arg11) := by
  rw [ops_eq, after_append, after_append, after_append]
  exact (keepD _ (by decide)).trans (argC11 m c)
theorem argA12 : after opsA (launchContents m c) (Proc.devRef .tc main_arg12) = m ((c.tc : Thread nD τ).loc main_arg12) :=
  (keepA _ (by decide)).trans rfl
theorem argB12 : after opsB (after opsA (launchContents m c)) (Proc.devRef .tc main_arg12) = m ((c.tc : Thread nD τ).loc main_arg12) :=
  (keepB _ (by decide)).trans (argA12 m c)
theorem argC12 : after opsC (after opsB (after opsA (launchContents m c))) (Proc.devRef .tc main_arg12) = m ((c.tc : Thread nD τ).loc main_arg12) :=
  (keepC _ (by decide)).trans (argB12 m c)
theorem argD12 : after (ops (F := F)) (launchContents m c) (Proc.devRef .tc main_arg12) = m ((c.tc : Thread nD τ).loc main_arg12) := by
  rw [ops_eq, after_append, after_append, after_append]
  exact (keepD _ (by decide)).trans (argC12 m c)
theorem argA13 : after opsA (launchContents m c) (Proc.devRef .tc main_arg13) = m ((c.tc : Thread nD τ).loc main_arg13) :=
  (keepA _ (by decide)).trans rfl
theorem argB13 : after opsB (after opsA (launchContents m c)) (Proc.devRef .tc main_arg13) = m ((c.tc : Thread nD τ).loc main_arg13) :=
  (keepB _ (by decide)).trans (argA13 m c)
theorem argC13 : after opsC (after opsB (after opsA (launchContents m c))) (Proc.devRef .tc main_arg13) = m ((c.tc : Thread nD τ).loc main_arg13) :=
  (keepC _ (by decide)).trans (argB13 m c)
theorem argD13 : after (ops (F := F)) (launchContents m c) (Proc.devRef .tc main_arg13) = m ((c.tc : Thread nD τ).loc main_arg13) := by
  rw [ops_eq, after_append, after_append, after_append]
  exact (keepD _ (by decide)).trans (argC13 m c)
theorem argA14 : after opsA (launchContents m c) (Proc.devRef .tc main_arg14) = m ((c.tc : Thread nD τ).loc main_arg14) :=
  (keepA _ (by decide)).trans rfl
theorem argB14 : after opsB (after opsA (launchContents m c)) (Proc.devRef .tc main_arg14) = m ((c.tc : Thread nD τ).loc main_arg14) :=
  (keepB _ (by decide)).trans (argA14 m c)
theorem argC14 : after opsC (after opsB (after opsA (launchContents m c))) (Proc.devRef .tc main_arg14) = m ((c.tc : Thread nD τ).loc main_arg14) :=
  (keepC _ (by decide)).trans (argB14 m c)
theorem argD14 : after (ops (F := F)) (launchContents m c) (Proc.devRef .tc main_arg14) = m ((c.tc : Thread nD τ).loc main_arg14) := by
  rw [ops_eq, after_append, after_append, after_append]
  exact (keepD _ (by decide)).trans (argC14 m c)
theorem argA15 : after opsA (launchContents m c) (Proc.devRef .tc main_arg15) = m ((c.tc : Thread nD τ).loc main_arg15) :=
  (keepA _ (by decide)).trans rfl
theorem argB15 : after opsB (after opsA (launchContents m c)) (Proc.devRef .tc main_arg15) = m ((c.tc : Thread nD τ).loc main_arg15) :=
  (keepB _ (by decide)).trans (argA15 m c)
theorem argC15 : after opsC (after opsB (after opsA (launchContents m c))) (Proc.devRef .tc main_arg15) = m ((c.tc : Thread nD τ).loc main_arg15) :=
  (keepC _ (by decide)).trans (argB15 m c)
theorem argD15 : after (ops (F := F)) (launchContents m c) (Proc.devRef .tc main_arg15) = m ((c.tc : Thread nD τ).loc main_arg15) := by
  rw [ops_eq, after_append, after_append, after_append]
  exact (keepD _ (by decide)).trans (argC15 m c)
theorem argA16 : after opsA (launchContents m c) (Proc.devRef .tc main_arg16) = m ((c.tc : Thread nD τ).loc main_arg16) :=
  (keepA _ (by decide)).trans rfl
theorem argB16 : after opsB (after opsA (launchContents m c)) (Proc.devRef .tc main_arg16) = m ((c.tc : Thread nD τ).loc main_arg16) :=
  (keepB _ (by decide)).trans (argA16 m c)
theorem argC16 : after opsC (after opsB (after opsA (launchContents m c))) (Proc.devRef .tc main_arg16) = m ((c.tc : Thread nD τ).loc main_arg16) :=
  (keepC _ (by decide)).trans (argB16 m c)
theorem argD16 : after (ops (F := F)) (launchContents m c) (Proc.devRef .tc main_arg16) = m ((c.tc : Thread nD τ).loc main_arg16) := by
  rw [ops_eq, after_append, after_append, after_append]
  exact (keepD _ (by decide)).trans (argC16 m c)
theorem argA17 : after opsA (launchContents m c) (Proc.devRef .tc main_arg17) = m ((c.tc : Thread nD τ).loc main_arg17) :=
  (keepA _ (by decide)).trans rfl
theorem argB17 : after opsB (after opsA (launchContents m c)) (Proc.devRef .tc main_arg17) = m ((c.tc : Thread nD τ).loc main_arg17) :=
  (keepB _ (by decide)).trans (argA17 m c)
theorem argC17 : after opsC (after opsB (after opsA (launchContents m c))) (Proc.devRef .tc main_arg17) = m ((c.tc : Thread nD τ).loc main_arg17) :=
  (keepC _ (by decide)).trans (argB17 m c)
theorem argD17 : after (ops (F := F)) (launchContents m c) (Proc.devRef .tc main_arg17) = m ((c.tc : Thread nD τ).loc main_arg17) := by
  rw [ops_eq, after_append, after_append, after_append]
  exact (keepD _ (by decide)).trans (argC17 m c)
theorem argA18 : after opsA (launchContents m c) (Proc.devRef .tc main_arg18) = m ((c.tc : Thread nD τ).loc main_arg18) :=
  (keepA _ (by decide)).trans rfl
theorem argB18 : after opsB (after opsA (launchContents m c)) (Proc.devRef .tc main_arg18) = m ((c.tc : Thread nD τ).loc main_arg18) :=
  (keepB _ (by decide)).trans (argA18 m c)
theorem argC18 : after opsC (after opsB (after opsA (launchContents m c))) (Proc.devRef .tc main_arg18) = m ((c.tc : Thread nD τ).loc main_arg18) :=
  (keepC _ (by decide)).trans (argB18 m c)
theorem argD18 : after (ops (F := F)) (launchContents m c) (Proc.devRef .tc main_arg18) = m ((c.tc : Thread nD τ).loc main_arg18) := by
  rw [ops_eq, after_append, after_append, after_append]
  exact (keepD _ (by decide)).trans (argC18 m c)
theorem argA19 : after opsA (launchContents m c) (Proc.devRef .tc main_arg19) = m ((c.tc : Thread nD τ).loc main_arg19) :=
  (keepA _ (by decide)).trans rfl
theorem argB19 : after opsB (after opsA (launchContents m c)) (Proc.devRef .tc main_arg19) = m ((c.tc : Thread nD τ).loc main_arg19) :=
  (keepB _ (by decide)).trans (argA19 m c)
theorem argC19 : after opsC (after opsB (after opsA (launchContents m c))) (Proc.devRef .tc main_arg19) = m ((c.tc : Thread nD τ).loc main_arg19) :=
  (keepC _ (by decide)).trans (argB19 m c)
theorem argD19 : after (ops (F := F)) (launchContents m c) (Proc.devRef .tc main_arg19) = m ((c.tc : Thread nD τ).loc main_arg19) := by
  rw [ops_eq, after_append, after_append, after_append]
  exact (keepD _ (by decide)).trans (argC19 m c)
theorem argA20 : after opsA (launchContents m c) (Proc.devRef .tc main_arg20) = m ((c.tc : Thread nD τ).loc main_arg20) :=
  (keepA _ (by decide)).trans rfl
theorem argB20 : after opsB (after opsA (launchContents m c)) (Proc.devRef .tc main_arg20) = m ((c.tc : Thread nD τ).loc main_arg20) :=
  (keepB _ (by decide)).trans (argA20 m c)
theorem argC20 : after opsC (after opsB (after opsA (launchContents m c))) (Proc.devRef .tc main_arg20) = m ((c.tc : Thread nD τ).loc main_arg20) :=
  (keepC _ (by decide)).trans (argB20 m c)
theorem argD20 : after (ops (F := F)) (launchContents m c) (Proc.devRef .tc main_arg20) = m ((c.tc : Thread nD τ).loc main_arg20) := by
  rw [ops_eq, after_append, after_append, after_append]
  exact (keepD _ (by decide)).trans (argC20 m c)
theorem argA21 : after opsA (launchContents m c) (Proc.devRef .tc main_arg21) = m ((c.tc : Thread nD τ).loc main_arg21) :=
  (keepA _ (by decide)).trans rfl
theorem argB21 : after opsB (after opsA (launchContents m c)) (Proc.devRef .tc main_arg21) = m ((c.tc : Thread nD τ).loc main_arg21) :=
  (keepB _ (by decide)).trans (argA21 m c)
theorem argC21 : after opsC (after opsB (after opsA (launchContents m c))) (Proc.devRef .tc main_arg21) = m ((c.tc : Thread nD τ).loc main_arg21) :=
  (keepC _ (by decide)).trans (argB21 m c)
theorem argD21 : after (ops (F := F)) (launchContents m c) (Proc.devRef .tc main_arg21) = m ((c.tc : Thread nD τ).loc main_arg21) := by
  rw [ops_eq, after_append, after_append, after_append]
  exact (keepD _ (by decide)).trans (argC21 m c)
theorem argA22 : after opsA (launchContents m c) (Proc.devRef .tc main_arg22) = m ((c.tc : Thread nD τ).loc main_arg22) :=
  (keepA _ (by decide)).trans rfl
theorem argB22 : after opsB (after opsA (launchContents m c)) (Proc.devRef .tc main_arg22) = m ((c.tc : Thread nD τ).loc main_arg22) :=
  (keepB _ (by decide)).trans (argA22 m c)
theorem argC22 : after opsC (after opsB (after opsA (launchContents m c))) (Proc.devRef .tc main_arg22) = m ((c.tc : Thread nD τ).loc main_arg22) :=
  (keepC _ (by decide)).trans (argB22 m c)
theorem argD22 : after (ops (F := F)) (launchContents m c) (Proc.devRef .tc main_arg22) = m ((c.tc : Thread nD τ).loc main_arg22) := by
  rw [ops_eq, after_append, after_append, after_append]
  exact (keepD _ (by decide)).trans (argC22 m c)
theorem argA23 : after opsA (launchContents m c) (Proc.devRef .tc main_arg23) = m ((c.tc : Thread nD τ).loc main_arg23) :=
  (keepA _ (by decide)).trans rfl
theorem argB23 : after opsB (after opsA (launchContents m c)) (Proc.devRef .tc main_arg23) = m ((c.tc : Thread nD τ).loc main_arg23) :=
  (keepB _ (by decide)).trans (argA23 m c)
theorem argC23 : after opsC (after opsB (after opsA (launchContents m c))) (Proc.devRef .tc main_arg23) = m ((c.tc : Thread nD τ).loc main_arg23) :=
  (keepC _ (by decide)).trans (argB23 m c)
theorem argD23 : after (ops (F := F)) (launchContents m c) (Proc.devRef .tc main_arg23) = m ((c.tc : Thread nD τ).loc main_arg23) := by
  rw [ops_eq, after_append, after_append, after_append]
  exact (keepD _ (by decide)).trans (argC23 m c)
theorem argA24 : after opsA (launchContents m c) (Proc.devRef .tc main_arg24) = m ((c.tc : Thread nD τ).loc main_arg24) :=
  (keepA _ (by decide)).trans rfl
theorem argB24 : after opsB (after opsA (launchContents m c)) (Proc.devRef .tc main_arg24) = m ((c.tc : Thread nD τ).loc main_arg24) :=
  (keepB _ (by decide)).trans (argA24 m c)
theorem argC24 : after opsC (after opsB (after opsA (launchContents m c))) (Proc.devRef .tc main_arg24) = m ((c.tc : Thread nD τ).loc main_arg24) :=
  (keepC _ (by decide)).trans (argB24 m c)
theorem argD24 : after (ops (F := F)) (launchContents m c) (Proc.devRef .tc main_arg24) = m ((c.tc : Thread nD τ).loc main_arg24) := by
  rw [ops_eq, after_append, after_append, after_append]
  exact (keepD _ (by decide)).trans (argC24 m c)
theorem argA25 : after opsA (launchContents m c) (Proc.devRef .tc main_arg25) = m ((c.tc : Thread nD τ).loc main_arg25) :=
  (keepA _ (by decide)).trans rfl
theorem argB25 : after opsB (after opsA (launchContents m c)) (Proc.devRef .tc main_arg25) = m ((c.tc : Thread nD τ).loc main_arg25) :=
  (keepB _ (by decide)).trans (argA25 m c)
theorem argC25 : after opsC (after opsB (after opsA (launchContents m c))) (Proc.devRef .tc main_arg25) = m ((c.tc : Thread nD τ).loc main_arg25) :=
  (keepC _ (by decide)).trans (argB25 m c)
theorem argD25 : after (ops (F := F)) (launchContents m c) (Proc.devRef .tc main_arg25) = m ((c.tc : Thread nD τ).loc main_arg25) := by
  rw [ops_eq, after_append, after_append, after_append]
  exact (keepD _ (by decide)).trans (argC25 m c)

/-- After the first stretch: the features with the positional term. -/
theorem stageA : after opsA (launchContents m c) (Proc.devRef .tc main_v4) = val_main_v4 (F := F) (m ((c.tc : Thread nD τ).loc main_arg0)) (m ((c.tc : Thread nD τ).loc main_arg5)) :=
  readA _ _ _ rfl rfl

/-- After the second stretch: the first layer's output. -/
theorem stageB : after opsB (after opsA (launchContents m c)) (Proc.devRef .tc main_v61)
    = val_main_v61 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  readB _ _ _ _ _ _ _ _ _ _ _ _ _ _ _ _ (stageA m c) (argA1 m c) (argA2 m c) (argA3 m c) (argA4 m c) (argA6 m c) (argA7 m c) (argA8 m c) (argA9 m c) (argA10 m c) (argA11 m c) (argA12 m c) (argA13 m c) (argA14 m c)

/-- After the third stretch: the second layer's output. -/
theorem stageC : after opsC (after opsB (after opsA (launchContents m c))) (Proc.devRef .tc main_v118)
    = val_main_v118 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) :=
  readC _ _ _ _ _ _ _ _ _ _ _ _ _ _ _ _ _ _ _ _ _ _ _ _ _ (stageB m c) (argB1 m c) (argB2 m c) (argB3 m c) (argB4 m c) (argB15 m c) (argB16 m c) (argB17 m c) (argB18 m c) (argB19 m c) (argB20 m c) (argB21 m c) (argB22 m c) (argB23 m c)

/-- After all four stretches: the first result. -/
theorem final0 : after (ops (F := F)) (launchContents m c) (Proc.devRef .tc main_v123)
    = val_main_v123 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  rw [ops_eq, after_append, after_append, after_append]
  exact readD0 _ _ _ _ _ _ _ _ _ _ _ _ _ _ _ _ _ _ _ _ _ _ _ _ _ _ _ (stageC m c) (argC24 m c) (argC25 m c)

/-- After all four stretches: the second result. -/
theorem final1 : after (ops (F := F)) (launchContents m c) (Proc.devRef .tc main_v128)
    = val_main_v128 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) := by
  rw [ops_eq, after_append, after_append, after_append]
  exact readD1 _ _ _ _ _ _ _ _ _ _ _ _ _ _ _ _ _ _ _ _ _ _ _ _ _ (stageC m c)

/-- Every weakly fair execution of the reference's @main terminates, nothing faulting, with the two results at the stage
    functions of the arguments and the arguments unchanged. -/
theorem run : θ_run defs (onTc (τ := τ) (main (F := F))) ⟨m, fun _ => 0, ρ⟩ fun r => ∀ c : Dev nD,
      r.2.mem ((c.tc : Thread nD τ).loc main_v123) = val_main_v123 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_v128) = val_main_v128 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨(h c main_v123).trans (final0 m c), (h c main_v128).trans (final1 m c),
      (h c main_arg0).trans (argD0 m c),
      (h c main_arg1).trans (argD1 m c),
      (h c main_arg2).trans (argD2 m c),
      (h c main_arg3).trans (argD3 m c),
      (h c main_arg4).trans (argD4 m c),
      (h c main_arg5).trans (argD5 m c),
      (h c main_arg6).trans (argD6 m c),
      (h c main_arg7).trans (argD7 m c),
      (h c main_arg8).trans (argD8 m c),
      (h c main_arg9).trans (argD9 m c),
      (h c main_arg10).trans (argD10 m c),
      (h c main_arg11).trans (argD11 m c),
      (h c main_arg12).trans (argD12 m c),
      (h c main_arg13).trans (argD13 m c),
      (h c main_arg14).trans (argD14 m c),
      (h c main_arg15).trans (argD15 m c),
      (h c main_arg16).trans (argD16 m c),
      (h c main_arg17).trans (argD17 m c),
      (h c main_arg18).trans (argD18 m c),
      (h c main_arg19).trans (argD19 m c),
      (h c main_arg20).trans (argD20 m c),
      (h c main_arg21).trans (argD21 m c),
      (h c main_arg22).trans (argD22 m c),
      (h c main_arg23).trans (argD23 m c),
      (h c main_arg24).trans (argD24 m c),
      (h c main_arg25).trans (argD25 m c)⟩)
    (run_seq scopedRefs_eq scopedSems_eq defs main (fun _ => ops) main_eq (fun _ => ops_sub) m ρ)

end Cert.ReferenceIdeal.RefRun

end
-- ==== Proof.LibGatherScatter.lean ====
/-
  Gathers of rows and of entries by an array of start indices, the scatter-add that accumulates rows or entries at
  such indices, and two facts about sums of extended reals.

  A row gather of a matrix x : [N, C] at start indices idx : [R, 1] has result row e equal to the row of x whose number
  is idx[e, 0] read as a signed integer and clamped into [0, N − 1]; a vector gather reads one entry the same way.
  A scatter of updates : [R, C] into an operand [N, C] at the same kind of indices sends update element (e, f) to operand
  element (n, g) exactly when idx[e, 0], read signed and NOT clamped, is n, and f = g; a start index outside [0, N − 1]
  sends its update nowhere.  Multiplication by a non-negative real distributes over a finite sum of extended reals, and
  a sum of ones over a finite set is the number of its elements.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Lib.GatherScatter

open Idealize.ShloMosaic Idealize.ShloMosaic.ValueIdx

/-! ## Row gather: x[idx] of a matrix -/

section Gather
variable {α : Type}

/-- The dimension numbers of a row gather: operand [N, C], start indices [R, 1] (the index vector on axis 1, of length
    one, naming operand axis 0), result [R, C]; operand axis 0 is collapsed (slice size 1), operand axis 1 is the result's
    offset axis 1 (slice size C). -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather read at (e, f): entry f of the operand's row idx[e, 0], the start index read signed and clamped into
    [0, N − 1]. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowsDims N R C wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ =>
    show (rowsDims N R C wf).start (ix2 e f) idx 0 + (rowsDims N R C wf).batchCoord (ix2 e f) 0
      + (rowsDims N R C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 e f) ⟨List.idxOf (0 : Fin 2) (rowsDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N R C wf).start (ix2 e f) idx 1 + (rowsDims N R C wf).batchCoord (ix2 e f) 1
      + (rowsDims N R C wf).offCoord (ix2 e f) 1 = _
    rw [GatherDims.batchCoord_eq_zero _ _ _ List.not_mem_nil]
    have hst : (rowsDims N R C wf).start (ix2 e f) idx 1 = 0 := by
      unfold GatherDims.start
      rw [dif_neg (show (1 : Fin 2) ∉ (rowsDims N R C wf).startIndexMap from
        (by decide : (1 : Fin 2) ∉ ([0] : List (Fin 2))))]
    rw [hst]
    simp only [Nat.add_zero, Nat.zero_add]
    rfl

/-! ## Vector gather: x[idx] of a flat array at a column of start indices -/

/-- The dimension numbers of a vector gather: operand [N], start indices [R, 1] (the index vector on axis 1, of length
    one), result [R]; the operand's one axis is collapsed. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The vector gather read at e: the operand's entry idx[e, 0], the start index read signed and clamped into
    [0, N − 1]. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecDims N R wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecDims N R wf).start (ix1 e) idx 0 + (vecDims N R wf).batchCoord (ix1 e) 0
    + (vecDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 e) ⟨List.idxOf (0 : Fin 1) (vecDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Where a scatter's update lands -/

section Scatter

/-- An update element lands at operand element i exactly when, on every operand axis, the window's start (read signed,
    not clamped) plus the window coordinate is i's coordinate; a sum outside the operand's extent is no coordinate, so the
    update is then dropped. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      intro a
      have h1 := congrArg Fin.val (congrFun (Option.some.inj h) a)
      simp only at h1
      have h2 := hh a
      omega
    · exact absurd h (by simp)
  · intro h
    have hh : ∀ a, 0 ≤ d.start j idx a + (d.window j a : Int) ∧ d.start j idx a + (d.window j a : Int) < s.size a := by
      intro a
      have h1 := h a
      have h2 := (i a).isLt
      omega
    rw [dif_pos hh]
    congr 1
    funext a
    refine Fin.ext ?_
    have h1 := h a
    simp only
    omega

/-- The dimension numbers of a row scatter: operand [N, C], scatter indices [R, 1] (the index vector on axis 1, of length
    one, naming operand axis 0), updates [R, C]; the updates' axis 1 is the window axis and goes to operand axis 1, operand
    axis 0 is an inserted window axis. -/
abbrev rowsScatter (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Update element (e, f) of a row scatter lands at operand element (n, g) exactly when the scatter index idx[e, 0], read
    signed, is n, and the columns agree. -/
theorem rows_resultIdx?_eq_some_iff {N R C w : Nat}
    (wf : ScatterDims.WF ⟨2, ![N, C]⟩ ⟨2, ![R, 1]⟩ ⟨2, ![R, C]⟩ [1] [0] [0] 1)
    (idx : IVec ⟨2, ![R, 1]⟩ w) (e : Fin R) (f : Fin C) (n : Fin N) (g : Fin C) :
    (rowsScatter N R C wf).resultIdx? (ix2 e f) idx = some (ix2 n g)
      ↔ (idx (ix2 e (0 : Fin 1))).toInt = (n.val : Int) ∧ f = g := by
  have hs0 : (rowsScatter N R C wf).start (ix2 e f) idx 0 = (idx (ix2 e (0 : Fin 1))).toInt := by
    unfold ScatterDims.start
    rw [dif_pos (show (0 : Fin 2) ∈ (rowsScatter N R C wf).scatterDimsToOperandDims from List.mem_singleton.mpr rfl)]
    have hsi : (rowsScatter N R C wf).siIdx (ix2 e f)
        ⟨List.idxOf (0 : Fin 2) (rowsScatter N R C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowsScatter N R C wf).start (ix2 e f) idx 1 = 0 := by
    unfold ScatterDims.start
    rw [dif_neg (show (1 : Fin 2) ∉ (rowsScatter N R C wf).scatterDimsToOperandDims from
      (by decide : (1 : Fin 2) ∉ ([0] : List (Fin 2))))]
  have hw0 : (rowsScatter N R C wf).window (ix2 e f) 0 = 0 := by
    unfold ScatterDims.window
    rw [dif_neg (show (0 : Fin 2) ∉ (rowsScatter N R C wf).sKept from
      (by decide : (0 : Fin 2) ∉ (List.finRange 2).filter (· ∉ ([0] : List (Fin 2)))))]
  have hw1 : (rowsScatter N R C wf).window (ix2 e f) 1 = f.val := by
    unfold ScatterDims.window
    rw [dif_pos (show (1 : Fin 2) ∈ (rowsScatter N R C wf).sKept from
      (by decide : (1 : Fin 2) ∈ (List.finRange 2).filter (· ∉ ([0] : List (Fin 2)))))]
    rfl
  rw [resultIdx?_eq_some_iff, Fin.forall_fin_two, hs0, hs1, hw0, hw1]
  show (idx (ix2 e (0 : Fin 1))).toInt + ((0 : Nat) : Int) = (n.val : Int) ∧ (0 : Int) + (f.val : Int) = (g.val : Int) ↔ _
  constructor
  · rintro ⟨h0, h1⟩
    exact ⟨by omega, Fin.ext (by omega)⟩
  · rintro ⟨h0, rfl⟩
    exact ⟨by omega, by omega⟩

/-- The dimension numbers of a vector scatter: operand [N], scatter indices [R, 1] (the index vector on axis 1, of length
    one), updates [R]; no window axis, the operand's one axis is an inserted window axis. -/
abbrev vecScatter (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update element e of a vector scatter lands at operand element n exactly when the scatter index idx[e, 0], read signed,
    is n. -/
theorem vec_resultIdx?_eq_some_iff {N R w : Nat}
    (wf : ScatterDims.WF ⟨1, ![N]⟩ ⟨2, ![R, 1]⟩ ⟨1, ![R]⟩ [] [0] [0] 1)
    (idx : IVec ⟨2, ![R, 1]⟩ w) (e : Fin R) (n : Fin N) :
    (vecScatter N R wf).resultIdx? (ix1 e) idx = some (ix1 n)
      ↔ (idx (ix2 e (0 : Fin 1))).toInt = (n.val : Int) := by
  have hs0 : (vecScatter N R wf).start (ix1 e) idx 0 = (idx (ix2 e (0 : Fin 1))).toInt := by
    unfold ScatterDims.start
    rw [dif_pos (show (0 : Fin 1) ∈ (vecScatter N R wf).scatterDimsToOperandDims from List.mem_singleton.mpr rfl)]
    have hsi : (vecScatter N R wf).siIdx (ix1 e)
        ⟨List.idxOf (0 : Fin 1) (vecScatter N R wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N R wf).window (ix1 e) 0 = 0 := by
    unfold ScatterDims.window
    rw [dif_neg (show (0 : Fin 1) ∉ (vecScatter N R wf).sKept from
      (by decide : (0 : Fin 1) ∉ (List.finRange 1).filter (· ∉ ([0] : List (Fin 1)))))]
  rw [resultIdx?_eq_some_iff, Fin.forall_fin_one, hs0, hw0]
  show (idx (ix2 e (0 : Fin 1))).toInt + ((0 : Nat) : Int) = (n.val : Int) ↔ _
  constructor
  · intro h; omega
  · intro h; omega

end Scatter

/-! ## Sums of extended reals -/

section Sums

/-- Multiplication by a non-negative real distributes over a finite sum of extended reals (it does not for a general
    extended real factor: ⊤ + ⊥ = ⊥ while a negative factor turns it round, and 0 · ⊤ = 0). -/
theorem sum_mul_coe_of_nonneg {ι : Type*} (s : Finset ι) (a : ι → EReal) {r : ℝ} (hr : 0 ≤ r) :
    (∑ j ∈ s, a j) * (r : EReal) = ∑ j ∈ s, a j * (r : EReal) := by
  classical
  induction s using Finset.induction_on with
  | empty => simp
  | insert k s hk ih =>
    rw [Finset.sum_insert hk, Finset.sum_insert hk,
      EReal.right_distrib_of_nonneg_of_ne_top (EReal.coe_nonneg.mpr hr) (EReal.coe_ne_top r), ih]

/-- The same with the sum started at zero, the form a scatter-add into a zero array takes. -/
theorem zero_add_sum_mul_coe_of_nonneg {ι : Type*} (s : Finset ι) (a : ι → EReal) {r : ℝ} (hr : 0 ≤ r) :
    ((0 : EReal) + ∑ j ∈ s, a j) * (r : EReal) = (0 : EReal) + ∑ j ∈ s, a j * (r : EReal) := by
  rw [zero_add, zero_add, sum_mul_coe_of_nonneg s a hr]

end Sums

end Cert.Lib.GatherScatter

end
-- ==== Proof.LibScatterSum.lean ====
/-
  The accumulating scatter read at one element as a sum over the updates that land there, and the degree count.

  A scatter-add of updates : [R, C] into an operand [N, C] at scatter indices idx : [R, 1] leaves at element (n, g) the
  operand's element plus the sum, over the edges e whose index idx[e, 0] (read signed) is n, of update element (e, g):
  an update row goes to one operand row, column by column, and an index outside [0, N − 1] goes nowhere.  The vector
  form is the same without the column.  Scattering ones into zeros therefore counts, at n, the edges whose index is n:
  a natural number, whose reciprocal square root is a non-negative real as soon as the count is positive.
-/
import proofs.«133618_j24343874634033_1_alg».proof.Proof.LibGatherScatter

noncomputable section

open scoped BigOperators

namespace Cert.Lib.GatherScatter

open Idealize.ShloMosaic Idealize.ShloMosaic.ValueIdx

/-! ## A sum over a rank-1 index set -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The scatter-add at an element: a sum over the edges that land there -/

/-- Row scatter-add at (n, g): the operand's element plus the sum of update elements (e, g) over the edges e whose
    scatter index, read signed, is n. -/
theorem scatterAdd_rows_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (g : Fin C) :
    Ideal.hostScatterAdd (rowsScatter N R C wf) x idx upd (ix2 n g)
      = x (ix2 n g) + ∑ e ∈ Finset.univ.filter
          (fun e : Fin R => (idx (ix2 e (0 : Fin 1))).toInt = (n.val : Int)), upd (ix2 e g) := by
  unfold Ideal.hostScatterAdd
  congr 1
  rw [Finset.sum_filter, sum_idx2, Finset.sum_filter]
  refine Finset.sum_congr rfl fun a _ => ?_
  by_cases h : (idx (ix2 a (0 : Fin 1))).toInt = (n.val : Int)
  · rw [if_pos h, Finset.sum_eq_single g]
    · rw [if_pos ((rows_resultIdx?_eq_some_iff wf idx a g n g).mpr ⟨h, rfl⟩)]
    · intro b _ hb
      rw [if_neg (fun hh => hb ((rows_resultIdx?_eq_some_iff wf idx a b n g).mp hh).2)]
    · intro hg
      exact absurd (Finset.mem_univ g) hg
  · rw [if_neg h]
    refine Finset.sum_eq_zero fun b _ => ?_
    rw [if_neg (fun hh => h ((rows_resultIdx?_eq_some_iff wf idx a b n g).mp hh).1)]

/-- Vector scatter-add at n: the operand's element plus the sum of the update elements e over the edges e whose scatter
    index, read signed, is n. -/
theorem scatterAdd_vec_apply {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (n : Fin N) :
    Ideal.hostScatterAdd (vecScatter N R wf) x idx upd (ix1 n)
      = x (ix1 n) + ∑ e ∈ Finset.univ.filter
          (fun e : Fin R => (idx (ix2 e (0 : Fin 1))).toInt = (n.val : Int)), upd (ix1 e) := by
  unfold Ideal.hostScatterAdd
  congr 1
  rw [Finset.sum_filter, sum_idx1, Finset.sum_filter]
  refine Finset.sum_congr rfl fun a _ => ?_
  exact if_congr (vec_resultIdx?_eq_some_iff wf idx a n) rfl rfl

/-! ## The degree count and its reciprocal square root -/

/-- A sum of ones over a finite set, started at zero, is the number of the set's elements. -/
theorem zero_add_sum_one_eq_card {ι : Type*} (S : Finset ι) :
    (0 : EReal) + ∑ _j ∈ S, (1 : EReal) = ((S.card : ℝ) : EReal) := by
  classical
  rw [zero_add]
  induction S using Finset.induction_on with
  | empty => simp
  | insert k s hk ih =>
    rw [Finset.sum_insert hk, ih, Finset.card_insert_of_notMem hk, Nat.cast_add_one, EReal.coe_add, EReal.coe_one,
      add_comm]

/-- The reciprocal square root of a positive natural number k is the real 1 / √k. -/
theorem rsqrt_natCast_of_pos {k : ℕ} (hk : 1 ≤ k) :
    Ideal.rsqrt (((k : ℝ)) : EReal) = (((Real.sqrt (k : ℝ))⁻¹ : ℝ) : EReal) := by
  have hk' : (0 : ℝ) < (k : ℝ) := by exact_mod_cast hk
  rw [Ideal.rsqrt_coe, if_neg (not_lt.mpr hk'.le), if_neg hk'.ne']

/-- At zero it is +∞ (so a normaliser guarded by "degree > 0" never meets this value). -/
theorem rsqrt_natCast_zero : Ideal.rsqrt ((((0 : ℕ) : ℝ)) : EReal) = ⊤ := by
  rw [Ideal.rsqrt_coe, if_neg (by simp), if_pos (by simp)]

/-- The reciprocal square root of a positive natural number is a non-negative real. -/
theorem exists_rsqrt_natCast {k : ℕ} (hk : 1 ≤ k) :
    ∃ r : ℝ, 0 ≤ r ∧ Ideal.rsqrt (((k : ℝ)) : EReal) = (r : EReal) :=
  ⟨(Real.sqrt (k : ℝ))⁻¹, inv_nonneg.mpr (Real.sqrt_nonneg _), rsqrt_natCast_of_pos hk⟩

end Cert.Lib.GatherScatter

end
-- ==== Proof.RefRead.lean ====
/-
  The reference program read entry by entry.

  Each stage of the reference is an array computed from the argument arrays.  This module reads the stages that matter
  at one entry and identifies what is read with the entrywise description of the two programs: the features after the
  positional term is added, after the first layer and after the second layer, and the two results of the head.  A
  gather of rows reads the row named by the clamped source index; a scatter-add into zeros leaves at (n, g) zero plus
  the sum, over the edges whose destination is n, of the update's entry (e, g); a product of matrices is the sum over
  the contracted coordinate.
-/
import proofs.«133618_j24343874634033_1_alg».proof.Proof.RefReadP
import proofs.«133618_j24343874634033_1_alg».proof.Proof.Spec
import proofs.«133618_j24343874634033_1_alg».proof.Proof.LibScatterSum
import Idealize.ShloMosaic.Lib.ReduceAll

noncomputable section

open scoped BigOperators

namespace Cert.ReferenceIdeal.RefValue

open Cert.ReferenceIdeal Cert.ReferenceIdeal.Gen Cert.ReferenceIdeal.ReadP Cert.Spec Cert.Lib.GatherScatter
open Idealize.ShloMosaic Idealize.ShloMosaic.ValueIdx

/-- Two rank-1 indices agree when their coordinate does. -/
local macro "idx1_eq" : tactic => `(tactic| (funext a; match a with | ⟨0, _⟩ => rfl))
/-- Two rank-2 indices agree when their two coordinates do. -/
local macro "idx2_eq" : tactic => `(tactic| (funext a; match a with | ⟨0, _⟩ => rfl | ⟨1, _⟩ => rfl))

/-! ## The three kinds of stage, for arbitrary operands -/

/-- A product of a [50000, 128] matrix with a [128, 128] matrix at (n, j): the sum over the contracted coordinate. -/
theorem dot128_at (H : (⟨S50000x128, .f32⟩ : BufTy).Contents (Elt Ideal)) (W : (⟨S128x128, .f32⟩ : BufTy).Contents (Elt Ideal))
    (n : Fin 50000) (j : Fin 128) :
    Host.dotGeneral (F := Ideal) (φ₁ := .f32) (φ₂ := .f32) dot_S50000x128_S128x128_S50000x128_1_0_0_1_n_n none H W (ix2 n j) = mm H W n j := by
  simp only [Host.dotGeneral]
  rw [Ideal.dotGeneral_apply, ← Equiv.sum_comp (ValueIdx.contrEquiv1 dot_S50000x128_S128x128_S50000x128_1_0_0_1_n_n 128 rfl rfl).symm]
  unfold mm
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 n j)
      ((ValueIdx.contrEquiv1 dot_S50000x128_S128x128_S50000x128_1_0_0_1_n_n 128 rfl rfl).symm k) = ix2 n k :=
    funext fun a => Fin.ext (by
      match a with
      | ⟨0, _⟩ => exact lhs_main_v5_0 _ _
      | ⟨1, _⟩ => exact (lhs_main_v5_1 _ _).trans hk)
  have er : dot_S50000x128_S128x128_S50000x128_1_0_0_1_n_n.rhsIdx (ix2 n j)
      ((ValueIdx.contrEquiv1 dot_S50000x128_S128x128_S50000x128_1_0_0_1_n_n 128 rfl rfl).symm k) = ix2 k j :=
    funext fun a => Fin.ext (by
      match a with
      | ⟨0, _⟩ => exact (rhs_main_v5_0 _ _).trans hk
      | ⟨1, _⟩ => exact rhs_main_v5_1 _ _)
  rw [el, er]

/-- The same product as a matrix. -/
theorem dot128_eq (H : (⟨S50000x128, .f32⟩ : BufTy).Contents (Elt Ideal)) (W : (⟨S128x128, .f32⟩ : BufTy).Contents (Elt Ideal)) :
    Host.dotGeneral (F := Ideal) (φ₁ := .f32) (φ₂ := .f32) dot_S50000x128_S128x128_S50000x128_1_0_0_1_n_n none H W = mmMat H W := by
  funext i
  obtain ⟨a, b, rfl⟩ : ∃ a b, i = ix2 a b := ⟨i 0, i 1, eq_ix2 i⟩
  exact dot128_at H W a b

/-- A gather of rows at (e, g): entry g of the row the clamped source index of edge e names. -/
theorem gather_at (X : (⟨S50000x128, .f32⟩ : BufTy).Contents (Elt Ideal)) (idxS : (⟨S800000x1, .i32⟩ : BufTy).Contents (Elt Ideal))
    (e : Fin 800000) (g : Fin 128) :
    Host.gather gather_S50000x128_S800000x1_S800000x128_1_0_n_n_0_1_1128 X idxS (ix2 e g)
      = X (ix2 (srcRow (by decide) idxS e) g) :=
  gather_rows_apply (by decide) gather_S50000x128_S800000x1_S800000x128_1_0_n_n_0_1_1128_wf X idxS e g

/-- A scatter-add of rows into an operand that is zero at (n, g): zero plus the sum, over the edges whose destination is
    n, of the update's entry (e, g). -/
theorem scatter_at (Z : (⟨S50000x128, .f32⟩ : BufTy).Contents (Elt Ideal)) (idxD : (⟨S800000x1, .i32⟩ : BufTy).Contents (Elt Ideal))
    (U : (⟨S800000x128, .f32⟩ : BufTy).Contents (Elt Ideal)) (n : Fin 50000) (g : Fin 128) (hZ : Z (ix2 n g) = 0) :
    Host.scatterAdd (F := Ideal) (φ := .f32) scatter_S50000x128_S800000x1_S800000x128_1_0_0_1 Z idxD U (ix2 n g)
      = 0 + ∑ e ∈ dstSet idxD n, U (ix2 e g) := by
  rw [← hZ]
  exact scatterAdd_rows_apply scatter_S50000x128_S800000x1_S800000x128_1_0_0_1_wf Z idxD U n g

variable (x0 : (⟨S50000x128, .f32⟩ : BufTy).Contents (Elt Ideal)) (x1 : (⟨S2x800000, .i32⟩ : BufTy).Contents (Elt Ideal))
  (x2 : (⟨S800000, .f32⟩ : BufTy).Contents (Elt Ideal)) (x3 : (⟨S2x800000, .i32⟩ : BufTy).Contents (Elt Ideal))
  (x4 : (⟨S800000, .f32⟩ : BufTy).Contents (Elt Ideal)) (x5 : (⟨S2x64, .f32⟩ : BufTy).Contents (Elt Ideal))
  (x6 x7 x8 : (⟨S128x128, .f32⟩ : BufTy).Contents (Elt Ideal)) (x9 x10 x11 x12 : (⟨S128, .f32⟩ : BufTy).Contents (Elt Ideal))
  (x13 x14 : (⟨S50000x1, .f32⟩ : BufTy).Contents (Elt Ideal)) (x15 x16 x17 : (⟨S128x128, .f32⟩ : BufTy).Contents (Elt Ideal))
  (x18 x19 x20 x21 : (⟨S128, .f32⟩ : BufTy).Contents (Elt Ideal)) (x22 x23 : (⟨S50000x1, .f32⟩ : BufTy).Contents (Elt Ideal))
  (x24 : (⟨S128x64, .f32⟩ : BufTy).Contents (Elt Ideal)) (x25 : (⟨S64, .f32⟩ : BufTy).Contents (Elt Ideal))

/-- The features after the positional term is added. -/
abbrev h0 : Mat 50000 128 := val_main_v4 (F := Ideal) x0 x5
/-- The features after the first layer. -/
abbrev h1 : Mat 50000 128 := val_main_v61 (F := Ideal) x0 x1 x2 x3 x4 x5 x6 x7 x8 x9 x10 x11 x12 x13 x14
/-- The features after the second layer. -/
abbrev h2 : Mat 50000 128 := val_main_v118 (F := Ideal) x0 x1 x2 x3 x4 x5 x6 x7 x8 x9 x10 x11 x12 x13 x14 x15 x16 x17 x18 x19 x20 x21 x22 x23

/-! ## The features after the positional term -/

/-- The flattened positional term is read at (j / 64, j % 64): entry (n, j) of the [50000, 128] array is entry
    (n, j / 64, j % 64) of its [50000, 2, 64] form. -/
theorem h0_apply (n : Fin 50000) (j : Fin 128) :
    h0 x0 x5 (ix2 n j) = x0 (ix2 n j) + x5 (ix2 (⟨j.val / 64, by omega⟩ : Fin 2) (⟨j.val % 64, by omega⟩ : Fin 64)) := by
  have hn := n.isLt
  have hj := j.isLt
  have e0 : idx_main_v0 (idx_main_v4 (ix2 n j)) = ix2 n j := by
    funext a; refine Fin.ext ?_
    match a with
    | ⟨0, _⟩ =>
      show (((n.val * 128 + j.val) / 128 * 2 + (n.val * 128 + j.val) / 64 % 2) * 64 + (n.val * 128 + j.val) % 64) / 128 = n.val
      omega
    | ⟨1, _⟩ =>
      show (((n.val * 128 + j.val) / 128 * 2 + (n.val * 128 + j.val) / 64 % 2) * 64 + (n.val * 128 + j.val) % 64) % 128 = j.val
      omega
  have e1 : idx_main_v1 (idx_main_v2 (idx_main_v4 (ix2 n j)))
      = ix2 (⟨j.val / 64, by omega⟩ : Fin 2) (⟨j.val % 64, by omega⟩ : Fin 64) := by
    funext a; refine Fin.ext ?_
    match a with
    | ⟨0, _⟩ => show (n.val * 128 + j.val) / 64 % 2 = j.val / 64; omega
    | ⟨1, _⟩ => show (n.val * 128 + j.val) % 64 = j.val % 64; omega
  show val_main_v4 (F := Ideal) x0 x5 (ix2 n j) = _
  rw [val_main_v4_apply, val_main_v3_apply, val_main_v0_apply, val_main_v2_apply, val_main_v1_apply, e0, e1]
  rfl

/-! ## The first layer's stages at one entry -/

/-- The array the aggregate is added into is zero everywhere. -/
theorem v21_zero (i : S50000x128.Idx) : val_main_v21 (F := Ideal) i = (0 : EReal) := by
  rw [val_main_v21_apply, val_main_cst_apply]
  exact Ideal.ofBits_zero_f32

/-- The array the aggregate is added into is zero everywhere. -/
theorem v46_zero (i : S50000x128.Idx) : val_main_v46 (F := Ideal) i = (0 : EReal) := by
  rw [val_main_v46_apply, val_main_cst_3_apply]
  exact Ideal.ofBits_zero_f32

/-- The edge weights, spread along the rows, at (e, g): the weight of edge e. -/
theorem v17_at (e : Fin 800000) (g : Fin 128) : val_main_v17 (F := Ideal) x2 (ix2 e g) = x2 (ix1 e) := by
  rw [val_main_v17_apply, val_main_v7_apply]
  exact congrArg x2 (by idx1_eq)

/-- The edge weights, spread along the rows, at (e, g): the weight of edge e. -/
theorem v42_at (e : Fin 800000) (g : Fin 128) : val_main_v42 (F := Ideal) x4 (ix2 e g) = x4 (ix1 e) := by
  rw [val_main_v42_apply, val_main_v32_apply]
  exact congrArg x4 (by idx1_eq)

/-- A bias row, spread over the nodes, at (n, j): its entry j. -/
theorem v25_at (n : Fin 50000) (j : Fin 128) : val_main_v25 (F := Ideal) x9 (ix2 n j) = x9 (ix1 j) := by
  rw [val_main_v25_apply, val_main_v24_apply]
  exact congrArg x9 (by idx1_eq)

/-- A bias row, spread over the nodes, at (n, j): its entry j. -/
theorem v29_at (n : Fin 50000) (j : Fin 128) : val_main_v29 (F := Ideal) x11 (ix2 n j) = x11 (ix1 j) := by
  rw [val_main_v29_apply, val_main_v28_apply]
  exact congrArg x11 (by idx1_eq)

/-- A bias row, spread over the nodes, at (n, j): its entry j. -/
theorem v50_at (n : Fin 50000) (j : Fin 128) : val_main_v50 (F := Ideal) x10 (ix2 n j) = x10 (ix1 j) := by
  rw [val_main_v50_apply, val_main_v49_apply]
  exact congrArg x10 (by idx1_eq)

/-- A bias row, spread over the nodes, at (n, j): its entry j. -/
theorem v54_at (n : Fin 50000) (j : Fin 128) : val_main_v54 (F := Ideal) x12 (ix2 n j) = x12 (ix1 j) := by
  rw [val_main_v54_apply, val_main_v53_apply]
  exact congrArg x12 (by idx1_eq)

/-- A per-node gate, spread along the row, at (n, j): the gate of node n. -/
theorem v56_at (n : Fin 50000) (j : Fin 128) : val_main_v56 (F := Ideal) x13 (ix2 n j) = x13 (ix2 n (0 : Fin 1)) := by
  rw [val_main_v56_apply]
  exact congrArg x13 (by idx2_eq)

/-- A per-node gate, spread along the row, at (n, j): the gate of node n. -/
theorem v58_at (n : Fin 50000) (j : Fin 128) : val_main_v58 (F := Ideal) x14 (ix2 n j) = x14 (ix2 n (0 : Fin 1)) := by
  rw [val_main_v58_apply]
  exact congrArg x14 (by idx2_eq)

/-- The shared product at (n, j). -/
theorem v5_at (n : Fin 50000) (j : Fin 128) : val_main_v5 (F := Ideal) x0 x5 x8 (ix2 n j) = mm (val_main_v4 (F := Ideal) x0 x5) x8 n j := by
  unfold val_main_v5
  exact dot128_at _ _ n j

/-- A direction's product, as a matrix. -/
theorem v6_eq : val_main_v6 (F := Ideal) x0 x5 x6 = mmMat (val_main_v4 (F := Ideal) x0 x5) x6 := by
  unfold val_main_v6
  exact dot128_eq _ _

/-- A direction's product, as a matrix. -/
theorem v31_eq : val_main_v31 (F := Ideal) x0 x5 x7 = mmMat (val_main_v4 (F := Ideal) x0 x5) x7 := by
  unfold val_main_v31
  exact dot128_eq _ _

/-- The gathered rows at (e, g): entry g of the product's row that edge e starts from. -/
theorem v16_at (e : Fin 800000) (g : Fin 128) :
    val_main_v16 (F := Ideal) x0 x1 x5 x6 (ix2 e g) = mmMat (val_main_v4 (F := Ideal) x0 x5) x6 (ix2 (srcRow (by decide) (val_main_v15 (F := Ideal) x1) e) g) := by
  unfold val_main_v16
  rw [gather_at, v6_eq]

/-- The gathered rows at (e, g): entry g of the product's row that edge e starts from. -/
theorem v41_at (e : Fin 800000) (g : Fin 128) :
    val_main_v41 (F := Ideal) x0 x3 x5 x7 (ix2 e g) = mmMat (val_main_v4 (F := Ideal) x0 x5) x7 (ix2 (srcRow (by decide) (val_main_v40 (F := Ideal) x3) e) g) := by
  unfold val_main_v41
  rw [gather_at, v31_eq]

/-- The aggregate at (n, j): zero plus the sum over the edges ending at n of weight times the gathered entry. -/
theorem v23_at (n : Fin 50000) (j : Fin 128) :
    val_main_v23 (F := Ideal) x0 x1 x2 x5 x6 (ix2 n j)
      = aggr (dstSet (val_main_v22 (F := Ideal) x1)) (fun e => x2 (ix1 e)) (srcRow (by decide) (val_main_v15 (F := Ideal) x1))
          (mmMat (val_main_v4 (F := Ideal) x0 x5) x6) n j := by
  unfold val_main_v23
  refine (scatter_at _ _ _ n j (v21_zero _)).trans ?_
  unfold aggr
  refine congrArg (fun t => (0 : EReal) + t) (Finset.sum_congr rfl fun e _ => ?_)
  show val_main_v17 (F := Ideal) x2 (ix2 e j) * val_main_v16 (F := Ideal) x0 x1 x5 x6 (ix2 e j) = _
  rw [v17_at, v16_at]

/-- The aggregate at (n, j): zero plus the sum over the edges ending at n of weight times the gathered entry. -/
theorem v48_at (n : Fin 50000) (j : Fin 128) :
    val_main_v48 (F := Ideal) x0 x3 x4 x5 x7 (ix2 n j)
      = aggr (dstSet (val_main_v47 (F := Ideal) x3)) (fun e => x4 (ix1 e)) (srcRow (by decide) (val_main_v40 (F := Ideal) x3))
          (mmMat (val_main_v4 (F := Ideal) x0 x5) x7) n j := by
  unfold val_main_v48
  refine (scatter_at _ _ _ n j (v46_zero _)).trans ?_
  unfold aggr
  refine congrArg (fun t => (0 : EReal) + t) (Finset.sum_congr rfl fun e _ => ?_)
  show val_main_v42 (F := Ideal) x4 (ix2 e j) * val_main_v41 (F := Ideal) x0 x3 x5 x7 (ix2 e j) = _
  rw [v42_at, v41_at]

/-- The features after the first layer at (n, j): the layer's formula on the two aggregates of the projected rows and the
    shared product. -/
theorem h1_apply (n : Fin 50000) (j : Fin 128) :
    h1 x0 x1 x2 x3 x4 x5 x6 x7 x8 x9 x10 x11 x12 x13 x14 (ix2 n j)
      = layerAt (fun n => x13 (ix2 n 0)) (fun n => x14 (ix2 n 0)) (fun j => x9 (ix1 j)) (fun j => x10 (ix1 j))
          (fun j => x11 (ix1 j)) (fun j => x12 (ix1 j))
          (aggr (dstSet (val_main_v22 (F := Ideal) x1)) (fun e => x2 (ix1 e)) (srcRow (by decide) (val_main_v15 (F := Ideal) x1))
            (mmMat (h0 x0 x5) x6))
          (aggr (dstSet (val_main_v47 (F := Ideal) x3)) (fun e => x4 (ix1 e)) (srcRow (by decide) (val_main_v40 (F := Ideal) x3))
            (mmMat (h0 x0 x5) x7))
          (mm (h0 x0 x5) x8) n j := by
  show val_main_v61 (F := Ideal) x0 x1 x2 x3 x4 x5 x6 x7 x8 x9 x10 x11 x12 x13 x14 (ix2 n j) = _
  rw [val_main_v61_apply, val_main_v60_apply, val_main_v57_apply, val_main_v59_apply, val_main_v30_apply, val_main_v55_apply,
    val_main_v27_apply, val_main_v52_apply, val_main_v26_apply, val_main_v51_apply,
    v56_at, v58_at, v23_at, v48_at, v25_at, v50_at, v29_at, v54_at, v5_at]
  rfl

/-! ## The second layer's stages at one entry -/

/-- The array the aggregate is added into is zero everywhere. -/
theorem v78_zero (i : S50000x128.Idx) : val_main_v78 (F := Ideal) i = (0 : EReal) := by
  rw [val_main_v78_apply, val_main_cst_6_apply]
  exact Ideal.ofBits_zero_f32

/-- The array the aggregate is added into is zero everywhere. -/
theorem v103_zero (i : S50000x128.Idx) : val_main_v103 (F := Ideal) i = (0 : EReal) := by
  rw [val_main_v103_apply, val_main_cst_9_apply]
  exact Ideal.ofBits_zero_f32

/-- The edge weights, spread along the rows, at (e, g): the weight of edge e. -/
theorem v74_at (e : Fin 800000) (g : Fin 128) : val_main_v74 (F := Ideal) x2 (ix2 e g) = x2 (ix1 e) := by
  rw [val_main_v74_apply, val_main_v64_apply]
  exact congrArg x2 (by idx1_eq)

/-- The edge weights, spread along the rows, at (e, g): the weight of edge e. -/
theorem v99_at (e : Fin 800000) (g : Fin 128) : val_main_v99 (F := Ideal) x4 (ix2 e g) = x4 (ix1 e) := by
  rw [val_main_v99_apply, val_main_v89_apply]
  exact congrArg x4 (by idx1_eq)

/-- A bias row, spread over the nodes, at (n, j): its entry j. -/
theorem v82_at (n : Fin 50000) (j : Fin 128) : val_main_v82 (F := Ideal) x18 (ix2 n j) = x18 (ix1 j) := by
  rw [val_main_v82_apply, val_main_v81_apply]
  exact congrArg x18 (by idx1_eq)

/-- A bias row, spread over the nodes, at (n, j): its entry j. -/
theorem v86_at (n : Fin 50000) (j : Fin 128) : val_main_v86 (F := Ideal) x20 (ix2 n j) = x20 (ix1 j) := by
  rw [val_main_v86_apply, val_main_v85_apply]
  exact congrArg x20 (by idx1_eq)

/-- A bias row, spread over the nodes, at (n, j): its entry j. -/
theorem v107_at (n : Fin 50000) (j : Fin 128) : val_main_v107 (F := Ideal) x19 (ix2 n j) = x19 (ix1 j) := by
  rw [val_main_v107_apply, val_main_v106_apply]
  exact congrArg x19 (by idx1_eq)

/-- A bias row, spread over the nodes, at (n, j): its entry j. -/
theorem v111_at (n : Fin 50000) (j : Fin 128) : val_main_v111 (F := Ideal) x21 (ix2 n j) = x21 (ix1 j) := by
  rw [val_main_v111_apply, val_main_v110_apply]
  exact congrArg x21 (by idx1_eq)

/-- A per-node gate, spread along the row, at (n, j): the gate of node n. -/
theorem v113_at (n : Fin 50000) (j : Fin 128) : val_main_v113 (F := Ideal) x22 (ix2 n j) = x22 (ix2 n (0 : Fin 1)) := by
  rw [val_main_v113_apply]
  exact congrArg x22 (by idx2_eq)

/-- A per-node gate, spread along the row, at (n, j): the gate of node n. -/
theorem v115_at (n : Fin 50000) (j : Fin 128) : val_main_v115 (F := Ideal) x23 (ix2 n j) = x23 (ix2 n (0 : Fin 1)) := by
  rw [val_main_v115_apply]
  exact congrArg x23 (by idx2_eq)

/-- The shared product at (n, j). -/
theorem v62_at (n : Fin 50000) (j : Fin 128) : val_main_v62 (F := Ideal) x0 x1 x2 x3 x4 x5 x6 x7 x8 x9 x10 x11 x12 x13 x14 x17 (ix2 n j) = mm (val_main_v61 (F := Ideal) x0 x1 x2 x3 x4 x5 x6 x7 x8 x9 x10 x11 x12 x13 x14) x17 n j := by
  unfold val_main_v62
  exact dot128_at _ _ n j

/-- A direction's product, as a matrix. -/
theorem v63_eq : val_main_v63 (F := Ideal) x0 x1 x2 x3 x4 x5 x6 x7 x8 x9 x10 x11 x12 x13 x14 x15 = mmMat (val_main_v61 (F := Ideal) x0 x1 x2 x3 x4 x5 x6 x7 x8 x9 x10 x11 x12 x13 x14) x15 := by
  unfold val_main_v63
  exact dot128_eq _ _

/-- A direction's product, as a matrix. -/
theorem v88_eq : val_main_v88 (F := Ideal) x0 x1 x2 x3 x4 x5 x6 x7 x8 x9 x10 x11 x12 x13 x14 x16 = mmMat (val_main_v61 (F := Ideal) x0 x1 x2 x3 x4 x5 x6 x7 x8 x9 x10 x11 x12 x13 x14) x16 := by
  unfold val_main_v88
  exact dot128_eq _ _

/-- The gathered rows at (e, g): entry g of the product's row that edge e starts from. -/
theorem v73_at (e : Fin 800000) (g : Fin 128) :
    val_main_v73 (F := Ideal) x0 x1 x2 x3 x4 x5 x6 x7 x8 x9 x10 x11 x12 x13 x14 x15 (ix2 e g) = mmMat (val_main_v61 (F := Ideal) x0 x1 x2 x3 x4 x5 x6 x7 x8 x9 x10 x11 x12 x13 x14) x15 (ix2 (srcRow (by decide) (val_main_v72 (F := Ideal) x1) e) g) := by
  unfold val_main_v73
  rw [gather_at, v63_eq]

/-- The gathered rows at (e, g): entry g of the product's row that edge e starts from. -/
theorem v98_at (e : Fin 800000) (g : Fin 128) :
    val_main_v98 (F := Ideal) x0 x1 x2 x3 x4 x5 x6 x7 x8 x9 x10 x11 x12 x13 x14 x16 (ix2 e g) = mmMat (val_main_v61 (F := Ideal) x0 x1 x2 x3 x4 x5 x6 x7 x8 x9 x10 x11 x12 x13 x14) x16 (ix2 (srcRow (by decide) (val_main_v97 (F := Ideal) x3) e) g) := by
  unfold val_main_v98
  rw [gather_at, v88_eq]

/-- The aggregate at (n, j): zero plus the sum over the edges ending at n of weight times the gathered entry. -/
theorem v80_at (n : Fin 50000) (j : Fin 128) :
    val_main_v80 (F := Ideal) x0 x1 x2 x3 x4 x5 x6 x7 x8 x9 x10 x11 x12 x13 x14 x15 (ix2 n j)
      = aggr (dstSet (val_main_v79 (F := Ideal) x1)) (fun e => x2 (ix1 e)) (srcRow (by decide) (val_main_v72 (F := Ideal) x1))
          (mmMat (val_main_v61 (F := Ideal) x0 x1 x2 x3 x4 x5 x6 x7 x8 x9 x10 x11 x12 x13 x14) x15) n j := by
  unfold val_main_v80
  refine (scatter_at _ _ _ n j (v78_zero _)).trans ?_
  unfold aggr
  refine congrArg (fun t => (0 : EReal) + t) (Finset.sum_congr rfl fun e _ => ?_)
  show val_main_v74 (F := Ideal) x2 (ix2 e j) * val_main_v73 (F := Ideal) x0 x1 x2 x3 x4 x5 x6 x7 x8 x9 x10 x11 x12 x13 x14 x15 (ix2 e j) = _
  rw [v74_at, v73_at]

/-- The aggregate at (n, j): zero plus the sum over the edges ending at n of weight times the gathered entry. -/
theorem v105_at (n : Fin 50000) (j : Fin 128) :
    val_main_v105 (F := Ideal) x0 x1 x2 x3 x4 x5 x6 x7 x8 x9 x10 x11 x12 x13 x14 x16 (ix2 n j)
      = aggr (dstSet (val_main_v104 (F := Ideal) x3)) (fun e => x4 (ix1 e)) (srcRow (by decide) (val_main_v97 (F := Ideal) x3))
          (mmMat (val_main_v61 (F := Ideal) x0 x1 x2 x3 x4 x5 x6 x7 x8 x9 x10 x11 x12 x13 x14) x16) n j := by
  unfold val_main_v105
  refine (scatter_at _ _ _ n j (v103_zero _)).trans ?_
  unfold aggr
  refine congrArg (fun t => (0 : EReal) + t) (Finset.sum_congr rfl fun e _ => ?_)
  show val_main_v99 (F := Ideal) x4 (ix2 e j) * val_main_v98 (F := Ideal) x0 x1 x2 x3 x4 x5 x6 x7 x8 x9 x10 x11 x12 x13 x14 x16 (ix2 e j) = _
  rw [v99_at, v98_at]

/-- The features after the second layer at (n, j): the layer's formula on the two aggregates of the projected rows and the
    shared product. -/
theorem h2_apply (n : Fin 50000) (j : Fin 128) :
    h2 x0 x1 x2 x3 x4 x5 x6 x7 x8 x9 x10 x11 x12 x13 x14 x15 x16 x17 x18 x19 x20 x21 x22 x23 (ix2 n j)
      = layerAt (fun n => x22 (ix2 n 0)) (fun n => x23 (ix2 n 0)) (fun j => x18 (ix1 j)) (fun j => x19 (ix1 j))
          (fun j => x20 (ix1 j)) (fun j => x21 (ix1 j))
          (aggr (dstSet (val_main_v79 (F := Ideal) x1)) (fun e => x2 (ix1 e)) (srcRow (by decide) (val_main_v72 (F := Ideal) x1))
            (mmMat (h1 x0 x1 x2 x3 x4 x5 x6 x7 x8 x9 x10 x11 x12 x13 x14) x15))
          (aggr (dstSet (val_main_v104 (F := Ideal) x3)) (fun e => x4 (ix1 e)) (srcRow (by decide) (val_main_v97 (F := Ideal) x3))
            (mmMat (h1 x0 x1 x2 x3 x4 x5 x6 x7 x8 x9 x10 x11 x12 x13 x14) x16))
          (mm (h1 x0 x1 x2 x3 x4 x5 x6 x7 x8 x9 x10 x11 x12 x13 x14) x17) n j := by
  show val_main_v118 (F := Ideal) x0 x1 x2 x3 x4 x5 x6 x7 x8 x9 x10 x11 x12 x13 x14 x15 x16 x17 x18 x19 x20 x21 x22 x23 (ix2 n j) = _
  rw [val_main_v118_apply, val_main_v117_apply, val_main_v114_apply, val_main_v116_apply, val_main_v87_apply, val_main_v112_apply,
    val_main_v84_apply, val_main_v109_apply, val_main_v83_apply, val_main_v108_apply,
    v113_at, v115_at, v80_at, v105_at, v82_at, v107_at, v86_at, v111_at, v62_at]
  rfl

/-! ## The head: the rows divided by their norms -/

/-- The second result at (n, j): the feature divided by the larger of the row's Euclidean norm and the small constant. -/
theorem out1_apply (n : Fin 50000) (j : Fin 128) :
    val_main_v128 (F := Ideal) x0 x1 x2 x3 x4 x5 x6 x7 x8 x9 x10 x11 x12 x13 x14 x15 x16 x17 x18 x19 x20 x21 x22 x23 (ix2 n j)
      = rowNormAt (h2 x0 x1 x2 x3 x4 x5 x6 x7 x8 x9 x10 x11 x12 x13 x14 x15 x16 x17 x18 x19 x20 x21 x22 x23)
          (Ideal.ofBits .f32 0x2B8CBCCC#32) n j := by
  have hs : (∑ k : Fin 128, val_main_call1_v0 (F := Ideal) x0 x1 x2 x3 x4 x5 x6 x7 x8 x9 x10 x11 x12 x13 x14 x15 x16 x17 x18 x19 x20 x21 x22 x23
        (idx_main_call1_v1 (idx_main_call1_v2 (idx_main_v127 (ix2 n j))) k))
      = ∑ k : Fin 128, (h2 x0 x1 x2 x3 x4 x5 x6 x7 x8 x9 x10 x11 x12 x13 x14 x15 x16 x17 x18 x19 x20 x21 x22 x23) (ix2 n k) * (h2 x0 x1 x2 x3 x4 x5 x6 x7 x8 x9 x10 x11 x12 x13 x14 x15 x16 x17 x18 x19 x20 x21 x22 x23) (ix2 n k) :=
    Finset.sum_congr rfl fun k _ => by
      rw [show idx_main_call1_v1 (idx_main_call1_v2 (idx_main_v127 (ix2 n j))) k = ix2 n k from by idx2_eq]
      rfl
  rw [val_main_v128_apply, val_main_v127_apply, val_main_v126_apply, val_main_v124_apply, val_main_call1_v2_apply,
    val_main_call1_v1_apply, val_main_call1_cst_apply, val_main_v125_apply, val_main_cst_10_apply, hs]
  unfold rowNormAt
  rw [Ideal.ofBits_def, Ideal.ofBits_zero_f32, zero_add]
  rfl

/-! ## The head: the log-softmax of the logits -/

/-- The logits at (n, k). -/
theorem v122_at (n : Fin 50000) (k : Fin 64) :
    val_main_v122 (F := Ideal) x0 x1 x2 x3 x4 x5 x6 x7 x8 x9 x10 x11 x12 x13 x14 x15 x16 x17 x18 x19 x20 x21 x22 x23 x24 x25 (ix2 n k) = (logit (h2 x0 x1 x2 x3 x4 x5 x6 x7 x8 x9 x10 x11 x12 x13 x14 x15 x16 x17 x18 x19 x20 x21 x22 x23) x24 (fun j => x25 (ix1 j))) n k := by
  rw [val_main_v122_apply, val_main_v119_apply, val_main_v121_apply, val_main_v120_apply, Ideal.addf_def]
  unfold logit mm
  congr 1
  · refine Finset.sum_congr rfl fun k' _ => ?_
    rw [show lidx_main_v119 (ix2 n k) k' = ix2 n k' from by idx2_eq,
      show ridx_main_v119 (ix2 n k) k' = ix2 k' k from by idx2_eq]
  · exact congrArg x25 (by idx1_eq)

/-- A maximum with −∞ on the left is its right operand. -/
theorem negInf_max (y : EReal) : max negInf y = y := by
  unfold negInf
  simp [Ideal.ofBits, Ideal.ieee]

/-- Node n's index with column k put back is (n, k). -/
theorem lift64 (h : S50000x64.Reduces [1] S50000) (n : Fin 50000) (k : Fin (S50000x64.size 1)) :
    h.lift (ix1 n) k = ix2 n (⟨k.val, k.isLt⟩ : Fin 64) := by
  funext c; apply Fin.ext
  match c with
  | ⟨0, _⟩ => rfl
  | ⟨1, _⟩ => rfl

/-- The running maximum of row n of the logits, started from −∞. -/
theorem call0_v0_at (n : Fin 50000) :
    val_main_call0_v0 (F := Ideal) x0 x1 x2 x3 x4 x5 x6 x7 x8 x9 x10 x11 x12 x13 x14 x15 x16 x17 x18 x19 x20 x21 x22 x23 x24 x25 (ix1 n) = rowMax (logit (h2 x0 x1 x2 x3 x4 x5 x6 x7 x8 x9 x10 x11 x12 x13 x14 x15 x16 x17 x18 x19 x20 x21 x22 x23) x24 (fun j => x25 (ix1 j))) n := by
  have h : S50000x64.Reduces [1] S50000 := by decide
  unfold val_main_call0_v0
  rw [Host.reduce_eq_fold_single FloatOps.maximumf _ _ reducesTo_S50000x64_S50000_d1 h h_S_]
  unfold rowMax
  show (Finset.univ : Finset (Fin 64)).fold max negInf _ = _
  refine Finset.fold_congr fun k _ => ?_
  exact (congrArg (val_main_v122 (F := Ideal) x0 x1 x2 x3 x4 x5 x6 x7 x8 x9 x10 x11 x12 x13 x14 x15 x16 x17 x18 x19 x20 x21 x22 x23 x24 x25) (lift64 h n k)).trans (v122_at x0 x1 x2 x3 x4 x5 x6 x7 x8 x9 x10 x11 x12 x13 x14 x15 x16 x17 x18 x19 x20 x21 x22 x23 x24 x25 n k)

/-- The first result at (n, j): the log-softmax of row n of the logits at column j. -/
theorem out0_apply (n : Fin 50000) (j : Fin 64) :
    val_main_v123 (F := Ideal) x0 x1 x2 x3 x4 x5 x6 x7 x8 x9 x10 x11 x12 x13 x14 x15 x16 x17 x18 x19 x20 x21 x22 x23 x24 x25 (ix2 n j)
      = logSoftmaxAt (logit (h2 x0 x1 x2 x3 x4 x5 x6 x7 x8 x9 x10 x11 x12 x13 x14 x15 x16 x17 x18 x19 x20 x21 x22 x23) x24 (fun j => x25 (ix1 j))) n j := by
  have hmax : ∀ k : Fin 64, val_main_call0_v4 (F := Ideal) x0 x1 x2 x3 x4 x5 x6 x7 x8 x9 x10 x11 x12 x13 x14 x15 x16 x17 x18 x19 x20 x21 x22 x23 x24 x25 (ix2 n k) = rowMax (logit (h2 x0 x1 x2 x3 x4 x5 x6 x7 x8 x9 x10 x11 x12 x13 x14 x15 x16 x17 x18 x19 x20 x21 x22 x23) x24 (fun j => x25 (ix1 j))) n := by
    intro k
    rw [val_main_call0_v4_apply, val_main_call0_v3_apply, val_main_call0_v2_apply, val_main_call0_v1_apply,
      val_main_call0_cst_0_apply,
      show idx_main_call0_v3 (idx_main_call0_v4 (ix2 n k)) = ix1 n from by idx1_eq, call0_v0_at]
    exact negInf_max _
  have h5 : ∀ k : Fin 64, val_main_call0_v5 (F := Ideal) x0 x1 x2 x3 x4 x5 x6 x7 x8 x9 x10 x11 x12 x13 x14 x15 x16 x17 x18 x19 x20 x21 x22 x23 x24 x25 (ix2 n k) = (logit (h2 x0 x1 x2 x3 x4 x5 x6 x7 x8 x9 x10 x11 x12 x13 x14 x15 x16 x17 x18 x19 x20 x21 x22 x23) x24 (fun j => x25 (ix1 j))) n k - rowMax (logit (h2 x0 x1 x2 x3 x4 x5 x6 x7 x8 x9 x10 x11 x12 x13 x14 x15 x16 x17 x18 x19 x20 x21 x22 x23) x24 (fun j => x25 (ix1 j))) n := by
    intro k
    rw [val_main_call0_v5_apply, hmax, v122_at]
    rfl
  have hs : (∑ k : Fin 64, val_main_call0_v6 (F := Ideal) x0 x1 x2 x3 x4 x5 x6 x7 x8 x9 x10 x11 x12 x13 x14 x15 x16 x17 x18 x19 x20 x21 x22 x23 x24 x25
        (idx_main_call0_v7 (idx_main_call0_v8 (idx_main_call0_v10 (ix2 n j))) k))
      = ∑ k : Fin 64, Ideal.exp ((logit (h2 x0 x1 x2 x3 x4 x5 x6 x7 x8 x9 x10 x11 x12 x13 x14 x15 x16 x17 x18 x19 x20 x21 x22 x23) x24 (fun j => x25 (ix1 j))) n k - rowMax (logit (h2 x0 x1 x2 x3 x4 x5 x6 x7 x8 x9 x10 x11 x12 x13 x14 x15 x16 x17 x18 x19 x20 x21 x22 x23) x24 (fun j => x25 (ix1 j))) n) :=
    Finset.sum_congr rfl fun k _ => by
      rw [show idx_main_call0_v7 (idx_main_call0_v8 (idx_main_call0_v10 (ix2 n j))) k = ix2 n k from by idx2_eq,
        val_main_call0_v6_apply, h5]
      rfl
  rw [val_main_v123_apply, h5, val_main_call0_v10_apply, val_main_call0_v9_apply, val_main_call0_v8_apply,
    val_main_call0_v7_apply, val_main_call0_cst_1_apply, hs]
  unfold logSoftmaxAt
  rw [Ideal.ofBits_def, Ideal.ofBits_zero_f32, zero_add]
  rfl

end Cert.ReferenceIdeal.RefValue

end
-- ==== Proof.Aggr.lean ====
/-
  One aggregation read at an entry.  Gather the rows of X at the edges' sources, scale row e by the weight of edge e,
  scatter-add the scaled rows at the edges' destinations into an array of zeros: entry (n, g) of the result is zero plus
  the sum, over the edges whose destination is n, of the edge's weight times entry g of the row of X the edge starts
  from (the source index clamped into range, as a gather clamps it; a destination out of range lands nowhere).
-/
import proofs.«133618_j24343874634033_1_alg».proof.Proof.Spec
import proofs.«133618_j24343874634033_1_alg».proof.Proof.LibScatterSum

noncomputable section

open scoped BigOperators

namespace Cert.Spec

open Idealize.ShloMosaic Idealize.ShloMosaic.ValueIdx Cert.Lib.GatherScatter

/-- The scatter-add of weighted gathered rows into zeros, at (n, g), is the weighted aggregate at (n, g). -/
theorem aggregate_apply {N E C : Nat} (hN : 0 < N)
    (gwf : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (zeros X : Mat N C) (wc : Mat E C) (wt : Fin E → EReal) (src dst : IVec ⟨2, ![E, 1]⟩ 32)
    (hz : ∀ i, zeros i = 0) (hwc : ∀ e g, wc (ix2 e g) = wt e) (n : Fin N) (g : Fin C) :
    Ideal.hostScatterAdd (rowsScatter N E C swf) zeros dst
        (fun i => wc i * Host.gather (rowsDims N E C gwf) X src i) (ix2 n g)
      = aggr (dstSet dst) wt (srcRow hN src) X n g := by
  rw [scatterAdd_rows_apply, hz]
  unfold aggr dstSet
  refine congrArg (fun z => (0 : EReal) + z) (Finset.sum_congr rfl fun e _ => ?_)
  show wc (ix2 e g) * Host.gather (rowsDims N E C gwf) X src (ix2 e g) = _
  rw [hwc, gather_rows_apply hN]
  rfl

end Cert.Spec

end
-- ==== Proof.KAgg.lean ====
/-
  The kernel's host terms read at an entry: an aggregation is the weighted aggregate over the edges that end at the node;
  a bias laid out as a row [1, 128] reads the bias; the features with the positional term read x[n, j] + pe[j / 64, j % 64].
-/
import proofs.«133618_j24343874634033_1_alg».proof.Proof.KHost
import proofs.«133618_j24343874634033_1_alg».proof.Proof.Aggr
import Idealize.ShloMosaic.Lib.ValueIdx
import Idealize.ShloMosaic.Lib.Pipeline.Value

noncomputable section

open scoped BigOperators

namespace Cert.KernelIdeal.HostValue

open Cert.KernelIdeal Cert.KernelIdeal.Gen Cert.Spec Idealize.ShloMosaic Idealize.ShloMosaic.ValueIdx

/-- The array the scatter accumulates into is zero everywhere. -/
theorem zerosArr_apply (i : S50000x128.Idx) : zerosArr i = 0 := by
  unfold zerosArr
  rw [broadcastInDim_apply (![] : Fin 0 → Fin S50000x128.rank) bcast_S_S50000x128 (constant (F := Ideal) S_ .f32 0x00000000#32) i
    (fun a => a.elim0) (fun a => a.elim0)]
  exact Ideal.ofBits_zero_f32

/-- The weights spread over the columns, at (e, g): the weight of edge e. -/
theorem wcolOf_apply (ew : FVec Ideal S800000 .f32) (e : Fin 800000) (g : Fin 128) :
    wcolOf ew (ix2 e g) = ew (ix1 e) := by
  unfold wcolOf
  rw [broadcastInDim_apply (![0, 1] : Fin 2 → Fin S800000x128.rank) bcast_S800000x1_S800000x128_0_1 _ (ix2 e g) (ix2 e (0 : Fin 1))
    (fun a => by
      match a with
      | ⟨0, _⟩ => rfl
      | ⟨1, _⟩ => rfl)]
  exact broadcastInDim_apply (![0] : Fin 1 → Fin S800000x1.rank) bcast_S800000_S800000x1_0 ew (ix2 e (0 : Fin 1)) (ix1 e)
    (fun a => by
      match a with
      | ⟨0, _⟩ => rfl)

/-- The scatter-add of weighted gathered rows into an array of zeros, at (n, g), for any index columns and weights. -/
theorem agg_apply (Z X : FVec Ideal S50000x128 .f32) (idxS idxD : IVec S800000x1 32) (wc : FVec Ideal S800000x128 .f32)
    (wt : Fin 800000 → EReal) (hZ : ∀ i, Z i = 0) (hwc : ∀ e g, wc (ix2 e g) = wt e) (n : Fin 50000) (g : Fin 128) :
    Host.scatterAdd (F := Ideal) (φ := .f32) scatter_S50000x128_S800000x1_S800000x128_1_0_0_1 Z idxD
        (mulf wc (Host.gather gather_S50000x128_S800000x1_S800000x128_1_0_n_n_0_1_1128 X idxS)) (ix2 n g)
      = aggr (dstSet idxD) wt (srcRow (by decide) idxS) X n g := by
  refine (Cert.Lib.GatherScatter.scatterAdd_rows_apply scatter_S50000x128_S800000x1_S800000x128_1_0_0_1_wf Z idxD
    (mulf wc (Host.gather gather_S50000x128_S800000x1_S800000x128_1_0_n_n_0_1_1128 X idxS)) n g).trans ?_
  rw [hZ]
  unfold aggr dstSet
  refine congrArg (fun z => (0 : EReal) + z) (Finset.sum_congr rfl fun e _ => ?_)
  show wc (ix2 e g) * Host.gather gather_S50000x128_S800000x1_S800000x128_1_0_n_n_0_1_1128 X idxS (ix2 e g) = _
  rw [hwc]
  exact congrArg (fun z => wt e * z)
    (Cert.Lib.GatherScatter.gather_rows_apply (by decide) gather_S50000x128_S800000x1_S800000x128_1_0_n_n_0_1_1128_wf X idxS e g)

/-- One aggregation at (n, g): zero plus the sum over the edges ending at n of weight times the source row's entry g. -/
theorem aggFrom_apply (r0 r1 : IVec S800000 32) (ew : FVec Ideal S800000 .f32) (X : FVec Ideal S50000x128 .f32)
    (n : Fin 50000) (g : Fin 128) :
    aggFrom r0 r1 ew X (ix2 n g)
      = aggr (dstSet (dstIdxFrom r1)) (fun e => ew (ix1 e)) (srcRow (by decide) (srcIdxFrom r0)) X n g :=
  agg_apply zerosArr X (srcIdxFrom r0) (dstIdxFrom r1) (wcolOf ew) (fun e => ew (ix1 e)) zerosArr_apply (wcolOf_apply ew) n g

/-- A bias laid out as a row, at (0, q): the bias's entry q. -/
theorem biasRow_apply (b : FVec Ideal S128 .f32) (q : Fin 128) : biasRow b (ix2 (0 : Fin 1) q) = b (ix1 q) := by
  unfold biasRow
  exact shapeCast_apply b shapeCasts_S128_S1x128 (ix2 (0 : Fin 1) q) (ix1 q) (by
    rw [Shape.rowMajor_val_one, Shape.rowMajor_val_two]
    show q.val = 0 * 128 + q.val
    omega)

/-- The features with the positional term, at (n, j): x[n, j] + pe[j / 64, j % 64]. -/
theorem h0Arr_apply (x : FVec Ideal S50000x128 .f32) (pe : FVec Ideal S2x64 .f32) (n : Fin 50000) (j : Fin 128) :
    h0Arr x pe (ix2 n j) = x (ix2 n j) + pe (ix2 (⟨j.val / 64, by omega⟩ : Fin 2) (⟨j.val % 64, by omega⟩ : Fin 64)) := by
  unfold h0Arr
  show x (ix2 n j) + broadcastInDim S50000x128 ![0, 1] bcast_S1x128_S50000x128_0_1
    (broadcastInDim S1x128 ![1] bcast_S128_S1x128_1 (shapeCast S128 pe shapeCasts_S2x64_S128)) (ix2 n j) = _
  rw [broadcastInDim_apply (![0, 1] : Fin 2 → Fin S50000x128.rank) bcast_S1x128_S50000x128_0_1 _ (ix2 n j) (ix2 (0 : Fin 1) j)
    (fun a => by
      match a with
      | ⟨0, _⟩ => rfl
      | ⟨1, _⟩ => rfl),
    broadcastInDim_apply (![1] : Fin 1 → Fin S1x128.rank) bcast_S128_S1x128_1 _ (ix2 (0 : Fin 1) j) (ix1 j)
    (fun a => by
      match a with
      | ⟨0, _⟩ => rfl),
    shapeCast_apply pe shapeCasts_S2x64_S128 (ix1 j) (ix2 (⟨j.val / 64, by omega⟩ : Fin 2) (⟨j.val % 64, by omega⟩ : Fin 64)) (by
      rw [Shape.rowMajor_val_two, Shape.rowMajor_val_one]
      show j.val / 64 * 64 + j.val % 64 = j.val
      omega)]

end Cert.KernelIdeal.HostValue

end
-- ==== Proof.LibFinite.lean ====
/-
  Finiteness of extended reals.

  An extended real is FINITE when it is a real number (neither +∞ nor −∞).  Sums, differences, products, maxima and
  minima of finite extended reals are finite, and so is a finite sum of them; a finite extended real divided by a
  nonzero real is the real quotient; the reciprocal square root of a positive real is a positive real.  The maximum
  of a finite extended real with zero is a non-negative real, and a non-negative real plus a positive real is a
  positive real, so the reciprocal square root of "variance plus epsilon" is a positive real.

  For whole arrays: an array gathered from an array of finite entries has finite entries (each is one of the
  operand's); a scatter-add of finite updates into an array of finite entries has finite entries (each is an operand
  entry plus a finite sum of updates); a contraction of two arrays of finite entries has finite entries (each is a
  finite sum of products); a host sum with a finite initial value of an array of finite entries has finite entries.
  The integer index operands play no part.

  Three float patterns: 0x47435000 denotes 50000, 0x00000000 denotes 0, and 0x3727C5AC (the single-precision number
  nearest 10⁻⁵) denotes a positive real.
-/
import Mathlib
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Lib.BatchNorm

open Idealize.ShloMosaic

/-! ## The predicate -/

/-- An extended real is finite when it is (the image of) a real number. -/
def IsReal (x : EReal) : Prop := ∃ r : ℝ, x = (r : EReal)

/-- A real number, read as an extended real, is finite. -/
theorem isReal_coe (r : ℝ) : IsReal (r : EReal) := ⟨r, rfl⟩

/-- Zero is finite. -/
theorem isReal_zero : IsReal (0 : EReal) := ⟨0, rfl⟩

/-- One is finite. -/
theorem isReal_one : IsReal (1 : EReal) := ⟨1, rfl⟩

/-- Finite means: neither +∞ nor −∞. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- A finite extended real is the image of its real part. -/
theorem IsReal.eq_coe_toReal {x : EReal} (hx : IsReal x) : x = ((x.toReal : ℝ) : EReal) := by
  obtain ⟨r, rfl⟩ := hx
  rw [EReal.toReal_coe]

/-- A family of finite extended reals is the image of a family of reals. -/
theorem exists_real_family {ι : Type*} {x : ι → EReal} (hx : ∀ i, IsReal (x i)) :
    ∃ f : ι → ℝ, ∀ i, x i = ((f i : ℝ) : EReal) :=
  ⟨fun i => (x i).toReal, fun i => (hx i).eq_coe_toReal⟩

/-! ## Closure under the arithmetic operations -/

/-- The sum of two finite extended reals is finite. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The negation of a finite extended real is finite. -/
theorem IsReal.neg {x : EReal} (hx : IsReal x) : IsReal (-x) := by
  obtain ⟨a, rfl⟩ := hx
  exact ⟨-a, (EReal.coe_neg a).symm⟩

/-- The difference of two finite extended reals is finite. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The product of two finite extended reals is finite. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The maximum of two finite extended reals is finite. -/
theorem isReal_max {x y : EReal} (hx : IsReal x) (hy : IsReal y) : IsReal (max x y) := by
  rcases max_choice x y with h | h <;> rw [h] <;> assumption

/-- The minimum of two finite extended reals is finite. -/
theorem isReal_min {x y : EReal} (hx : IsReal x) (hy : IsReal y) : IsReal (min x y) := by
  rcases min_choice x y with h | h <;> rw [h] <;> assumption

/-- The maximum of a finite extended real with zero is finite. -/
theorem isReal_max_zero {x : EReal} (hx : IsReal x) : IsReal (max x 0) := isReal_max hx isReal_zero

/-- The maximum of two reals, read as extended reals, is the real maximum. -/
theorem max_coe_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The maximum of a finite extended real with zero is a non-negative real. -/
theorem exists_nonneg_max_zero {x : EReal} (hx : IsReal x) :
    ∃ v : ℝ, 0 ≤ v ∧ max x 0 = (v : EReal) := by
  obtain ⟨a, rfl⟩ := hx
  refine ⟨max a 0, le_max_right a 0, ?_⟩
  rw [← EReal.coe_zero, max_coe_coe]

/-- The maximum with zero is never below zero. -/
theorem zero_le_max_zero (x : EReal) : 0 ≤ max x 0 := le_max_right x 0

/-! ## Finite sums -/

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert k s hk ih => rw [Finset.sum_insert hk, Finset.sum_insert hk, EReal.coe_add, ih]

/-- A finite sum of finite extended reals is finite. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert k s hk ih =>
    rw [Finset.sum_insert hk]
    exact (hf k (Finset.mem_insert_self k s)).add (ih fun i hi => hf i (Finset.mem_insert_of_mem hi))

/-- A sum over a whole finite index type of finite extended reals is finite. -/
theorem isReal_sum_univ {ι : Type*} [Fintype ι] (f : ι → EReal) (hf : ∀ i, IsReal (f i)) :
    IsReal (∑ i, f i) :=
  isReal_sum Finset.univ f fun i _ => hf i

/-- The same with the sum started at zero, the form a host sum with initial value zero takes. -/
theorem isReal_zero_add_sum {ι : Type*} (s : Finset ι) (f : ι → EReal) (hf : ∀ i ∈ s, IsReal (f i)) :
    IsReal ((0 : EReal) + ∑ i ∈ s, f i) :=
  isReal_zero.add (isReal_sum s f hf)

/-! ## Division by a nonzero real -/

/-- A real divided by a nonzero real, as extended reals, is the real quotient. -/
theorem div_coe_coe (a : ℝ) {r : ℝ} (hr : r ≠ 0) :
    Ideal.div (a : EReal) (r : EReal) = ((a / r : ℝ) : EReal) := by
  rw [Ideal.div_coe hr, ← EReal.coe_mul, mul_one_div]

/-- A finite extended real divided by a nonzero real is finite. -/
theorem IsReal.div_coe {x : EReal} (hx : IsReal x) {r : ℝ} (hr : r ≠ 0) : IsReal (Ideal.div x (r : EReal)) := by
  obtain ⟨a, rfl⟩ := hx
  exact ⟨a / r, div_coe_coe a hr⟩

/-- A finite extended real divided by a nonzero finite extended real is finite. -/
theorem IsReal.div {x y : EReal} (hx : IsReal x) (hy : IsReal y) (hy0 : y ≠ 0) : IsReal (Ideal.div x y) := by
  obtain ⟨b, rfl⟩ := hy
  exact hx.div_coe (fun h => hy0 (by rw [h, EReal.coe_zero]))

/-! ## The reciprocal square root of a positive real -/

/-- The reciprocal square root of a positive real r is the real 1 / √r. -/
theorem rsqrt_coe_of_pos {r : ℝ} (hr : 0 < r) :
    Ideal.rsqrt (r : EReal) = (((Real.sqrt r)⁻¹ : ℝ) : EReal) := by
  rw [Ideal.rsqrt_coe, if_neg (not_lt.mpr hr.le), if_neg hr.ne']

/-- … and 1 / √r is positive. -/
theorem inv_sqrt_pos {r : ℝ} (hr : 0 < r) : 0 < (Real.sqrt r)⁻¹ :=
  inv_pos.mpr (Real.sqrt_pos.mpr hr)

/-- The reciprocal square root of a positive real is a positive real. -/
theorem exists_pos_rsqrt {x : EReal} (hx : ∃ r : ℝ, 0 < r ∧ x = (r : EReal)) :
    ∃ q : ℝ, 0 < q ∧ Ideal.rsqrt x = (q : EReal) := by
  obtain ⟨r, hr, rfl⟩ := hx
  exact ⟨(Real.sqrt r)⁻¹, inv_sqrt_pos hr, rsqrt_coe_of_pos hr⟩

/-- In particular it is finite. -/
theorem isReal_rsqrt_of_pos {x : EReal} (hx : ∃ r : ℝ, 0 < r ∧ x = (r : EReal)) : IsReal (Ideal.rsqrt x) := by
  obtain ⟨q, _, hq⟩ := exists_pos_rsqrt hx
  exact ⟨q, hq⟩

/-! ## Variance plus epsilon -/

/-- A non-negative real plus a positive real is a positive real. -/
theorem exists_pos_add {x e : EReal} (hx : ∃ v : ℝ, 0 ≤ v ∧ x = (v : EReal)) (he : ∃ r : ℝ, 0 < r ∧ e = (r : EReal)) :
    ∃ p : ℝ, 0 < p ∧ x + e = (p : EReal) := by
  obtain ⟨v, hv, rfl⟩ := hx
  obtain ⟨r, hr, rfl⟩ := he
  exact ⟨v + r, by linarith, (EReal.coe_add v r).symm⟩

/-- So the reciprocal square root of a non-negative real plus a positive real is a positive real. -/
theorem exists_pos_rsqrt_add {x e : EReal} (hx : ∃ v : ℝ, 0 ≤ v ∧ x = (v : EReal))
    (he : ∃ r : ℝ, 0 < r ∧ e = (r : EReal)) :
    ∃ q : ℝ, 0 < q ∧ Ideal.rsqrt (x + e) = (q : EReal) :=
  exists_pos_rsqrt (exists_pos_add hx he)

/-- For a finite x and a positive real e, the reciprocal square root of max x 0 + e is a positive real. -/
theorem exists_pos_rsqrt_max_zero_add {x e : EReal} (hx : IsReal x) (he : ∃ r : ℝ, 0 < r ∧ e = (r : EReal)) :
    ∃ q : ℝ, 0 < q ∧ Ideal.rsqrt (max x 0 + e) = (q : EReal) :=
  exists_pos_rsqrt_add (exists_nonneg_max_zero hx) he

/-! ## Three float patterns -/

/-- The single-precision pattern 0x47435000 denotes 50000. -/
theorem ofBits_50000 : Ideal.ofBits .f32 0x47435000#32 = ((50000 : ℝ) : EReal) := by
  simp [Ideal.ofBits, Ideal.ieee, -EReal.coe_mul]; norm_num

/-- The single-precision pattern 0x00000000 denotes 0. -/
theorem ofBits_zero : Ideal.ofBits .f32 0x00000000#32 = 0 := Ideal.ofBits_zero_f32

/-- The single-precision pattern 0x3727C5AC (the number nearest 10⁻⁵) denotes the real 10995116 · 2⁻⁴⁰. -/
theorem ofBits_eps_eq : Ideal.ofBits .f32 0x3727C5AC#32 = (((10995116 : ℝ) * (2 : ℝ) ^ (-40 : ℤ) : ℝ) : EReal) := by
  simp [Ideal.ofBits, Ideal.ieee, -EReal.coe_mul]

/-- … a positive real. -/
theorem ofBits_eps : ∃ e : ℝ, 0 < e ∧ Ideal.ofBits .f32 0x3727C5AC#32 = (e : EReal) :=
  ⟨(10995116 : ℝ) * (2 : ℝ) ^ (-40 : ℤ), by positivity, ofBits_eps_eq⟩

/-- 50000 is not zero. -/
theorem fifty_thousand_ne_zero : (50000 : ℝ) ≠ 0 := by norm_num

/-! ## Whole arrays -/

section Arrays

/-- Entry by entry, the host's quotient of two float arrays is the quotient of the entries. -/
theorem host_divf_apply {s : Shape} {φ : FTy} (x y : FVec Ideal s φ) (i : s.Idx) :
    Host.divf (F := Ideal) x y i = Ideal.div (x i) (y i) := rfl

/-- Entry by entry, the host's reciprocal square root of a float array is that of the entry. -/
theorem host_rsqrt_apply {s : Shape} {φ : FTy} (x : FVec Ideal s φ) (i : s.Idx) :
    Host.rsqrt (F := Ideal) x i = Ideal.rsqrt (x i) := rfl

/-- An array gathered from an array of finite entries has finite entries, whatever the start indices. -/
theorem isReal_gather {s si t : Shape} {w : Nat} (d : GatherDims s si t) (x : s.Idx → EReal) (idx : IVec si w)
    (hx : ∀ i, IsReal (x i)) (j : t.Idx) : IsReal (Host.gather d x idx j) :=
  hx _

/-- A scatter-add of finite updates into an array of finite entries has finite entries, whatever the scatter
    indices: each entry is the operand's plus a finite sum of updates. -/
theorem isReal_hostScatterAdd {s si u : Shape} {w : Nat} (d : ScatterDims s si u) (x : s.Idx → EReal) (idx : IVec si w)
    (upd : u.Idx → EReal) (hx : ∀ i, IsReal (x i)) (hu : ∀ j, IsReal (upd j)) (i : s.Idx) :
    IsReal (Ideal.hostScatterAdd d x idx upd i) :=
  (hx i).add (isReal_sum _ _ fun j _ => hu j)

/-- The same for the host operation as a program spells it. -/
theorem isReal_scatterAdd {s si u : Shape} {w : Nat} {φ : FTy} (d : ScatterDims s si u) (x : FVec Ideal s φ)
    (idx : IVec si w) (upd : FVec Ideal u φ) (hx : ∀ i, IsReal (x i)) (hu : ∀ j, IsReal (upd j)) (i : s.Idx) :
    IsReal (Host.scatterAdd (F := Ideal) d x idx upd i) :=
  isReal_hostScatterAdd d x idx upd hx hu i

/-- A contraction of two arrays of finite entries has finite entries: each is a finite sum of products. -/
theorem isReal_dotGeneral {sl sr so : Shape} {φ₁ φ₂ : FTy} (d : DotDims sl sr so) (prec : Option ContractPrecision)
    (sched : HostSchedule) (lhs : FVec Ideal sl φ₁) (rhs : FVec Ideal sr φ₂) (hl : ∀ i, IsReal (lhs i))
    (hr : ∀ i, IsReal (rhs i)) (j : so.Idx) : IsReal (FloatOps.dotGeneral d prec sched lhs rhs j) := by
  rw [Ideal.dotGeneral_apply]
  exact isReal_sum _ _ fun k _ => (hl _).mul (hr _)

/-- The same for the host operation as a program spells it. -/
theorem isReal_host_dotGeneral {sl sr so : Shape} {φ₁ φ₂ : FTy} (d : DotDims sl sr so) (prec : Option ContractPrecision)
    (lhs : FVec Ideal sl φ₁) (rhs : FVec Ideal sr φ₂) (hl : ∀ i, IsReal (lhs i))
    (hr : ∀ i, IsReal (rhs i)) (j : so.Idx) : IsReal (Host.dotGeneral (F := Ideal) d prec lhs rhs j) :=
  isReal_dotGeneral d prec .single lhs rhs hl hr j

/-- A host sum, from a finite initial value, of an array of finite entries has finite entries. -/
theorem isReal_hostReduceAdd {s t : Shape} {axes : List (Fin s.rank)} (h : s.ReducesTo axes t) (x : s.Idx → EReal)
    (init : EReal) (hx : ∀ i, IsReal (x i)) (hi : IsReal init) (j : t.Idx) :
    IsReal (Ideal.hostReduceAdd h x init j) :=
  hi.add (isReal_sum _ _ fun i _ => hx i)

/-- A matrix product into an accumulator, all three arrays of finite entries, has finite entries: each is the
    accumulator's entry plus a finite sum of products. -/
theorem isReal_matmul {sl sr so : Shape} {φ₁ φ₂ : FTy} (d : DotDims sl sr so) (prec : Option ContractPrecision)
    (lhs : FVec Ideal sl φ₁) (rhs : FVec Ideal sr φ₂) (acc : FVec Ideal so .f32) (hl : ∀ i, IsReal (lhs i))
    (hr : ∀ i, IsReal (rhs i)) (ha : ∀ j, IsReal (acc j)) (j : so.Idx) :
    IsReal (FloatOps.matmul d prec lhs rhs acc j) := by
  rw [Ideal.matmul_apply]
  exact (ha j).add (isReal_sum _ _ fun k _ => (hl _).mul (hr _))

/-- A sum along axes of an array of finite entries has finite entries. -/
theorem isReal_reduceAdd {s t : Shape} {axes : List (Fin s.rank)} (h : s.Reduces axes t) (x : s.Idx → EReal)
    (hx : ∀ i, IsReal (x i)) (j : t.Idx) : IsReal (Ideal.reduceAdd h x j) :=
  isReal_sum _ _ fun i _ => hx i

end Arrays

/-! ## One entry of a batch normalisation -/

/-- (x − μ) · c · g + b is finite when x, μ, c, g and b are. -/
theorem isReal_normalised {x mu c g b : EReal} (hx : IsReal x) (hmu : IsReal mu) (hc : IsReal c) (hg : IsReal g)
    (hb : IsReal b) : IsReal ((x - mu) * c * g + b) :=
  (((hx.sub hmu).mul hc).mul hg).add hb

end Cert.Lib.BatchNorm

end
-- ==== Proof.Law.lean ====
/-
  The one algebraic law between the two programs: aggregating the rows of a matrix product over a node's incoming
  edges is the matrix product of the aggregated rows, Σ_e w_e · (Σ_k H[s_e, k] · W[k, j]) = Σ_k (Σ_e w_e · H[s_e, k]) · W[k, j].
  It is a statement about real numbers (distributivity fails at the infinities), so it is stated for matrices and
  weights all of whose entries are finite; and a layer's output, a hyperbolic tangent of finite numbers, is finite again.
-/
import proofs.«133618_j24343874634033_1_alg».proof.Proof.Spec
import proofs.«133618_j24343874634033_1_alg».proof.Proof.LibFinite

noncomputable section

open scoped BigOperators

namespace Cert.Spec

open Idealize.ShloMosaic Idealize.ShloMosaic.ValueIdx Cert.Lib.BatchNorm

/-- A matrix product of matrices with finite entries has finite entries. -/
theorem isReal_mm {N K M : Nat} (A : Mat N K) (B : Mat K M) (hA : ∀ i, IsReal (A i)) (hB : ∀ i, IsReal (B i))
    (n : Fin N) (j : Fin M) : IsReal (mm A B n j) :=
  isReal_sum_univ _ fun k => (hA _).mul (hB _)

/-- An aggregate with finite weights of a matrix with finite entries is finite. -/
theorem isReal_aggr {N E C : Nat} (S : Fin N → Finset (Fin E)) (w : Fin E → EReal) (row : Fin E → Fin N) (X : Mat N C)
    (hw : ∀ e, IsReal (w e)) (hX : ∀ i, IsReal (X i)) (n : Fin N) (g : Fin C) : IsReal (aggr S w row X n g) :=
  isReal_zero_add_sum _ _ fun e _ => (hw e).mul (hX _)

/-- The hyperbolic tangent of a finite number is finite. -/
theorem isReal_tanh {x : EReal} (hx : IsReal x) : IsReal (Ideal.tanh x) := by
  obtain ⟨r, rfl⟩ := hx
  exact ⟨Real.tanh r, rfl⟩

/-- A layer's output is finite whatever it is the hyperbolic tangent of, provided that is finite; and it is, when
    every ingredient is. -/
theorem isReal_layerAt {N D : Nat} (cin cout : Fin N → EReal) (bmi bmo bsi bso : Fin D → EReal) (PI PO Sh : Fin N → Fin D → EReal)
    (hcin : ∀ i, IsReal (cin i)) (hcout : ∀ i, IsReal (cout i)) (hbmi : ∀ i, IsReal (bmi i)) (hbmo : ∀ i, IsReal (bmo i))
    (hbsi : ∀ i, IsReal (bsi i)) (hbso : ∀ i, IsReal (bso i)) (hPI : ∀ n j, IsReal (PI n j)) (hPO : ∀ n j, IsReal (PO n j))
    (hSh : ∀ n j, IsReal (Sh n j)) (n : Fin N) (j : Fin D) :
    IsReal (layerAt cin cout bmi bmo bsi bso PI PO Sh n j) :=
  isReal_tanh (((hcin _).mul ((((hPI n j).add (hbmi _)).add (hSh n j)).add (hbsi _))).add
    ((hcout _).mul ((((hPO n j).add (hbmo _)).add (hSh n j)).add (hbso _))))

/-- Aggregating the rows of H · W is (aggregate of the rows of H) · W, for finite entries and weights. -/
theorem aggr_mm {N E K M : Nat} (S : Fin N → Finset (Fin E)) (w : Fin E → EReal) (row : Fin E → Fin N)
    (H : Mat N K) (W : Mat K M) (hw : ∀ e, IsReal (w e)) (hH : ∀ i, IsReal (H i)) (hW : ∀ i, IsReal (W i))
    (n : Fin N) (j : Fin M) :
    aggr S w row (mmMat H W) n j = ∑ k : Fin K, aggr S w row H n k * W (ix2 k j) := by
  obtain ⟨wr, hwr⟩ := exists_real_family hw
  obtain ⟨hr, hhr⟩ := exists_real_family hH
  obtain ⟨Wr, hWr⟩ := exists_real_family hW
  unfold aggr mmMat mm
  simp only [hwr, hhr, hWr, zero_add, ← EReal.coe_mul, ← coe_sum]
  refine congrArg (fun r : ℝ => (r : EReal)) ?_
  show ∑ e ∈ S n, wr e * ∑ k : Fin K, hr (ix2 ((ix2 (row e) j : (⟨2, ![N, M]⟩ : Shape).Idx) 0) k)
      * Wr (ix2 k ((ix2 (row e) j : (⟨2, ![N, M]⟩ : Shape).Idx) 1)) = _
  simp only [Finset.mul_sum, Finset.sum_mul]
  rw [Finset.sum_comm]
  refine Finset.sum_congr rfl fun k _ => Finset.sum_congr rfl fun e _ => ?_
  show wr e * (hr (ix2 (row e) k) * Wr (ix2 k j)) = wr e * hr (ix2 (row e) k) * Wr (ix2 k j)
  ring

/-- So a matrix A whose entries are the aggregates of H's rows satisfies A · W = aggregate of the rows of H · W. -/
theorem mm_eq_aggr_mm {N E K M : Nat} (S : Fin N → Finset (Fin E)) (w : Fin E → EReal) (row : Fin E → Fin N)
    (H : Mat N K) (W : Mat K M) (A : Mat N K) (hA : ∀ n k, A (ix2 n k) = aggr S w row H n k)
    (hw : ∀ e, IsReal (w e)) (hH : ∀ i, IsReal (H i)) (hW : ∀ i, IsReal (W i)) (n : Fin N) (j : Fin M) :
    mm A W n j = aggr S w row (mmMat H W) n j := by
  rw [aggr_mm S w row H W hw hH hW]
  unfold mm
  exact Finset.sum_congr rfl fun k _ => by rw [hA]

/-- The two programs' layers agree: projecting the aggregates is aggregating the projections, in both directions. -/
theorem layer_bridge {N E D : Nat} (cin cout : Fin N → EReal) (bmi bmo bsi bso : Fin D → EReal)
    (Si So : Fin N → Finset (Fin E)) (wi wo : Fin E → EReal) (rowi rowo : Fin E → Fin N)
    (H : Mat N D) (Wi Wo Ws : Mat D D) (AI AO : Mat N D)
    (hAI : ∀ n k, AI (ix2 n k) = aggr Si wi rowi H n k) (hAO : ∀ n k, AO (ix2 n k) = aggr So wo rowo H n k)
    (hwi : ∀ e, IsReal (wi e)) (hwo : ∀ e, IsReal (wo e)) (hH : ∀ i, IsReal (H i))
    (hWi : ∀ i, IsReal (Wi i)) (hWo : ∀ i, IsReal (Wo i)) (n : Fin N) (j : Fin D) :
    layerAt cin cout bmi bmo bsi bso (mm AI Wi) (mm AO Wo) (mm H Ws) n j
      = layerAt cin cout bmi bmo bsi bso (aggr Si wi rowi (mmMat H Wi)) (aggr So wo rowo (mmMat H Wo)) (mm H Ws) n j :=
  layerAt_eq_of rfl rfl rfl rfl rfl rfl (mm_eq_aggr_mm Si wi rowi H Wi AI hAI hwi hH hWi n j)
    (mm_eq_aggr_mm So wo rowo H Wo AO hAO hwo hH hWo n j) rfl

/-- A running maximum started from a value is at least that value, so taking the maximum with it again changes nothing. -/
theorem max_fold_max_self {ι : Type*} (s : Finset ι) (b : EReal) (f : ι → EReal) :
    max b (s.fold max b f) = s.fold max b f :=
  max_eq_right (Finset.le_fold_max b |>.mpr (Or.inl le_rfl))

end Cert.Spec

end
-- ==== Proof.KEntry.lean ====
/-
  A layer of the idealized kernel at an entry, in the other program's arrangement.  The kernel aggregates the features and
  multiplies the aggregate by the weight matrix; for finite features, weights and matrices this is the aggregate of the
  products (Law.lean), so the layer's entry is tanh of the gated sum with each projected aggregate written as an aggregate of
  H · W.  A layer's output is finite when its inputs are, so the second layer meets the same hypotheses as the first.
-/
import proofs.«133618_j24343874634033_1_alg».proof.Proof.KLayerArr
import proofs.«133618_j24343874634033_1_alg».proof.Proof.KAgg
import proofs.«133618_j24343874634033_1_alg».proof.Proof.Law

noncomputable section

open scoped BigOperators

namespace Cert.KernelIdeal.KValue

open Cert.KernelIdeal Cert.KernelIdeal.Gen Cert.Spec Idealize.ShloMosaic Idealize.ShloMosaic.ValueIdx
open Cert.KernelIdeal.HostValue Cert.KernelIdeal.LayerValue Cert.Lib.BatchNorm

/-- The features with the positional term are finite when x and pe are. -/
theorem isReal_h0Arr (x : FVec Ideal S50000x128 .f32) (pe : FVec Ideal S2x64 .f32) (hx : ∀ i, IsReal (x i))
    (hpe : ∀ i, IsReal (pe i)) (i : S50000x128.Idx) : IsReal (h0Arr x pe i) := by
  obtain ⟨n, j, rfl⟩ : ∃ (n : Fin 50000) (j : Fin 128), i = ix2 n j := ⟨i 0, i 1, eq_ix2 i⟩
  rw [h0Arr_apply]
  exact (hx _).add (hpe _)

/-- An aggregation of a finite array with finite weights is finite. -/
theorem isReal_aggFrom (r0 r1 : IVec S800000 32) (ew : FVec Ideal S800000 .f32) (X : FVec Ideal S50000x128 .f32)
    (hew : ∀ i, IsReal (ew i)) (hX : ∀ i, IsReal (X i)) (i : S50000x128.Idx) : IsReal (aggFrom r0 r1 ew X i) := by
  obtain ⟨n, g, rfl⟩ : ∃ (n : Fin 50000) (g : Fin 128), i = ix2 n g := ⟨i 0, i 1, eq_ix2 i⟩
  rw [aggFrom_apply]
  exact isReal_aggr _ _ _ X (fun e => hew _) hX n g

section Layer

variable (a1 a3 : IVec S2x800000 32) (a2 a4 : FVec Ideal S800000 .f32) (H : FVec Ideal S50000x128 .f32)
  (Wi Wo Ws : FVec Ideal S128x128 .f32) (bi bo si so : FVec Ideal S128 .f32) (ci co : FVec Ideal S50000x1 .f32)

/-- The kernel's layer, as one whole-array function of the launch arrays. -/
abbrev kLayer : FVec Ideal S50000x128 .f32 :=
  layerArr H (aggFrom (edgeRow0 a1) (edgeRow1 a1) a2 H) (aggFrom (edgeRow0 a3) (edgeRow1 a3) a4 H) Wi Wo Ws
    (biasRow bi) (biasRow bo) (biasRow si) (biasRow so) ci co

/-- The kernel's layer at (n, j), with each projected aggregate written as the aggregate of the projected features. -/
theorem kLayer_entry (h2 : ∀ i, IsReal (a2 i)) (h4 : ∀ i, IsReal (a4 i)) (hH : ∀ i, IsReal (H i))
    (hWi : ∀ i, IsReal (Wi i)) (hWo : ∀ i, IsReal (Wo i)) (n : Fin 50000) (j : Fin 128) :
    kLayer a1 a3 a2 a4 H Wi Wo Ws bi bo si so ci co (ix2 n j)
      = layerAt (fun n => ci (ix2 n (0 : Fin 1))) (fun n => co (ix2 n (0 : Fin 1)))
          (fun q => bi (ix1 q)) (fun q => bo (ix1 q)) (fun q => si (ix1 q)) (fun q => so (ix1 q))
          (aggr (dstSet (dstIdxFrom (edgeRow1 a1))) (fun e => a2 (ix1 e)) (srcRow (by decide) (srcIdxFrom (edgeRow0 a1)))
            (mmMat H Wi))
          (aggr (dstSet (dstIdxFrom (edgeRow1 a3))) (fun e => a4 (ix1 e)) (srcRow (by decide) (srcIdxFrom (edgeRow0 a3)))
            (mmMat H Wo))
          (mm H Ws) n j := by
  show layerAt (fun n => ci (ix2 n (0 : Fin 1))) (fun n => co (ix2 n (0 : Fin 1)))
    (fun q => biasRow bi (ix2 (0 : Fin 1) q)) (fun q => biasRow bo (ix2 (0 : Fin 1) q))
    (fun q => biasRow si (ix2 (0 : Fin 1) q)) (fun q => biasRow so (ix2 (0 : Fin 1) q))
    (mm (aggFrom (edgeRow0 a1) (edgeRow1 a1) a2 H) Wi) (mm (aggFrom (edgeRow0 a3) (edgeRow1 a3) a4 H) Wo) (mm H Ws) n j = _
  simp only [biasRow_apply]
  exact layer_bridge _ _ _ _ _ _ (dstSet (dstIdxFrom (edgeRow1 a1))) (dstSet (dstIdxFrom (edgeRow1 a3)))
    (fun e => a2 (ix1 e)) (fun e => a4 (ix1 e)) (srcRow (by decide) (srcIdxFrom (edgeRow0 a1)))
    (srcRow (by decide) (srcIdxFrom (edgeRow0 a3))) H Wi Wo Ws
    (aggFrom (edgeRow0 a1) (edgeRow1 a1) a2 H) (aggFrom (edgeRow0 a3) (edgeRow1 a3) a4 H)
    (fun n k => aggFrom_apply _ _ a2 H n k) (fun n k => aggFrom_apply _ _ a4 H n k)
    (fun e => h2 _) (fun e => h4 _) hH hWi hWo n j

/-- The kernel's layer has finite entries when everything it reads is finite. -/
theorem isReal_kLayer (h2 : ∀ i, IsReal (a2 i)) (h4 : ∀ i, IsReal (a4 i)) (hH : ∀ i, IsReal (H i))
    (hWi : ∀ i, IsReal (Wi i)) (hWo : ∀ i, IsReal (Wo i)) (hWs : ∀ i, IsReal (Ws i))
    (hbi : ∀ i, IsReal (bi i)) (hbo : ∀ i, IsReal (bo i)) (hsi : ∀ i, IsReal (si i)) (hso : ∀ i, IsReal (so i))
    (hci : ∀ i, IsReal (ci i)) (hco : ∀ i, IsReal (co i)) (i : S50000x128.Idx) :
    IsReal (kLayer a1 a3 a2 a4 H Wi Wo Ws bi bo si so ci co i) := by
  obtain ⟨n, j, rfl⟩ : ∃ (n : Fin 50000) (j : Fin 128), i = ix2 n j := ⟨i 0, i 1, eq_ix2 i⟩
  rw [kLayer_entry a1 a3 a2 a4 H Wi Wo Ws bi bo si so ci co h2 h4 hH hWi hWo n j]
  exact isReal_layerAt _ _ _ _ _ _ _ _ _ (fun n => hci _) (fun n => hco _) (fun q => hbi _) (fun q => hbo _)
    (fun q => hsi _) (fun q => hso _)
    (fun n j => isReal_aggr _ _ _ _ (fun e => h2 _) (fun i => isReal_mm H Wi hH hWi _ _) n j)
    (fun n j => isReal_aggr _ _ _ _ (fun e => h4 _) (fun i => isReal_mm H Wo hH hWo _ _) n j)
    (fun n j => isReal_mm H Ws hH hWs n j) n j

end Layer

end Cert.KernelIdeal.KValue

end
-- ==== Proof.Bridge.lean ====
/-
  The two idealized programs compute the same arrays.  The features with the positional term agree entry by entry
  (the reference adds the term on a [50000, 2, 64] view, the kernel on the flat rows: entry (n, j) is x[n, j] +
  pe[j / 64, j % 64] both ways).  The two index columns cut out of each edge list are the same terms in both programs.
  A layer of the reference aggregates the projected features, a layer of the kernel projects the aggregated features:
  for finite features, weights and matrices these agree (Law.lean), and a layer's output is finite again, so the two
  layers agree one after the other.  The head is one function of the second layer's output in both programs.
-/
import proofs.«133618_j24343874634033_1_alg».proof.Proof.RefRead
import proofs.«133618_j24343874634033_1_alg».proof.Proof.KEntry

noncomputable section

open scoped BigOperators

namespace Cert.Proof.Bridge

open Cert.KernelIdeal Cert.Spec Idealize.ShloMosaic Idealize.ShloMosaic.ValueIdx
open Cert.KernelIdeal.HostValue Cert.KernelIdeal.LayerValue Cert.KernelIdeal.KValue Cert.Lib.BatchNorm

variable (a0 : FVec Ideal S50000x128 .f32) (a1 : IVec S2x800000 32) (a2 : FVec Ideal S800000 .f32) (a3 : IVec S2x800000 32)
  (a4 : FVec Ideal S800000 .f32) (a5 : FVec Ideal S2x64 .f32) (a6 a7 a8 : FVec Ideal S128x128 .f32)
  (a9 a10 a11 a12 : FVec Ideal S128 .f32) (a13 a14 : FVec Ideal S50000x1 .f32) (a15 a16 a17 : FVec Ideal S128x128 .f32)
  (a18 a19 a20 a21 : FVec Ideal S128 .f32) (a22 a23 : FVec Ideal S50000x1 .f32) (a24 : FVec Ideal S128x64 .f32)
  (a25 : FVec Ideal S64 .f32)

/-! ## The index columns are the same terms -/

theorem srcIn1 : Cert.ReferenceIdeal.ReadP.val_main_v15 (F := Ideal) a1 = srcIdxFrom (edgeRow0 a1) := rfl
theorem dstIn1 : Cert.ReferenceIdeal.ReadP.val_main_v22 (F := Ideal) a1 = dstIdxFrom (edgeRow1 a1) := rfl
theorem srcOut1 : Cert.ReferenceIdeal.ReadP.val_main_v40 (F := Ideal) a3 = srcIdxFrom (edgeRow0 a3) := rfl
theorem dstOut1 : Cert.ReferenceIdeal.ReadP.val_main_v47 (F := Ideal) a3 = dstIdxFrom (edgeRow1 a3) := rfl
theorem srcIn2 : Cert.ReferenceIdeal.ReadP.val_main_v72 (F := Ideal) a1 = srcIdxFrom (edgeRow0 a1) := rfl
theorem dstIn2 : Cert.ReferenceIdeal.ReadP.val_main_v79 (F := Ideal) a1 = dstIdxFrom (edgeRow1 a1) := rfl
theorem srcOut2 : Cert.ReferenceIdeal.ReadP.val_main_v97 (F := Ideal) a3 = srcIdxFrom (edgeRow0 a3) := rfl
theorem dstOut2 : Cert.ReferenceIdeal.ReadP.val_main_v104 (F := Ideal) a3 = dstIdxFrom (edgeRow1 a3) := rfl

/-! ## The features with the positional term -/

theorem h0_eq : Cert.ReferenceIdeal.RefValue.h0 a0 a5 = h0Arr a0 a5 := funext fun i => by
  obtain ⟨n, j, rfl⟩ : ∃ (n : Fin 50000) (j : Fin 128), i = ix2 n j := ⟨i 0, i 1, eq_ix2 i⟩
  rw [Cert.ReferenceIdeal.RefValue.h0_apply, h0Arr_apply]

/-! ## The layers -/

/-- The first layer's outputs agree. -/
theorem h1_eq (r0 : ∀ i, IsReal (a0 i)) (r2 : ∀ i, IsReal (a2 i)) (r4 : ∀ i, IsReal (a4 i)) (r5 : ∀ i, IsReal (a5 i))
    (r6 : ∀ i, IsReal (a6 i)) (r7 : ∀ i, IsReal (a7 i)) :
    Cert.ReferenceIdeal.RefValue.h1 a0 a1 a2 a3 a4 a5 a6 a7 a8 a9 a10 a11 a12 a13 a14
      = kLayer a1 a3 a2 a4 (h0Arr a0 a5) a6 a7 a8 a9 a10 a11 a12 a13 a14 := funext fun i => by
  obtain ⟨n, j, rfl⟩ : ∃ (n : Fin 50000) (j : Fin 128), i = ix2 n j := ⟨i 0, i 1, eq_ix2 i⟩
  rw [Cert.ReferenceIdeal.RefValue.h1_apply, kLayer_entry a1 a3 a2 a4 (h0Arr a0 a5) a6 a7 a8 a9 a10 a11 a12 a13 a14 r2 r4
    (isReal_h0Arr a0 a5 r0 r5) r6 r7 n j, h0_eq, srcIn1, dstIn1, srcOut1, dstOut1]

/-- The first layer's output is finite. -/
theorem isReal_h1 (r0 : ∀ i, IsReal (a0 i)) (r2 : ∀ i, IsReal (a2 i)) (r4 : ∀ i, IsReal (a4 i)) (r5 : ∀ i, IsReal (a5 i))
    (r6 : ∀ i, IsReal (a6 i)) (r7 : ∀ i, IsReal (a7 i)) (r8 : ∀ i, IsReal (a8 i)) (r9 : ∀ i, IsReal (a9 i))
    (r10 : ∀ i, IsReal (a10 i)) (r11 : ∀ i, IsReal (a11 i)) (r12 : ∀ i, IsReal (a12 i)) (r13 : ∀ i, IsReal (a13 i))
    (r14 : ∀ i, IsReal (a14 i)) (i : S50000x128.Idx) :
    IsReal (kLayer a1 a3 a2 a4 (h0Arr a0 a5) a6 a7 a8 a9 a10 a11 a12 a13 a14 i) :=
  isReal_kLayer a1 a3 a2 a4 (h0Arr a0 a5) a6 a7 a8 a9 a10 a11 a12 a13 a14 r2 r4 (isReal_h0Arr a0 a5 r0 r5)
    r6 r7 r8 r9 r10 r11 r12 r13 r14 i

/-- The second layer's outputs agree. -/
theorem h2_eq (r0 : ∀ i, IsReal (a0 i)) (r2 : ∀ i, IsReal (a2 i)) (r4 : ∀ i, IsReal (a4 i)) (r5 : ∀ i, IsReal (a5 i))
    (r6 : ∀ i, IsReal (a6 i)) (r7 : ∀ i, IsReal (a7 i)) (r8 : ∀ i, IsReal (a8 i)) (r9 : ∀ i, IsReal (a9 i))
    (r10 : ∀ i, IsReal (a10 i)) (r11 : ∀ i, IsReal (a11 i)) (r12 : ∀ i, IsReal (a12 i)) (r13 : ∀ i, IsReal (a13 i))
    (r14 : ∀ i, IsReal (a14 i)) (r15 : ∀ i, IsReal (a15 i)) (r16 : ∀ i, IsReal (a16 i)) :
    Cert.ReferenceIdeal.RefValue.h2 a0 a1 a2 a3 a4 a5 a6 a7 a8 a9 a10 a11 a12 a13 a14 a15 a16 a17 a18 a19 a20 a21 a22 a23
      = kLayer a1 a3 a2 a4 (kLayer a1 a3 a2 a4 (h0Arr a0 a5) a6 a7 a8 a9 a10 a11 a12 a13 a14)
          a15 a16 a17 a18 a19 a20 a21 a22 a23 := funext fun i => by
  obtain ⟨n, j, rfl⟩ : ∃ (n : Fin 50000) (j : Fin 128), i = ix2 n j := ⟨i 0, i 1, eq_ix2 i⟩
  rw [Cert.ReferenceIdeal.RefValue.h2_apply, kLayer_entry a1 a3 a2 a4 (kLayer a1 a3 a2 a4 (h0Arr a0 a5) a6 a7 a8 a9 a10 a11 a12 a13 a14)
    a15 a16 a17 a18 a19 a20 a21 a22 a23 r2 r4
    (isReal_h1 a0 a1 a2 a3 a4 a5 a6 a7 a8 a9 a10 a11 a12 a13 a14 r0 r2 r4 r5 r6 r7 r8 r9 r10 r11 r12 r13 r14) r15 r16 n j,
    h1_eq a0 a1 a2 a3 a4 a5 a6 a7 a8 a9 a10 a11 a12 a13 a14 r0 r2 r4 r5 r6 r7, srcIn2, dstIn2, srcOut2, dstOut2]

/-! ## The head -/

/-- The last bias laid out as a row [1, 64], at (0, j): the bias's entry j. -/
theorem biasRow64_apply (j : Fin 64) :
    (shapeCast S1x64 a25 Cert.KernelIdeal.Gen.shapeCasts_S64_S1x64 : Mat 1 64) (ix2 (0 : Fin 1) j) = a25 (ix1 j) :=
  shapeCast_apply a25 Cert.KernelIdeal.Gen.shapeCasts_S64_S1x64 (ix2 (0 : Fin 1) j) (ix1 j) (by
    rw [Shape.rowMajor_val_one, Shape.rowMajor_val_two]
    show j.val = 0 * 64 + j.val
    omega)

section Results

variable (r0 : ∀ i, IsReal (a0 i)) (r2 : ∀ i, IsReal (a2 i)) (r4 : ∀ i, IsReal (a4 i)) (r5 : ∀ i, IsReal (a5 i))
    (r6 : ∀ i, IsReal (a6 i)) (r7 : ∀ i, IsReal (a7 i)) (r8 : ∀ i, IsReal (a8 i)) (r9 : ∀ i, IsReal (a9 i))
    (r10 : ∀ i, IsReal (a10 i)) (r11 : ∀ i, IsReal (a11 i)) (r12 : ∀ i, IsReal (a12 i)) (r13 : ∀ i, IsReal (a13 i))
    (r14 : ∀ i, IsReal (a14 i)) (r15 : ∀ i, IsReal (a15 i)) (r16 : ∀ i, IsReal (a16 i))

/-- The kernel's second layer output as a function of the arguments. -/
abbrev k2 : FVec Ideal S50000x128 .f32 :=
  kLayer a1 a3 a2 a4 (kLayer a1 a3 a2 a4 (h0Arr a0 a5) a6 a7 a8 a9 a10 a11 a12 a13 a14) a15 a16 a17 a18 a19 a20 a21 a22 a23

include r0 r2 r4 r5 r6 r7 r8 r9 r10 r11 r12 r13 r14 r15 r16 in
/-- The first results agree: the log-softmax of the head's logits. -/
theorem out0_eq :
    Cert.ReferenceIdeal.ReadP.val_main_v123 (F := Ideal) a0 a1 a2 a3 a4 a5 a6 a7 a8 a9 a10 a11 a12 a13 a14 a15 a16 a17 a18 a19 a20 a21 a22 a23 a24 a25
      = fun i => logSoftmaxAt (logit (k2 a0 a1 a2 a3 a4 a5 a6 a7 a8 a9 a10 a11 a12 a13 a14 a15 a16 a17 a18 a19 a20 a21 a22 a23) a24
          (fun j => (shapeCast S1x64 a25 Cert.KernelIdeal.Gen.shapeCasts_S64_S1x64 : Mat 1 64) (ix2 (0 : Fin 1) j))) (i 0) (i 1) := funext fun i => by
  obtain ⟨n, j, rfl⟩ : ∃ (n : Fin 50000) (j : Fin 64), i = ix2 n j := ⟨i 0, i 1, eq_ix2 i⟩
  rw [Cert.ReferenceIdeal.RefValue.out0_apply, h2_eq a0 a1 a2 a3 a4 a5 a6 a7 a8 a9 a10 a11 a12 a13 a14 a15 a16 a17 a18 a19 a20 a21 a22 a23 r0 r2 r4 r5 r6 r7 r8 r9 r10 r11 r12 r13 r14 r15 r16]
  simp only [biasRow64_apply]

include r0 r2 r4 r5 r6 r7 r8 r9 r10 r11 r12 r13 r14 r15 r16 in
/-- The second results agree: the rows divided by their norms. -/
theorem out1_eq :
    Cert.ReferenceIdeal.ReadP.val_main_v128 (F := Ideal) a0 a1 a2 a3 a4 a5 a6 a7 a8 a9 a10 a11 a12 a13 a14 a15 a16 a17 a18 a19 a20 a21 a22 a23
      = fun i => rowNormAt (k2 a0 a1 a2 a3 a4 a5 a6 a7 a8 a9 a10 a11 a12 a13 a14 a15 a16 a17 a18 a19 a20 a21 a22 a23) (Ideal.ofBits .f32 0x2B8CBCCC#32) (i 0) (i 1) := funext fun i => by
  obtain ⟨n, j, rfl⟩ : ∃ (n : Fin 50000) (j : Fin 128), i = ix2 n j := ⟨i 0, i 1, eq_ix2 i⟩
  rw [Cert.ReferenceIdeal.RefValue.out1_apply, h2_eq a0 a1 a2 a3 a4 a5 a6 a7 a8 a9 a10 a11 a12 a13 a14 a15 a16 a17 a18 a19 a20 a21 a22 a23 r0 r2 r4 r5 r6 r7 r8 r9 r10 r11 r12 r13 r14 r15 r16]

end Results

end Cert.Proof.Bridge

end
-- ==== Proof.PreReal.lean ====
/-
  The precondition, read back.

  The precondition is a program: for each float argument array it computes "every entry has absolute value below
  +∞" — the absolute value, a comparison with the broadcast pattern 0x7F800000 (which denotes +∞), and a reduction
  of the resulting bits by "and" from 1 over all axes — and it ands the resulting bits together, one after the other,
  each new bit on the right of the conjunction so far.  Assumed to return 1, it gives that every entry of each tested
  array is a real number: an "and" that is 1 had both operands 1; a reduction by "and" that is 1 met only 1s; and on
  the extended reals max x (−x) < +∞ holds exactly when x is neither +∞ nor −∞.

  The program is cut into a head and six parts, each ending in the call of the next.  One lemma per part reads the
  bits that part ands (over variables for the names live at its head), from the last part back to the head.
-/
import proofs.«133618_j24343874634033_1_alg».proof.Pre_finite_inputs
import proofs.«133618_j24343874634033_1_alg».proof.Proof.Gen.Pre_finite_inputs
import proofs.«133618_j24343874634033_1_alg».proof.Proof.LibFinite
import Idealize.ShloMosaic.Lib.ReduceAll
import Idealize.ShloMosaic.Lib.ValueIdx
import Idealize.ShloMosaic.PureOps.Ideal
import Idealize.ShloMosaic.PureOps.Ideal.Laws

noncomputable section

namespace Cert.PreReal

open Idealize.ShloMosaic Cert.Pre_finite_inputs Cert.Lib.BatchNorm
open ValueIdx (ix0)

/-! ## General facts -/

/-- The result shape of a reduction over all axes has one index. -/
local instance : Subsingleton S_.Idx := ⟨fun a b => funext fun d => d.elim0⟩

/-- An extended real whose absolute value max x (−x) is below +∞ is a real number. -/
theorem isReal_of_abs_lt_top (x : EReal) (h : max x (-x) < ⊤) : IsReal x := by
  induction x using EReal.rec with
  | bot => simp at h
  | coe r => exact ⟨r, rfl⟩
  | top => simp at h

/-- The single-precision pattern 0x7F800000 (sign 0, exponent all ones, fraction 0) denotes +∞. -/
theorem inf_pattern : Ideal.ofBits .f32 0x7F800000#32 = (⊤ : EReal) := by
  simp [Ideal.ofBits, Ideal.ieee]

/-- An "and" of two rank-0 bit arrays that is 1 had both operands 1. -/
theorem andi_one {x y : IVec S_ 1} (h : andi x y ix0 = 1#1) : x ix0 = 1#1 ∧ y ix0 = 1#1 :=
  IntOp.andi_eq_one.1 h

/-- A comparison "a < b" of extended reals that returns the bit 1 holds. -/
theorem lt_of_cmp_olt {a b : EReal} (h : Ideal.cmp .olt a b = 1#1) : a < b := by
  unfold Ideal.cmp at h
  by_contra hn
  simp [hn] at h

/-- The test of one array: if "all entries have absolute value below +∞" returns 1, every entry is a real number. -/
theorem real_of_all {s : Shape} {axes : List (Fin s.rank)} (x : FVec Ideal s .f32) (hred : s.ReducesTo axes S_)
    (hb : S_.BroadcastsInDim s (![] : Fin 0 → Fin s.rank)) (hS : 0 < S_.numel) (init : IVec S_ 1)
    (h : Host.reduce IntOp.andi (cmpf .olt (Host.absf x) (broadcastInDim s ![] hb (constant S_ .f32 0x7F800000#32))) init hred hS ix0
      = 1#1) (i : s.Idx) : IsReal (x i) := by
  have e := Host.reduce_andi_all _ _ hred hS ix0 h i
  have e' : Ideal.cmp .olt (max (x i) (-(x i))) (Ideal.ofBits .f32 0x7F800000#32) = 1#1 := e
  rw [inf_pattern] at e'
  exact isReal_of_abs_lt_top _ (lt_of_cmp_olt e')

/-! ## The six parts, last to first

  Each lemma takes the names live at a part's head as variables and reads what that part's bits say, given that the
  part returns 1: the conjunction carried in is 1, and each array tested wholly inside the part has real entries.  A
  test begun in one part and finished in the next is returned as the bare reduction over the variables, and closed by
  the caller, where the variables are the absolute value and the broadcast +∞. -/

variable [Facts]
open Facts

/-- Part 6 ands four more bits onto the conjunction carried in. -/
theorem part6_one (a23 : FVec Ideal S50000x1 .f32) (a24 : FVec Ideal S128x64 .f32) (a25 : FVec Ideal S64 .f32)
    (v98 : IVec S_ 1) (v101 : IVec S50000x1 1) (c39 : IVec S_ 1)
    (h : fn_part6 (F := Ideal) a23 a24 a25 v98 v101 c39 ix0 = 1#1) : v98 ix0 = 1#1 := by
  unfold fn_part6 at h
  dsimp only at h
  exact (andi_one (andi_one (andi_one (andi_one h).1).1).1).1

/-- Part 5 ands three more bits onto the conjunction carried in and calls part 6. -/
theorem part5_one (a20 a21 : FVec Ideal S128 .f32) (a22 a23 : FVec Ideal S50000x1 .f32) (a24 : FVec Ideal S128x64 .f32)
    (a25 : FVec Ideal S64 .f32) (v83 : IVec S_ 1) (v84 : FVec Ideal S128 .f32) (cst32 : FVec Ideal S_ .f32)
    (h : fn_part5 (F := Ideal) a20 a21 a22 a23 a24 a25 v83 v84 cst32 ix0 = 1#1) : v83 ix0 = 1#1 := by
  unfold fn_part5 at h
  dsimp only at h
  have h98 := part6_one _ _ _ _ _ _ h
  exact (andi_one (andi_one (andi_one h98).1).1).1

/-- Part 4 ands the two bits carried in, then the tests of arguments 16, 17 and 18, and calls part 5. -/
theorem part4_one (a16 a17 : FVec Ideal S128x128 .f32) (a18 a19 a20 a21 : FVec Ideal S128 .f32)
    (a22 a23 : FVec Ideal S50000x1 .f32) (a24 : FVec Ideal S128x64 .f32) (a25 : FVec Ideal S64 .f32) (v63 v67 : IVec S_ 1)
    (h : fn_part4 (F := Ideal) a16 a17 a18 a19 a20 a21 a22 a23 a24 a25 v63 v67 ix0 = 1#1) :
    v63 ix0 = 1#1 ∧ v67 ix0 = 1#1 ∧ ∀ i, IsReal (a16 i) := by
  unfold fn_part4 at h
  dsimp only at h
  have h83 := part5_one _ _ _ _ _ _ _ _ _ h
  have h78 := (andi_one h83).1
  have h73 := (andi_one h78).1
  obtain ⟨h68, h72⟩ := andi_one h73
  obtain ⟨h63, h67⟩ := andi_one h68
  exact ⟨h63, h67, real_of_all a16 _ _ _ _ h72⟩

/-- Part 3 finishes the test of argument 12 (its absolute value and the broadcast +∞ are carried in), tests arguments
    13, 14 and 15, and calls part 4. -/
theorem part3_one (a13 a14 : FVec Ideal S50000x1 .f32) (a15 a16 a17 : FVec Ideal S128x128 .f32)
    (a18 a19 a20 a21 : FVec Ideal S128 .f32) (a22 a23 : FVec Ideal S50000x1 .f32) (a24 : FVec Ideal S128x64 .f32)
    (a25 : FVec Ideal S64 .f32) (v48 : IVec S_ 1) (v49 v50 : FVec Ideal S128 .f32)
    (h : fn_part3 (F := Ideal) a13 a14 a15 a16 a17 a18 a19 a20 a21 a22 a23 a24 a25 v48 v49 v50 ix0 = 1#1) :
    v48 ix0 = 1#1
      ∧ Host.reduce IntOp.andi (cmpf .olt v49 v50) (constantI S_ 1 1#1) reducesTo_S128_S_d0 h_S_ ix0 = 1#1
      ∧ (∀ i, IsReal (a13 i)) ∧ (∀ i, IsReal (a14 i)) ∧ (∀ i, IsReal (a15 i)) ∧ (∀ i, IsReal (a16 i)) := by
  unfold fn_part3 at h
  dsimp only at h
  obtain ⟨h63, h67, r16⟩ := part4_one _ _ _ _ _ _ _ _ _ _ _ _ h
  obtain ⟨h58, h62⟩ := andi_one h63
  obtain ⟨h53, h57⟩ := andi_one h58
  obtain ⟨h48, h52⟩ := andi_one h53
  exact ⟨h48, h52, real_of_all a13 _ _ _ _ h57, real_of_all a14 _ _ _ _ h62, real_of_all a15 _ _ _ _ h67, r16⟩

/-- Part 2 tests arguments 9, 10 and 11, begins the test of argument 12, and calls part 3. -/
theorem part2_one (a9 a10 a11 a12 : FVec Ideal S128 .f32) (a13 a14 : FVec Ideal S50000x1 .f32)
    (a15 a16 a17 : FVec Ideal S128x128 .f32) (a18 a19 a20 a21 : FVec Ideal S128 .f32) (a22 a23 : FVec Ideal S50000x1 .f32)
    (a24 : FVec Ideal S128x64 .f32) (a25 : FVec Ideal S64 .f32) (v33 : IVec S_ 1)
    (h : fn_part2 (F := Ideal) a9 a10 a11 a12 a13 a14 a15 a16 a17 a18 a19 a20 a21 a22 a23 a24 a25 v33 ix0 = 1#1) :
    v33 ix0 = 1#1
      ∧ (∀ i, IsReal (a9 i)) ∧ (∀ i, IsReal (a10 i)) ∧ (∀ i, IsReal (a11 i)) ∧ (∀ i, IsReal (a12 i))
      ∧ (∀ i, IsReal (a13 i)) ∧ (∀ i, IsReal (a14 i)) ∧ (∀ i, IsReal (a15 i)) ∧ (∀ i, IsReal (a16 i)) := by
  unfold fn_part2 at h
  dsimp only at h
  obtain ⟨h48, h52, r13, r14, r15, r16⟩ := part3_one _ _ _ _ _ _ _ _ _ _ _ _ _ _ _ _ h
  obtain ⟨h43, h47⟩ := andi_one h48
  obtain ⟨h38, h42⟩ := andi_one h43
  obtain ⟨h33, h37⟩ := andi_one h38
  exact ⟨h33, real_of_all a9 _ _ _ _ h37, real_of_all a10 _ _ _ _ h42, real_of_all a11 _ _ _ _ h47,
    real_of_all a12 _ _ _ _ h52, r13, r14, r15, r16⟩

/-- Part 1 finishes the test of argument 5 (its comparison bits are carried in), tests arguments 6, 7 and 8, and calls
    part 2. -/
theorem part1_one (a6 a7 a8 : FVec Ideal S128x128 .f32) (a9 a10 a11 a12 : FVec Ideal S128 .f32)
    (a13 a14 : FVec Ideal S50000x1 .f32) (a15 a16 a17 : FVec Ideal S128x128 .f32) (a18 a19 a20 a21 : FVec Ideal S128 .f32)
    (a22 a23 : FVec Ideal S50000x1 .f32) (a24 : FVec Ideal S128x64 .f32) (a25 : FVec Ideal S64 .f32) (v13 : IVec S_ 1)
    (v16 : IVec S2x64 1)
    (h : fn_part1 (F := Ideal) a6 a7 a8 a9 a10 a11 a12 a13 a14 a15 a16 a17 a18 a19 a20 a21 a22 a23 a24 a25 v13 v16 ix0 = 1#1) :
    v13 ix0 = 1#1
      ∧ Host.reduce IntOp.andi v16 (constantI S_ 1 1#1) reducesTo_S2x64_S_d0_1 h_S_ ix0 = 1#1
      ∧ (∀ i, IsReal (a6 i)) ∧ (∀ i, IsReal (a7 i)) ∧ (∀ i, IsReal (a8 i))
      ∧ (∀ i, IsReal (a9 i)) ∧ (∀ i, IsReal (a10 i)) ∧ (∀ i, IsReal (a11 i)) ∧ (∀ i, IsReal (a12 i))
      ∧ (∀ i, IsReal (a13 i)) ∧ (∀ i, IsReal (a14 i)) ∧ (∀ i, IsReal (a15 i)) ∧ (∀ i, IsReal (a16 i)) := by
  unfold fn_part1 at h
  dsimp only at h
  obtain ⟨h33, r9, r10, r11, r12, r13, r14, r15, r16⟩ := part2_one _ _ _ _ _ _ _ _ _ _ _ _ _ _ _ _ _ _ h
  obtain ⟨h28, h32⟩ := andi_one h33
  obtain ⟨h23, h27⟩ := andi_one h28
  obtain ⟨h18, h22⟩ := andi_one h23
  obtain ⟨h13, h17⟩ := andi_one h18
  exact ⟨h13, h17, real_of_all a6 _ _ _ _ h22, real_of_all a7 _ _ _ _ h27, real_of_all a8 _ _ _ _ h32,
    r9, r10, r11, r12, r13, r14, r15, r16⟩

/-! ## The whole precondition -/

/-- The precondition returns 1 only if every entry of the float arguments 0, 2, 4, 5, 6, …, 16 is a real number.  (The
    arguments 17 to 25 are tested too; their bits are passed through and dropped.) -/
theorem reals_of_pre (a0 : FVec Ideal S50000x128 .f32) (a1 : IVec S2x800000 32) (a2 : FVec Ideal S800000 .f32)
    (a3 : IVec S2x800000 32) (a4 : FVec Ideal S800000 .f32) (a5 : FVec Ideal S2x64 .f32)
    (a6 a7 a8 : FVec Ideal S128x128 .f32) (a9 a10 a11 a12 : FVec Ideal S128 .f32) (a13 a14 : FVec Ideal S50000x1 .f32)
    (a15 a16 a17 : FVec Ideal S128x128 .f32) (a18 a19 a20 a21 : FVec Ideal S128 .f32) (a22 a23 : FVec Ideal S50000x1 .f32)
    (a24 : FVec Ideal S128x64 .f32) (a25 : FVec Ideal S64 .f32)
    (h : Cert.Pre_finite_inputs.fn (F := Ideal) a0 a1 a2 a3 a4 a5 a6 a7 a8 a9 a10 a11 a12 a13 a14 a15 a16 a17 a18 a19 a20 a21
      a22 a23 a24 a25 = fun _ => 1#1) :
    (∀ i, IsReal (a0 i)) ∧ (∀ i, IsReal (a2 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i)) ∧ (∀ i, IsReal (a11 i))
      ∧ (∀ i, IsReal (a12 i)) ∧ (∀ i, IsReal (a13 i)) ∧ (∀ i, IsReal (a14 i)) ∧ (∀ i, IsReal (a15 i))
      ∧ (∀ i, IsReal (a16 i)) := by
  have h0 : Cert.Pre_finite_inputs.fn (F := Ideal) a0 a1 a2 a3 a4 a5 a6 a7 a8 a9 a10 a11 a12 a13 a14 a15 a16 a17 a18 a19 a20
      a21 a22 a23 a24 a25 ix0 = 1#1 := congrFun h ix0
  unfold Cert.Pre_finite_inputs.fn at h0
  dsimp only at h0
  obtain ⟨h13, h17, r6, r7, r8, r9, r10, r11, r12, r13, r14, r15, r16⟩ :=
    part1_one _ _ _ _ _ _ _ _ _ _ _ _ _ _ _ _ _ _ _ _ _ _ h0
  obtain ⟨h8, h12⟩ := andi_one h13
  obtain ⟨h3, h7⟩ := andi_one h8
  exact ⟨real_of_all a0 _ _ _ _ h3, real_of_all a2 _ _ _ _ h7, real_of_all a4 _ _ _ _ h12, real_of_all a5 _ _ _ _ h17,
    r6, r7, r8, r9, r10, r11, r12, r13, r14, r15, r16⟩

end Cert.PreReal
-- ==== Proof.lean ====
/-
  The proof of the certificate's five claims.

  The kernel computes two graph layers and a head in three launches among stretches of host operations; the reference
  computes them as one host program.  The three frames: the two kernel programs' are the generated frame proofs; the
  reference's is its run (read by hand in four stretches, RefRun.lean) with the results dropped.  The idealization rewrote
  nothing, so it is preserved trivially.  The two idealized programs agree: the kernel's run names every buffer at the
  end (KRun.lean); the third launch's outputs are the head's two functions of the second launch's output (KDecode.lean),
  each layer launch's output is the layer's whole-array function of what it finds (KLayerPay.lean, KLayerArr.lean), and the
  host stretches are aggregations of the previous features (KHost.lean, KAgg.lean); the reference's stages read at an entry
  (RefRead.lean) are the same functions once "aggregate, then project" is exchanged for "project, then aggregate", which holds
  because every input is finite under the precondition (PreReal.lean, Law.lean, KEntry.lean, Bridge.lean).
-/
import proofs.«133618_j24343874634033_1_alg».proof.Defs
import proofs.«133618_j24343874634033_1_alg».proof.Proof.Gen.Kernel
import proofs.«133618_j24343874634033_1_alg».proof.Proof.Gen.Kernel.Skeleton
import proofs.«133618_j24343874634033_1_alg».proof.Proof.Gen.Kernel.Launch
import proofs.«133618_j24343874634033_1_alg».proof.Proof.Gen.Kernel.Points
import proofs.«133618_j24343874634033_1_alg».proof.Proof.Gen.Kernel.Frame
import proofs.«133618_j24343874634033_1_alg».proof.Proof.Gen.KernelIdeal
import proofs.«133618_j24343874634033_1_alg».proof.Proof.Gen.KernelIdeal.Skeleton
import proofs.«133618_j24343874634033_1_alg».proof.Proof.Gen.KernelIdeal.Launch
import proofs.«133618_j24343874634033_1_alg».proof.Proof.Gen.KernelIdeal.Points
import proofs.«133618_j24343874634033_1_alg».proof.Proof.Gen.KernelIdeal.Frame
import proofs.«133618_j24343874634033_1_alg».proof.Proof.Gen.ReferenceIdeal
import proofs.«133618_j24343874634033_1_alg».proof.Proof.Gen.Pre_finite_inputs
import proofs.«133618_j24343874634033_1_alg».proof.Proof.KRun
import proofs.«133618_j24343874634033_1_alg».proof.Proof.KValue
import proofs.«133618_j24343874634033_1_alg».proof.Proof.RefRun
import proofs.«133618_j24343874634033_1_alg».proof.Proof.Bridge
import proofs.«133618_j24343874634033_1_alg».proof.Proof.PreReal
import Idealize.ShloMosaic.Adequacy
import Idealize.ShloMosaic.Init

set_option maxRecDepth 16384

noncomputable section

namespace Cert.Proof

open Idealize.ShloMosaic Idealize.SL.Sem

/-- The word-level kernel's frame: generated. -/
theorem frame_k : Cert.frame_Kernel := fun m ρ _ => Cert.Kernel.Gen.frame m ρ

/-- The idealized kernel's frame: generated. -/
theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- The idealized kernel's run with its two results named. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v75_0) = Cert.KernelIdeal.KValue.out0 m c
        ∧ r.2.mem ((c.tc : Thread Cert.KernelIdeal.nD Cert.KernelIdeal.τ).loc Cert.KernelIdeal.main_v75_1) = Cert.KernelIdeal.KValue.out1 m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
        ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
        ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
        ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
        ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
        ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
        ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
        ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
        ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)) :=
  (θ_run Cert.KernelIdeal.defs _ _).mono (fun r h c =>
    ⟨(h c Cert.KernelIdeal.main_v75_0 (by decide)).trans (Cert.KernelIdeal.KValue.W6_out0 m ρ c),
     (h c Cert.KernelIdeal.main_v75_1 (by decide)).trans (Cert.KernelIdeal.KValue.W6_out1 m ρ c),
     (h c Cert.KernelIdeal.main_arg0 (by decide)).trans (Cert.KernelIdeal.Gen.W6_main_arg0 m ρ c),
     (h c Cert.KernelIdeal.main_arg1 (by decide)).trans (Cert.KernelIdeal.Gen.W6_main_arg1 m ρ c),
     (h c Cert.KernelIdeal.main_arg2 (by decide)).trans (Cert.KernelIdeal.Gen.W6_main_arg2 m ρ c),
     (h c Cert.KernelIdeal.main_arg3 (by decide)).trans (Cert.KernelIdeal.Gen.W6_main_arg3 m ρ c),
     (h c Cert.KernelIdeal.main_arg4 (by decide)).trans (Cert.KernelIdeal.Gen.W6_main_arg4 m ρ c),
     (h c Cert.KernelIdeal.main_arg5 (by decide)).trans (Cert.KernelIdeal.Gen.W6_main_arg5 m ρ c),
     (h c Cert.KernelIdeal.main_arg6 (by decide)).trans (Cert.KernelIdeal.Gen.W6_main_arg6 m ρ c),
     (h c Cert.KernelIdeal.main_arg7 (by decide)).trans (Cert.KernelIdeal.Gen.W6_main_arg7 m ρ c),
     (h c Cert.KernelIdeal.main_arg8 (by decide)).trans (Cert.KernelIdeal.Gen.W6_main_arg8 m ρ c),
     (h c Cert.KernelIdeal.main_arg9 (by decide)).trans (Cert.KernelIdeal.Gen.W6_main_arg9 m ρ c),
     (h c Cert.KernelIdeal.main_arg10 (by decide)).trans (Cert.KernelIdeal.Gen.W6_main_arg10 m ρ c),
     (h c Cert.KernelIdeal.main_arg11 (by decide)).trans (Cert.KernelIdeal.Gen.W6_main_arg11 m ρ c),
     (h c Cert.KernelIdeal.main_arg12 (by decide)).trans (Cert.KernelIdeal.Gen.W6_main_arg12 m ρ c),
     (h c Cert.KernelIdeal.main_arg13 (by decide)).trans (Cert.KernelIdeal.Gen.W6_main_arg13 m ρ c),
     (h c Cert.KernelIdeal.main_arg14 (by decide)).trans (Cert.KernelIdeal.Gen.W6_main_arg14 m ρ c),
     (h c Cert.KernelIdeal.main_arg15 (by decide)).trans (Cert.KernelIdeal.Gen.W6_main_arg15 m ρ c),
     (h c Cert.KernelIdeal.main_arg16 (by decide)).trans (Cert.KernelIdeal.Gen.W6_main_arg16 m ρ c),
     (h c Cert.KernelIdeal.main_arg17 (by decide)).trans (Cert.KernelIdeal.Gen.W6_main_arg17 m ρ c),
     (h c Cert.KernelIdeal.main_arg18 (by decide)).trans (Cert.KernelIdeal.Gen.W6_main_arg18 m ρ c),
     (h c Cert.KernelIdeal.main_arg19 (by decide)).trans (Cert.KernelIdeal.Gen.W6_main_arg19 m ρ c),
     (h c Cert.KernelIdeal.main_arg20 (by decide)).trans (Cert.KernelIdeal.Gen.W6_main_arg20 m ρ c),
     (h c Cert.KernelIdeal.main_arg21 (by decide)).trans (Cert.KernelIdeal.Gen.W6_main_arg21 m ρ c),
     (h c Cert.KernelIdeal.main_arg22 (by decide)).trans (Cert.KernelIdeal.Gen.W6_main_arg22 m ρ c),
     (h c Cert.KernelIdeal.main_arg23 (by decide)).trans (Cert.KernelIdeal.Gen.W6_main_arg23 m ρ c),
     (h c Cert.KernelIdeal.main_arg24 (by decide)).trans (Cert.KernelIdeal.Gen.W6_main_arg24 m ρ c),
     (h c Cert.KernelIdeal.main_arg25 (by decide)).trans (Cert.KernelIdeal.Gen.W6_main_arg25 m ρ c)⟩)
    (Cert.KernelIdeal.RunValue.run_boundary m ρ)

set_option maxHeartbeats 4000000 in
/-- The two idealized programs, run from memories that agree on the arguments, end with the same two results. -/
theorem algebraic : Cert.algebraic_KernelIdeal_ReferenceIdeal := by
  intro m ρ m' ρ' hpre hagree
  refine ⟨fun c => Cert.KernelIdeal.KValue.out0 m c, fun c => Cert.KernelIdeal.KValue.out1 m c, kernel_run m ρ, ?_⟩
  refine (θ_run Cert.ReferenceIdeal.defs _ _).mono (fun r h c => ?_) (Cert.ReferenceIdeal.RefRun.run (F := Ideal) m' ρ')
  obtain ⟨r0, r2, r4, r5, r6, r7, r8, r9, r10, r11, r12, r13, r14, r15, r16⟩ :=
    Cert.PreReal.reals_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (hpre c)
  obtain ⟨e0, e1, e2, e3, e4, e5, e6, e7, e8, e9, e10, e11, e12, e13, e14, e15, e16, e17, e18, e19, e20, e21, e22, e23, e24, e25⟩ := hagree c
  refine ⟨(h c).1.trans ?_, (h c).2.1.trans ?_, (h c).2.2⟩
  · rw [e0, e1, e2, e3, e4, e5, e6, e7, e8, e9, e10, e11, e12, e13, e14, e15, e16, e17, e18, e19, e20, e21, e22, e23, e24, e25]
    exact Cert.Proof.Bridge.out0_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))
      r0 r2 r4 r5 r6 r7 r8 r9 r10 r11 r12 r13 r14 r15 r16
  · rw [e0, e1, e2, e3, e4, e5, e6, e7, e8, e9, e10, e11, e12, e13, e14, e15, e16, e17, e18, e19, e20, e21, e22, e23]
    exact Cert.Proof.Bridge.out1_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))
      r0 r2 r4 r5 r6 r7 r8 r9 r10 r11 r12 r13 r14 r15 r16

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
